-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S6144x128 : Shape := ⟨2, ![6144, 128]⟩
abbrev S6144 : Shape := ⟨1, ![6144]⟩
abbrev S6144x3 : Shape := ⟨2, ![6144, 3]⟩
abbrev S1 : Shape := ⟨1, ![1]⟩
abbrev S1x128 : Shape := ⟨2, ![1, 128]⟩
abbrev S86x1 : Shape := ⟨2, ![86, 1]⟩
abbrev S_ : Shape := ⟨0, ![]⟩

class Facts : Prop where
  bcast_S_S6144x128 : S_.BroadcastsInDim S6144x128 (![] : Fin 0 → Fin S6144x128.rank)
  reducesTo_S6144x128_S_d0_1 : S6144x128.ReducesTo [0, 1] S_
  h_S_ : 0 < S_.numel
  bcast_S_S6144x3 : S_.BroadcastsInDim S6144x3 (![] : Fin 0 → Fin S6144x3.rank)
  reducesTo_S6144x3_S_d0_1 : S6144x3.ReducesTo [0, 1] S_
  bcast_S_S1 : S_.BroadcastsInDim S1 (![] : Fin 0 → Fin S1.rank)
  reducesTo_S1_S_d0 : S1.ReducesTo [0] S_
  bcast_S_S1x128 : S_.BroadcastsInDim S1x128 (![] : Fin 0 → Fin S1x128.rank)
  reducesTo_S1x128_S_d0_1 : S1x128.ReducesTo [0, 1] S_
  bcast_S_S86x1 : S_.BroadcastsInDim S86x1 (![] : Fin 0 → Fin S86x1.rank)
  reducesTo_S86x1_S_d0_1 : S86x1.ReducesTo [0, 1] S_

variable [Facts]

def fn_part1 {F : FTy → Type} [FloatOps F] (main_arg5 : FVec F S86x1 .f32) (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  let main_v19 : FVec F S86x1 .f32 := Host.absf main_arg5
  let main_cst_6 : FVec F S_ .f32 := constant S_ .f32 0x7F800000#32
  let main_v20 : FVec F S86x1 .f32 := broadcastInDim S86x1 ![] bcast_S_S86x1 main_cst_6
  let main_v21 : IVec S86x1 1 := cmpf .olt main_v19 main_v20
  let main_c_7 : IVec S_ 1 := constantI S_ 1 1#1
  let main_v22 : IVec S_ 1 := (fun x v => Host.reduce IntOp.andi x v reducesTo_S86x1_S_d0_1 h_S_) main_v21 main_c_7
  let main_v23 : IVec S_ 1 := andi main_v18 main_v22
  main_v23

def fn {F : FTy → Type} [FloatOps F] (main_arg0 : FVec F S6144x128 .f32) (main_arg1 : IVec S6144 32) (main_arg2 : FVec F S6144x3 .f32) (main_arg3 : FVec F S1 .f32) (main_arg4 : FVec F S1x128 .f32) (main_arg5 : FVec F S86x1 .f32) : IVec S_ 1 :=
  let main_v0 : FVec F S6144x128 .f32 := Host.absf main_arg0
  let main_cst : FVec F S_ .f32 := constant S_ .f32 0x7F800000#32
  let main_v1 : FVec F S6144x128 .f32 := broadcastInDim S6144x128 ![] bcast_S_S6144x128 main_cst
  let main_v2 : IVec S6144x128 1 := cmpf .olt main_v0 main_v1
  let main_c : IVec S_ 1 := constantI S_ 1 1#1
  let main_v3 : IVec S_ 1 := (fun x v => Host.reduce IntOp.andi x v reducesTo_S6144x128_S_d0_1 h_S_) main_v2 main_c
  let main_v4 : FVec F S6144x3 .f32 := Host.absf main_arg2
  let main_cst_0 : FVec F S_ .f32 := constant S_ .f32 0x7F800000#32
  let main_v5 : FVec F S6144x3 .f32 := broadcastInDim S6144x3 ![] bcast_S_S6144x3 main_cst_0
  let main_v6 : IVec S6144x3 1 := cmpf .olt main_v4 main_v5
  let main_c_1 : IVec S_ 1 := constantI S_ 1 1#1
  let main_v7 : IVec S_ 1 := (fun x v => Host.reduce IntOp.andi x v reducesTo_S6144x3_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S1x128 .f32 := Host.absf main_arg4
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_arg5 main_v13 main_v16
-- ==== Kernel.lean ====
abbrev S6144x128 : Shape := ⟨2, ![6144, 128]⟩
abbrev S6144 : Shape := ⟨1, ![6144]⟩
abbrev S6144x3 : Shape := ⟨2, ![6144, 3]⟩
abbrev S1 : Shape := ⟨1, ![1]⟩
abbrev S1x128 : Shape := ⟨2, ![1, 128]⟩
abbrev S86x1 : Shape := ⟨2, ![86, 1]⟩
abbrev S128x1 : Shape := ⟨2, ![128, 1]⟩
abbrev S6144x1 : Shape := ⟨2, ![6144, 1]⟩
abbrev S_ : Shape := ⟨0, ![]⟩
abbrev S1x1 : Shape := ⟨2, ![1, 1]⟩
abbrev S512x3 : Shape := ⟨2, ![512, 3]⟩
abbrev S512x1 : Shape := ⟨2, ![512, 1]⟩
abbrev S512x512 : Shape := ⟨2, ![512, 512]⟩
abbrev S1x512 : Shape := ⟨2, ![1, 512]⟩
abbrev S512 : Shape := ⟨1, ![512]⟩

abbrev nBuf : Space → Nat
  | .hbm => 28
  | .vmem => 10
  | .smem => 0
  | _ => 0

abbrev bufTy : (tb : Table) → Fin (tcTables nBuf tb) → BufTy
  | .hbm, ⟨0, _⟩ => ⟨S6144x128, .f32⟩
  | .hbm, ⟨1, _⟩ => ⟨S6144, .i32⟩
  | .hbm, ⟨2, _⟩ => ⟨S6144x3, .f32⟩
  | .hbm, ⟨3, _⟩ => ⟨S1, .f32⟩
  | .hbm, ⟨4, _⟩ => ⟨S1x128, .f32⟩
  | .hbm, ⟨5, _⟩ => ⟨S86x1, .f32⟩
  | .hbm, ⟨6, _⟩ => ⟨S128x1, .f32⟩
  | .hbm, ⟨7, _⟩ => ⟨S6144x1, .f32⟩
  | .hbm, ⟨8, _⟩ => ⟨S_, .i32⟩
  | .hbm, ⟨9, _⟩ => ⟨S6144, .i32⟩
  | .hbm, ⟨10, _⟩ => ⟨S6144, .i1⟩
  | .hbm, ⟨11, _⟩ => ⟨S_, .i32⟩
  | .hbm, ⟨12, _⟩ => ⟨S6144, .i32⟩
  | .hbm, ⟨13, _⟩ => ⟨S6144, .i32⟩
  | .hbm, ⟨14, _⟩ => ⟨S6144, .i32⟩
  | .hbm, ⟨15, _⟩ => ⟨S6144x1, .i32⟩
  | .hbm, ⟨16, _⟩ => ⟨S6144x1, .f32⟩
  | .hbm, ⟨17, _⟩ => ⟨S6144x1, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S6144x1, .f32⟩
  | .hbm, ⟨25, _⟩ => ⟨S6144x1, .f32⟩
  | .hbm, ⟨26, _⟩ => ⟨S1x1, .f32⟩
  | .hbm, ⟨27, _⟩ => ⟨S_, .f32⟩
  | .local _ .vmem, ⟨0, _⟩ => ⟨S512x3, .f32⟩
  | .local _ .vmem, ⟨1, _⟩ => ⟨S512x3, .f32⟩
  | .local _ .vmem, ⟨2, _⟩ => ⟨S512x3, .f32⟩
  | .local _ .vmem, ⟨3, _⟩ => ⟨S512x3, .f32⟩
  | .local _ .vmem, ⟨4, _⟩ => ⟨S512x1, .f32⟩
  | .local _ .vmem, ⟨5, _⟩ => ⟨S512x1, .f32⟩
  | .local _ .vmem, ⟨6, _⟩ => ⟨S512x1, .f32⟩
  | .local _ .vmem, ⟨7, _⟩ => ⟨S512x1, .f32⟩
  | .local _ .vmem, ⟨8, _⟩ => ⟨S1x1, .f32⟩
  | .local _ .vmem, ⟨9, _⟩ => ⟨S1x1, .f32⟩
  | _, _ => ⟨S6144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨2, ![12, 12], ![false, false]⟩

def k0_cond2 (i : grid0.Coords) : BitVec 1 :=
  let arg0 : BitVec 32 := BitVec.ofNat 32 (i 0).val
  let c11_i32 : BitVec 32 := 11#32
  let v107 : BitVec 1 := Scalar.cmpi .eq arg0 c11_i32
  let arg1 : BitVec 32 := BitVec.ofNat 32 (i 1).val
  let c11_i32_35 : BitVec 32 := 11#32
  let v108 : BitVec 1 := Scalar.cmpi .eq arg1 c11_i32_35
  let v109 : BitVec 1 := Scalar.andi v107 v108
  let v110 : BitVec 32 := Scalar.extui v109
  let c0_i32_36 : BitVec 32 := 0#32
  let v111 : BitVec 1 := Scalar.cmpi .ne v110 c0_i32_36
  v111

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  transposes_S1x128_S128x1_1_0 : S1x128.Transposes [1, 0] S128x1
  bcast_S_S6144 : S_.BroadcastsInDim S6144 (![] : Fin 0 → Fin S6144.rank)
  bcast_S6144_S6144x1_0 : S6144.BroadcastsInDim S6144x1 (![0] : Fin 1 → Fin S6144x1.rank)
  shapeCasts_S1_S_ : S1.ShapeCasts S_
  reducesTo_S6144x1_S_d0_1 : S6144x1.ReducesTo [0, 1] S_
  h_S_ : 0 < S_.numel
  bcast_S_S6144x1 : S_.BroadcastsInDim S6144x1 (![] : Fin 0 → Fin S6144x1.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x3_S512x3_0_0 : ∀ a, (![0, 0] : Fin 2 → Nat) a + S512x3.size a ≤ S512x3.size a
  h_S512x3 : 0 < S512x3.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  slices_S512x3_o0_0_S512x1 : S512x3.Slices ![0, 0] S512x1
  transposes_S512x1_p1_0_S1x512 : S512x1.Transposes [1, 0] S1x512
  broadcasts_S512x1_S512x512 : S512x1.Broadcasts S512x512
  broadcasts_S1x512_S512x512 : S1x512.Broadcasts S512x512
  slices_S512x3_o0_1_S512x1 : S512x3.Slices ![0, 1] S512x1
  slices_S512x3_o0_2_S512x1 : S512x3.Slices ![0, 2] S512x1
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  reduces_S512x1_S1 : S512x1.Reduces [0] S1
  shapeCasts_S1_S1x1 : S1.ShapeCasts S1x1
  shapeCasts_S1x1_S_ : S1x1.ShapeCasts S_
  dot_S6144x128_S128x1_S6144x1_1_0_0_1_n_n_wf : DotDims.WF S6144x128 S128x1 S6144x1 [1] [0] [0] [1] [] []
  gather_S86x1_S6144x1_S6144x1_1_0_n_n_0_1_11_wf : GatherDims.WF S86x1 S6144x1 S6144x1 [1] [0] [] [0] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3.size a ≤ S6144x3.size a
  hwx0_0 : ∀ i : grid0.Coords, EltTy.bits .f32 = 32 ∨ (Rect.block (s := S6144x3) S512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x3.size a ≤ S6144x3.size a
  hwx0_1 : ∀ i : grid0.Coords, EltTy.bits .f32 = 32 ∨ (Rect.block (s := S6144x3) S512x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S6144x1.size a
  hwx0_2 : ∀ i : grid0.Coords, EltTy.bits .f32 = 32 ∨ (Rect.block (s := S6144x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S6144x1.size a
  hwx0_3 : ∀ i : grid0.Coords, EltTy.bits .f32 = 32 ∨ (Rect.block (s := S6144x1) S512x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def dot_S6144x128_S128x1_S6144x1_1_0_0_1_n_n : DotDims S6144x128 S128x1 S6144x1 where
  lhsContracting := [1]
  rhsContracting := [0]
  lhsNonContracting := [0]
  rhsNonContracting := [1]
  lhsBatch := []
  rhsBatch := []
  wf := dot_S6144x128_S128x1_S6144x1_1_0_0_1_n_n_wf
def gather_S86x1_S6144x1_S6144x1_1_0_n_n_0_1_11 : GatherDims S86x1 S6144x1 S6144x1 where
  offsetDims := [1]
  collapsedSliceDims := [0]
  operandBatchingDims := []
  startIndicesBatchingDims := []
  startIndexMap := [0]
  indexVectorDim := 1
  sliceSizes := ![1, 1]
  wf := gather_S86x1_S6144x1_S6144x1_1_0_n_n_0_1_11_wf

abbrev win0_0 : Pipeline.Window sig grid0 :=
  Pipeline.Window.ofSpec (Memref.whole main_arg2) S512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S6144x128 : Shape := ⟨2, ![6144, 128]⟩
abbrev S6144 : Shape := ⟨1, ![6144]⟩
abbrev S6144x3 : Shape := ⟨2, ![6144, 3]⟩
abbrev S1 : Shape := ⟨1, ![1]⟩
abbrev S1x128 : Shape := ⟨2, ![1, 128]⟩
abbrev S86x1 : Shape := ⟨2, ![86, 1]⟩
abbrev S128x1 : Shape := ⟨2, ![128, 1]⟩
abbrev S6144x1 : Shape := ⟨2, ![6144, 1]⟩
abbrev S_ : Shape := ⟨0, ![]⟩
abbrev S1x6144 : Shape := ⟨2, ![1, 6144]⟩
abbrev S6144x6144 : Shape := ⟨2, ![6144, 6144]⟩
abbrev S3x6144 : Shape := ⟨2, ![3, 6144]⟩

abbrev nBuf : Space → Nat
  | .hbm => 135
  | .vmem => 0
  | .smem => 0
  | _ => 0

abbrev hbmTy0_0 (i : Nat) : BufTy := match i % 128 with
  | 0 => ⟨S6144x128, .f32⟩
  | 1 => ⟨S6144, .i32⟩
  | 2 => ⟨S6144x3, .f32⟩
  | 3 => ⟨S1, .f32⟩
  | 4 => ⟨S1x128, .f32⟩
  | 5 => ⟨S86x1, .f32⟩
  | 6 => ⟨S128x1, .f32⟩
  | 7 => ⟨S6144x1, .f32⟩
  | 8 => ⟨S_, .i32⟩
  | 9 => ⟨S6144, .i32⟩
  | 10 => ⟨S6144, .i1⟩
  | 11 => ⟨S_, .i32⟩
  | 12 => ⟨S6144, .i32⟩
  | 13 => ⟨S6144, .i32⟩
  | 14 => ⟨S6144, .i32⟩
  | 15 => ⟨S6144x1, .i32⟩
  | 16 => ⟨S6144x1, .f32⟩
  | 17 => ⟨S6144x1, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S6144x1, .f32⟩
  | 25 => ⟨S6144x1, .f32⟩
  | 26 => ⟨S6144, .f32⟩
  | 27 => ⟨S6144x3, .f32⟩
  | 28 => ⟨S_, .f32⟩
  | 29 => ⟨S6144, .f32⟩
  | 30 => ⟨S6144x1, .f32⟩
  | 31 => ⟨S1x6144, .f32⟩
  | 32 => ⟨S6144x6144, .f32⟩
  | 33 => ⟨S6144x6144, .f32⟩
  | 34 => ⟨S6144x6144, .f32⟩
  | 35 => ⟨S3x6144, .f32⟩
  | 36 => ⟨S6144x6144, .f32⟩
  | 37 => ⟨S_, .f32⟩
  | 38 => ⟨S6144x6144, .f32⟩
  | 39 => ⟨S6144x6144, .f32⟩
  | 40 => ⟨S6144x6144, .f32⟩
  | 41 => ⟨S_, .f32⟩
  | 42 => ⟨S6144x6144, .f32⟩
  | 43 => ⟨S6144x6144, .f32⟩
  | 44 => ⟨S_, .i1⟩
  | 45 => ⟨S6144x6144, .i1⟩
  | 46 => ⟨S6144x6144, .i32⟩
  | 47 => ⟨S_, .i32⟩
  | 48 => ⟨S6144x6144, .i32⟩
  | 49 => ⟨S6144x6144, .i32⟩
  | 50 => ⟨S6144x6144, .i32⟩
  | 51 => ⟨S6144x6144, .i1⟩
  | 52 => ⟨S_, .i1⟩
  | 53 => ⟨S6144x6144, .i1⟩
  | 54 => ⟨S6144x6144, .i1⟩
  | 55 => ⟨S_, .f32⟩
  | 56 => ⟨S6144x6144, .f32⟩
  | 57 => ⟨S6144x6144, .i1⟩
  | 58 => ⟨S6144x6144, .i1⟩
  | 59 => ⟨S_, .f32⟩
  | 60 => ⟨S_, .f32⟩
  | 61 => ⟨S6144x6144, .f32⟩
  | 62 => ⟨S6144x6144, .f32⟩
  | 63 => ⟨S6144x6144, .f32⟩
  | 64 => ⟨S_, .f32⟩
  | 65 => ⟨S6144x6144, .f32⟩
  | 66 => ⟨S6144x6144, .f32⟩
  | 67 => ⟨S_, .f32⟩
  | 68 => ⟨S6144x6144, .f32⟩
  | 69 => ⟨S6144x6144, .f32⟩
  | 70 => ⟨S_, .f32⟩
  | 71 => ⟨S6144x6144, .f32⟩
  | 72 => ⟨S6144x6144, .f32⟩
  | 73 => ⟨S_, .f32⟩
  | 74 => ⟨S6144x6144, .f32⟩
  | 75 => ⟨S6144x6144, .i1⟩
  | 76 => ⟨S_, .f32⟩
  | 77 => ⟨S_, .f32⟩
  | 78 => ⟨S6144x6144, .f32⟩
  | 79 => ⟨S6144x6144, .f32⟩
  | 80 => ⟨S_, .f32⟩
  | 81 => ⟨S6144x6144, .f32⟩
  | 82 => ⟨S6144x6144, .i1⟩
  | 83 => ⟨S_, .f32⟩
  | 84 => ⟨S6144x6144, .f32⟩
  | 85 => ⟨S6144x6144, .f32⟩
  | 86 => ⟨S6144x6144, .f32⟩
  | 87 => ⟨S_, .f32⟩
  | 88 => ⟨S_, .f32⟩
  | 89 => ⟨S6144x6144, .f32⟩
  | 90 => ⟨S6144x6144, .f32⟩
  | 91 => ⟨S_, .f32⟩
  | 92 => ⟨S6144x6144, .f32⟩
  | 93 => ⟨S6144x6144, .i1⟩
  | 94 => ⟨S_, .f32⟩
  | 95 => ⟨S_, .f32⟩
  | 96 => ⟨S6144x6144, .f32⟩
  | 97 => ⟨S6144x6144, .f32⟩
  | 98 => ⟨S_, .f32⟩
  | 99 => ⟨S6144x6144, .f32⟩
  | 100 => ⟨S6144x6144, .i1⟩
  | 101 => ⟨S_, .f32⟩
  | 102 => ⟨S6144x6144, .f32⟩
  | 103 => ⟨S6144x6144, .f32⟩
  | 104 => ⟨S6144x6144, .f32⟩
  | 105 => ⟨S_, .f32⟩
  | 106 => ⟨S_, .f32⟩
  | 107 => ⟨S6144x6144, .f32⟩
  | 108 => ⟨S6144x6144, .f32⟩
  | 109 => ⟨S6144x6144, .f32⟩
  | 110 => ⟨S6144x6144, .f32⟩
  | 111 => ⟨S_, .f32⟩
  | 112 => ⟨S6144x6144, .f32⟩
  | 113 => ⟨S6144x6144, .f32⟩
  | 114 => ⟨S6144x6144, .f32⟩
  | 115 => ⟨S6144x6144, .f32⟩
  | 116 => ⟨S_, .f32⟩
  | 117 => ⟨S6144x6144, .f32⟩
  | 118 => ⟨S6144x6144, .f32⟩
  | 119 => ⟨S6144x6144, .f32⟩
  | 120 => ⟨S6144x6144, .f32⟩
  | 121 => ⟨S6144x1, .f32⟩
  | 122 => ⟨S1x6144, .f32⟩
  | 123 => ⟨S6144x6144, .f32⟩
  | 124 => ⟨S6144x6144, .f32⟩
  | 125 => ⟨S6144x6144, .f32⟩
  | 126 => ⟨S6144x6144, .f32⟩
  | 127 => ⟨S_, .f32⟩
  | _ => ⟨S6144x128, .f32⟩

abbrev hbmTy0_1 (i : Nat) : BufTy := match i % 128 with
  | 0 => ⟨S_, .f32⟩
  | 1 => ⟨S6144x6144, .f32⟩
  | 2 => ⟨S6144x6144, .f32⟩
  | 3 => ⟨S_, .f32⟩
  | 4 => ⟨S_, .f32⟩
  | 5 => ⟨S_, .f32⟩
  | 6 => ⟨S_, .f32⟩
  | _ => ⟨S6144x128, .f32⟩

abbrev hbmTy (i : Nat) : BufTy := match i / 128 with
  | 0 => hbmTy0_0 i
  | 1 => hbmTy0_1 i
  | _ => ⟨S6144x128, .f32⟩

abbrev bufTy : (tb : Table) → Fin (tcTables nBuf tb) → BufTy
  | .hbm, ⟨i, _⟩ => hbmTy i
  | _, _ => ⟨S6144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_call0_v0 : Ref sig .tc := ⟨.hbm, 46, rfl⟩
abbrev main_call0_c : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_c_0 : Ref sig .tc := ⟨.hbm, 52, rfl⟩
abbrev main_call0_v5 : Ref sig .tc := ⟨.hbm, 53, rfl⟩
abbrev main_v32 : Ref sig .tc := ⟨.hbm, 54, rfl⟩
abbrev main_cst_6 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_7 : Ref sig .tc := ⟨.hbm, 59, rfl⟩
abbrev main_call1_v0 : Ref sig .tc := ⟨.hbm, 60, rfl⟩
abbrev main_call1_v1 : Ref sig .tc := ⟨.hbm, 61, rfl⟩
abbrev main_v36 : Ref sig .tc := ⟨.hbm, 62, rfl⟩
abbrev main_v37 : Ref sig .tc := ⟨.hbm, 63, rfl⟩
abbrev main_cst_8 : Ref sig .tc := ⟨.hbm, 64, rfl⟩
abbrev main_v38 : Ref sig .tc := ⟨.hbm, 65, rfl⟩
abbrev main_v39 : Ref sig .tc := ⟨.hbm, 66, rfl⟩
abbrev main_cst_9 : Ref sig .tc := ⟨.hbm, 67, rfl⟩
abbrev main_v40 : Ref sig .tc := ⟨.hbm, 68, rfl⟩
abbrev main_v41 : Ref sig .tc := ⟨.hbm, 69, rfl⟩
abbrev main_cst_10 : Ref sig .tc := ⟨.hbm, 70, rfl⟩
abbrev main_v42 : Ref sig .tc := ⟨.hbm, 71, rfl⟩
abbrev main_v43 : Ref sig .tc := ⟨.hbm, 72, rfl⟩
abbrev main_cst_11 : Ref sig .tc := ⟨.hbm, 73, rfl⟩
abbrev main_v44 : Ref sig .tc := ⟨.hbm, 74, rfl⟩
abbrev main_v45 : Ref sig .tc := ⟨.hbm, 75, rfl⟩
abbrev main_cst_12 : Ref sig .tc := ⟨.hbm, 76, rfl⟩
abbrev main_call2_v0 : Ref sig .tc := ⟨.hbm, 77, rfl⟩
abbrev main_call2_v1 : Ref sig .tc := ⟨.hbm, 78, rfl⟩
abbrev main_v46 : Ref sig .tc := ⟨.hbm, 79, rfl⟩
abbrev main_cst_13 : Ref sig .tc := ⟨.hbm, 80, rfl⟩
abbrev main_v47 : Ref sig .tc := ⟨.hbm, 81, rfl⟩
abbrev main_v48 : Ref sig .tc := ⟨.hbm, 82, rfl⟩
abbrev main_cst_14 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_cst_15 : Ref sig .tc := ⟨.hbm, 87, rfl⟩
abbrev main_call3_v0 : Ref sig .tc := ⟨.hbm, 88, rfl⟩
abbrev main_call3_v1 : Ref sig .tc := ⟨.hbm, 89, rfl⟩
abbrev main_v52 : Ref sig .tc := ⟨.hbm, 90, rfl⟩
abbrev main_cst_16 : Ref sig .tc := ⟨.hbm, 91, rfl⟩
abbrev main_v53 : Ref sig .tc := ⟨.hbm, 92, rfl⟩
abbrev main_v54 : Ref sig .tc := ⟨.hbm, 93, rfl⟩
abbrev main_cst_17 : Ref sig .tc := ⟨.hbm, 94, rfl⟩
abbrev main_call4_v0 : Ref sig .tc := ⟨.hbm, 95, rfl⟩
abbrev main_call4_v1 : Ref sig .tc := ⟨.hbm, 96, rfl⟩
abbrev main_v55 : Ref sig .tc := ⟨.hbm, 97, rfl⟩
abbrev main_cst_18 : Ref sig .tc := ⟨.hbm, 98, rfl⟩
abbrev main_v56 : Ref sig .tc := ⟨.hbm, 99, rfl⟩
abbrev main_v57 : Ref sig .tc := ⟨.hbm, 100, rfl⟩
abbrev main_cst_19 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_cst_20 : Ref sig .tc := ⟨.hbm, 105, rfl⟩
abbrev main_call5_v0 : Ref sig .tc := ⟨.hbm, 106, rfl⟩
abbrev main_call5_v1 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_cst_21 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_cst_22 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_cst_23 : Ref sig .tc := ⟨.hbm, 127, rfl⟩
abbrev main_call6_v0 : Ref sig .tc := ⟨.hbm, 128, rfl⟩
abbrev main_call6_v1 : Ref sig .tc := ⟨.hbm, 129, rfl⟩
abbrev main_v78 : Ref sig .tc := ⟨.hbm, 130, rfl⟩
abbrev main_cst_24 : Ref sig .tc := ⟨.hbm, 131, rfl⟩
abbrev main_v79 : Ref sig .tc := ⟨.hbm, 132, rfl⟩
abbrev main_cst_25 : Ref sig .tc := ⟨.hbm, 133, rfl⟩
abbrev main_v80 : Ref sig .tc := ⟨.hbm, 134, rfl⟩

abbrev nD : Nat := 1
abbrev τ : Topo := Topo.v7x

variable {F : FTy → Type} [FloatOps F]

class Facts₀ : Prop where
  transposes_S1x128_S128x1_1_0 : S1x128.Transposes [1, 0] S128x1
  bcast_S_S6144 : S_.BroadcastsInDim S6144 (![] : Fin 0 → Fin S6144.rank)
  bcast_S6144_S6144x1_0 : S6144.BroadcastsInDim S6144x1 (![0] : Fin 1 → Fin S6144x1.rank)
  shapeCasts_S1_S_ : S1.ShapeCasts S_
  reducesTo_S6144x1_S_d0_1 : S6144x1.ReducesTo [0, 1] S_
  h_S_ : 0 < S_.numel
  bcast_S_S6144x1 : S_.BroadcastsInDim S6144x1 (![] : Fin 0 → Fin S6144x1.rank)
  shapeCasts_S6144x1_S6144 : S6144x1.ShapeCasts S6144
  reducesTo_S6144x3_S6144_d1 : S6144x3.ReducesTo [1] S6144
  bcast_S6144_S1x6144_1 : S6144.BroadcastsInDim S1x6144 (![1] : Fin 1 → Fin S1x6144.rank)
  bcast_S6144x1_S6144x6144_0_1 : S6144x1.BroadcastsInDim S6144x6144 (![0, 1] : Fin 2 → Fin S6144x6144.rank)
  bcast_S1x6144_S6144x6144_0_1 : S1x6144.BroadcastsInDim S6144x6144 (![0, 1] : Fin 2 → Fin S6144x6144.rank)
  transposes_S6144x3_S3x6144_1_0 : S6144x3.Transposes [1, 0] S3x6144
  bcast_S_S6144x6144 : S_.BroadcastsInDim S6144x6144 (![] : Fin 0 → Fin S6144x6144.rank)
  reducesTo_S6144x6144_S_d0_1 : S6144x6144.ReducesTo [0, 1] S_
  dot_S6144x128_S128x1_S6144x1_1_0_0_1_n_n_wf : DotDims.WF S6144x128 S128x1 S6144x1 [1] [0] [0] [1] [] []
  gather_S86x1_S6144x1_S6144x1_1_0_n_n_0_1_11_wf : GatherDims.WF S86x1 S6144x1 S6144x1 [1] [0] [] [0] [] 1 ![1, 1]
  dot_S6144x3_S3x6144_S6144x6144_1_0_0_1_n_n_wf : DotDims.WF S6144x3 S3x6144 S6144x6144 [1] [0] [0] [1] [] []

variable [Facts₀]

def dot_S6144x128_S128x1_S6144x1_1_0_0_1_n_n : DotDims S6144x128 S128x1 S6144x1 where
  lhsContracting := [1]
  rhsContracting := [0]
  lhsNonContracting := [0]
  rhsNonContracting := [1]
  lhsBatch := []
  rhsBatch := []
  wf := dot_S6144x128_S128x1_S6144x1_1_0_0_1_n_n_wf
def gather_S86x1_S6144x1_S6144x1_1_0_n_n_0_1_11 : GatherDims S86x1 S6144x1 S6144x1 where
  offsetDims := [1]
  collapsedSliceDims := [0]
  operandBatchingDims := []
  startIndicesBatchingDims := []
  startIndexMap := [0]
  indexVectorDim := 1
  sliceSizes := ![1, 1]
  wf := gather_S86x1_S6144x1_S6144x1_1_0_n_n_0_1_11_wf
def dot_S6144x3_S3x6144_S6144x6144_1_0_0_1_n_n : DotDims S6144x3 S3x6144 S6144x6144 where
  lhsContracting := [1]
  rhsContracting := [0]
  lhsNonContracting := [0]
  rhsNonContracting := [1]
  lhsBatch := []
  rhsBatch := []
  wf := dot_S6144x3_S3x6144_S6144x6144_1_0_0_1_n_n_wf

class Facts : Prop extends Facts₀ where

variable [Facts]
-- ==== Proof.Kernel.Tile.lean ====
/-
  What one grid point adds to the running sum, as a function of what the body loads there.

  At grid point (ti, tj) the body loads two blocks of 512 positions (rows 512·ti … and rows 512·tj …) and the two
  matching blocks of charges, forms the 512 × 512 table of pair contributions, sums it, and adds the sum to the
  running total it keeps between grid points.  `tileAcc` is the new running total written back, composed of the
  body's named pure steps; `accAfter` the running total after each grid point, the first point starting from the
  zero the body writes there; `scaled` the total times the Coulomb constant, which the last point writes out.
  All three are stated at any float instance.
-/
import proofs.«116778_j56684978372796_1_alg».proof.Proof.Gen.Kernel.Skeleton

noncomputable section

namespace Cert.Kernel.Pair

open Idealize.ShloMosaic Cert.Kernel Cert.Kernel.Gen

variable {F : FTy → Type} [FloatOps F]

/-- The floored squared distances of the point's two position blocks (a 512 × 512 table). -/
def dist2 (v5 v6 : Vec F S512x3 .f32) : FVec F S512x512 .f32 := k0_pay6 v5 v6

/-- The running total after the body at grid point `i`: the total before, plus the sum of the point's table. -/
def tileAcc (i : grid0.Coords) (v5 v6 : Vec F S512x3 .f32) (v7 v9 : Vec F S512x1 .f32) (acc : Vec F S1x1 .f32) :
    FVec F S1x1 .f32 :=
  k0_pay1 (k0_pay4 v7) (k0_pay5 v9)
    (k0_pay8 (BitVec.ofNat 32 (i 1).val) (dist2 v5 v6) (k0_pay7 i) 512#32)
    (k0_pay10 (BitVec.ofNat 32 (i 1).val) (dist2 v5 v6) (k0_pay7 i) 512#32)
    (k0_pay11 (BitVec.ofNat 32 (i 1).val) (dist2 v5 v6) (k0_pay7 i) 512#32)
    (k0_pay12 (BitVec.ofNat 32 (i 1).val) (dist2 v5 v6) (k0_pay7 i) 512#32)
    acc

/-- The zero the first grid point writes into the running total before adding to it. -/
def accInit : FVec F S1x1 .f32 := k0_pay3

/-- The total times the Coulomb constant. -/
def scaled (acc : Vec F S1x1 .f32) : FVec F S1x1 .f32 := k0_pay2 acc

end Cert.Kernel.Pair

end
-- ==== Proof.Kernel.Runs.lean ====
/-
  What the three runs of the kernel body share.

  The body has two conditionals on the grid coordinates: "this is the first grid point" (the running total is
  zeroed) and "this is the last grid point" (the scaled total is written out).  Over the 12 × 12 grid they hold
  exactly at points 0 and 143, which is decided once here.  Also here: what every unscoped buffer holds when the
  region is entered (the host operations before it applied to the launch contents), the program's shape around
  the region, each input window's block at a grid point, and names for the staging and scratch buffers.
-/
import proofs.«116778_j56684978372796_1_alg».proof.Proof.Gen.Kernel.Launch
import proofs.«116778_j56684978372796_1_alg».proof.Proof.Gen.Kernel.Skeleton
import proofs.«116778_j56684978372796_1_alg».proof.Proof.Gen.Kernel.Points
import proofs.«116778_j56684978372796_1_alg».proof.Proof.Kernel.Tile
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- What core `c`'s buffers hold when the region is entered: the host operations before it, applied in order to the
    launch contents. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host operations before the region, the region, the one host operation after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every grid point, fetched there or not (when it is not
    fetched its block index has not moved), for any proof data over these arrays whose body leaves inputs alone. -/
theorem before_in_of {c : Dev nD} (dat : Dat τ (Elt F) Unit ℕ (UR sig nD τ) ℕ cfg0 c) (w : Fin cfg0.W)
    (hw : (cfg0.win w).isOut = false) (hlive : ∀ i, cfg0.idle w i = false)
    (hclip : ∀ t t' : Fin cfg0.N, (cfg0.win w).index t = (cfg0.win w).index t' →
      (cfg0.win w).clip (cfg0.grid.coords t) = (cfg0.win w).clip (cfg0.grid.coords t'))
    (hA : dat.A w = V m c (Pipeline.arrRef spec0 w))
    (hafter : ∀ t, (cfg0.win w).cut (cfg0.grid.coords t) (dat.after w t) = iblk m c w t) (t : Fin cfg0.N) (d) :
    dat.before w t d = dat.fetched w t d :=
  dat.before_in_eq_fetched w hw hlive hclip (fun t => by rw [hafter]; unfold Dat.blockOf iblk; rw [hA]) t d

/-! ## The body's two conditions -/

/-- "First grid point": the body's first conditional, as it computes it from the coordinates. -/
abbrev isFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at point 0 only. -/
theorem isFirst_iff : ∀ t : Fin cfg0.N, isFirst (grid0.coords t) ↔ t.val = 0 :=
  (by decide +kernel : ∀ t : Fin grid0.N, isFirst (grid0.coords t) ↔ t.val = 0)

/-- "Last grid point": the body's second conditional. -/
abbrev isLast (i : grid0.Coords) : Prop := k0_cond2 i = 1#1
/-- It holds at point 143 only. -/
theorem isLast_iff : ∀ t : Fin cfg0.N, isLast (grid0.coords t) ↔ t.val = 143 :=
  (by decide +kernel : ∀ t : Fin grid0.N, isLast (grid0.coords t) ↔ t.val = 143)

/-! ## Where the windows are idle, and where the output is written back -/

theorem live0 : ∀ i, cfg0.idle 0 i = false := fun _ => rfl
theorem live1 : ∀ i, cfg0.idle 1 i = false := fun _ => rfl
theorem live2 : ∀ i, cfg0.idle 2 i = false := fun _ => rfl
theorem live3 : ∀ i, cfg0.idle 3 i = false := fun _ => rfl
/-- Away from the last point the body stores nothing into the output window, -/
theorem idle4_of_not_last : ∀ t : Fin cfg0.N, ¬isLast (grid0.coords t) → cfg0.idle 4 (grid0.coords t) = true := by decide +kernel
/-- and the pipeline does not write its block back there; -/
theorem noFlush4_of_not_last : ∀ t : Fin cfg0.N, ¬isLast (grid0.coords t) → (cfg0.win 4).flush t = false := by decide +kernel
/-- at the last point the body stores into it -/
theorem live4_of_last : ∀ t : Fin cfg0.N, isLast (grid0.coords t) → cfg0.idle 4 (grid0.coords t) = false := by decide +kernel

/-! ## The buffers the body is called with -/

abbrev ms0 (t : Fin cfg0.N) : Memref sig .tc .vmem S512x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)
/-- The running total's buffer: a scratch buffer of the kernel's own, kept between grid points. -/
abbrev scM : Memref sig .tc .vmem S1x1 .f32 := Memref.whole cc0_scratch0
/-- Views through which the contents of the output's staging buffer and of the running total are stated. -/
abbrev VO : View sig .tc .vmem S1x1 .f32 := (Memref.whole cc0_stg4_0 : Memref sig .tc .vmem S1x1 .f32).view
abbrev VS : View sig .tc .vmem S1x1 .f32 := scM.view

/-- The scoped buffers that are no staging buffer are the running total's buffer, at some contents. -/
theorem scopedRest_eq (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; rfl

end Cert.Kernel.Pair

end
-- ==== Proof.Kernel.RunFirst.lean ====
/-
  The body at the FIRST grid point: the running total is zeroed, the point's table is summed into it, and
  nothing is stored into the output's staging buffer.  Stated for any whole staging buffers holding the four input
  blocks: the body runs, leaves the inputs and the output's buffer as they were, and leaves the running total's
  buffer overwritten by the pieces the run finds.
-/
import proofs.«116778_j56684978372796_1_alg».proof.Proof.Kernel.Runs

set_option maxRecDepth 16384

noncomputable section

namespace Cert.Kernel.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def runFirst (c : Dev nD) (i : grid0.Coords) (arg2 : Memref sig .tc .vmem S512x3 .f32) (harg2 : arg2.IsWhole) (arg3 : Memref sig .tc .vmem S512x3 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole)
    (hc1 : isFirst i) (hc2 : ¬isLast i) (x0 x1 : Vec F S512x3 .f32) (x2 x3 : Vec F S512x1 .f32) :
    { LS : List (View.Piece (Elt F) S1x1 .f32) //
      ∀ (xi4 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc0__pair_kernel i arg2 harg2 arg3 harg3 arg4 harg4 arg5 harg5 arg6 harg6 arg7 harg7) K } := by
  refine ⟨?_, fun xi4 E K => ?run⟩
  case run =>
    simp only [cc0__pair_kernel_eq_skeleton]; unfold cc0__pair_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2; obtain rfl := harg5.eq_unread hf3
    obtain rfl := harg6.eq_unread hf4
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.Kernel.Pair

end
-- ==== Proof.Kernel.RunMid.lean ====
/-
  The body at a grid point that is neither the first nor the last: the point's table is summed into the running
  total found in its buffer, and nothing is stored into the output's staging buffer.
-/
import proofs.«116778_j56684978372796_1_alg».proof.Proof.Kernel.Runs

set_option maxRecDepth 16384

noncomputable section

namespace Cert.Kernel.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def runMid (c : Dev nD) (i : grid0.Coords) (arg2 : Memref sig .tc .vmem S512x3 .f32) (harg2 : arg2.IsWhole) (arg3 : Memref sig .tc .vmem S512x3 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole)
    (hc1 : ¬isFirst i) (hc2 : ¬isLast i) (x0 x1 : Vec F S512x3 .f32) (x2 x3 : Vec F S512x1 .f32) (xs : Vec F S1x1 .f32) :
    { LS : List (View.Piece (Elt F) S1x1 .f32) //
      ∀ (xi4 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc0__pair_kernel i arg2 harg2 arg3 harg3 arg4 harg4 arg5 harg5 arg6 harg6 arg7 harg7) K } := by
  refine ⟨?_, fun xi4 E K => ?run⟩
  case run =>
    simp only [cc0__pair_kernel_eq_skeleton]; unfold cc0__pair_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hfs
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.Kernel.Pair

end
-- ==== Proof.Kernel.RunLast.lean ====
/-
  The body at the LAST grid point: the point's table is summed into the running total found in its buffer, and
  the total times the Coulomb constant is stored into the output's staging buffer.
-/
import proofs.«116778_j56684978372796_1_alg».proof.Proof.Kernel.Runs

set_option maxRecDepth 16384

noncomputable section

namespace Cert.Kernel.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def runLast (c : Dev nD) (i : grid0.Coords) (arg2 : Memref sig .tc .vmem S512x3 .f32) (harg2 : arg2.IsWhole) (arg3 : Memref sig .tc .vmem S512x3 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole)
    (hc1 : ¬isFirst i) (hc2 : isLast i) (x0 x1 : Vec F S512x3 .f32) (x2 x3 : Vec F S512x1 .f32) (xs : Vec F S1x1 .f32) :
    Σ' (L4 : List (View.Piece (Elt F) S1x1 .f32)), { LS : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS)) -∗ K ⟨⟩))
          ⊢ wp frame (wpE (defs₀ (F := F)) Variants.none c none) E (cc0__pair_kernel i arg2 harg2 arg3 harg3 arg4 harg4 arg5 harg5 arg6 harg6 arg7 harg7) K } := by
  refine ⟨?_, ?_, fun E K => ?run⟩
  case run =>
    simp only [cc0__pair_kernel_eq_skeleton]; unfold cc0__pair_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3
    obtain rfl := harg7.eq_unread hfs
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact HS

end Cert.Kernel.Pair

end
-- ==== Proof.Kernel.Pieces.lean ====
/-
  What each of the three runs leaves, read as values.

  Every store of the body overwrites a whole 1 × 1 buffer, so what a buffer holds after the body is the last
  store's value, whatever it held before.  At the first grid point the running total becomes the tile's sum added
  to the zero just written; at every later point the tile's sum added to the total found there; and at the last
  point the output's buffer receives that new total times the Coulomb constant.
-/
import proofs.«116778_j56684978372796_1_alg».proof.Proof.Kernel.RunFirst
import proofs.«116778_j56684978372796_1_alg».proof.Proof.Kernel.RunMid
import proofs.«116778_j56684978372796_1_alg».proof.Proof.Kernel.RunLast
import Idealize.ShloMosaic.Lib.Pipeline.Value

set_option maxRecDepth 16384

noncomputable section

namespace Cert.Kernel.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-! ## The first grid point -/

theorem scoverFirst (c : Dev nD) (i : grid0.Coords) (arg2 : Memref sig .tc .vmem S512x3 .f32) (harg2 : arg2.IsWhole) (arg3 : Memref sig .tc .vmem S512x3 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : isFirst i) (hc2 : ¬isLast i)
    (x0 x1 : Vec F S512x3 .f32) (x2 x3 : Vec F S512x1 .f32) (y : S1x1.Idx) :
    ∃ pc ∈ (runFirst c i arg2 harg2 arg3 harg3 arg4 harg4 arg5 harg5 arg6 harg6 arg7 harg7 hc1 hc2 x0 x1 x2 x3).1, y ∈ pc.1.set :=
  View.cover_of_tiledL (runFirst c i arg2 harg2 arg3 harg3 arg4 harg4 arg5 harg5 arg6 harg6 arg7 harg7 hc1 hc2 x0 x1 x2 x3).1 S1x1.size (by sl_kernel_rfl) y

/-- What the first point leaves in the running total's buffer. -/
def soutFirst (c : Dev nD) (i : grid0.Coords) (arg2 : Memref sig .tc .vmem S512x3 .f32) (harg2 : arg2.IsWhole) (arg3 : Memref sig .tc .vmem S512x3 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : isFirst i) (hc2 : ¬isLast i)
    (x0 x1 : Vec F S512x3 .f32) (x2 x3 : Vec F S512x1 .f32) : Vec F S1x1 .f32 :=
  VS.read (Elt F) (VS.writes (Elt F) VS.junk (runFirst c i arg2 harg2 arg3 harg3 arg4 harg4 arg5 harg5 arg6 harg6 arg7 harg7 hc1 hc2 x0 x1 x2 x3).1)

/-- It is the tile's sum added to the zero written first. -/
theorem soutFirst_eq (c : Dev nD) (i : grid0.Coords) (arg2 : Memref sig .tc .vmem S512x3 .f32) (harg2 : arg2.IsWhole) (arg3 : Memref sig .tc .vmem S512x3 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : isFirst i) (hc2 : ¬isLast i)
    (x0 x1 : Vec F S512x3 .f32) (x2 x3 : Vec F S512x1 .f32) :
    soutFirst c i arg2 harg2 arg3 harg3 arg4 harg4 arg5 harg5 arg6 harg6 arg7 harg7 hc1 hc2 x0 x1 x2 x3 = tileAcc i x0 x1 x2 x3 accInit := by
  unfold soutFirst
  rw [View.read_writes_eq_canon _ _ _ (scoverFirst c i arg2 harg2 arg3 harg3 arg4 harg4 arg5 harg5 arg6 harg6 arg7 harg7 hc1 hc2 x0 x1 x2 x3)]
  unfold runFirst
  dsimp only
  sl_unfold_words
  rw [View.canon_cons_unit_zero (S := S1x1) hz, View.readCov_unit_zero (S := S1x1) _ hz]
  unfold tileAcc dist2 accInit
  simp only [View.readAt_eq_ld, harg2.read_unread, harg3.read_unread, harg4.read_unread, harg5.read_unread, harg7.read_unread, View.ld_unit_zero (S := S512x3) hz, View.ld_unit_zero (S := S512x1) hz, View.ld_unit_zero (S := S1x1) hz]

/-! ## A point that is neither first nor last -/

theorem scoverMid (c : Dev nD) (i : grid0.Coords) (arg2 : Memref sig .tc .vmem S512x3 .f32) (harg2 : arg2.IsWhole) (arg3 : Memref sig .tc .vmem S512x3 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : ¬isFirst i) (hc2 : ¬isLast i)
    (x0 x1 : Vec F S512x3 .f32) (x2 x3 : Vec F S512x1 .f32) (xs : Vec F S1x1 .f32) (y : S1x1.Idx) :
    ∃ pc ∈ (runMid c i arg2 harg2 arg3 harg3 arg4 harg4 arg5 harg5 arg6 harg6 arg7 harg7 hc1 hc2 x0 x1 x2 x3 xs).1, y ∈ pc.1.set :=
  View.cover_of_tiledL (runMid c i arg2 harg2 arg3 harg3 arg4 harg4 arg5 harg5 arg6 harg6 arg7 harg7 hc1 hc2 x0 x1 x2 x3 xs).1 S1x1.size (by sl_kernel_rfl) y

/-- What such a point leaves in the running total's buffer, which held `xs`. -/
def soutMid (c : Dev nD) (i : grid0.Coords) (arg2 : Memref sig .tc .vmem S512x3 .f32) (harg2 : arg2.IsWhole) (arg3 : Memref sig .tc .vmem S512x3 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : ¬isFirst i) (hc2 : ¬isLast i)
    (x0 x1 : Vec F S512x3 .f32) (x2 x3 : Vec F S512x1 .f32) (xs : Vec F S1x1 .f32) : Vec F S1x1 .f32 :=
  VS.read (Elt F) (VS.writes (Elt F) VS.junk (runMid c i arg2 harg2 arg3 harg3 arg4 harg4 arg5 harg5 arg6 harg6 arg7 harg7 hc1 hc2 x0 x1 x2 x3 xs).1)

theorem soutMid_eq (c : Dev nD) (i : grid0.Coords) (arg2 : Memref sig .tc .vmem S512x3 .f32) (harg2 : arg2.IsWhole) (arg3 : Memref sig .tc .vmem S512x3 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : ¬isFirst i) (hc2 : ¬isLast i)
    (x0 x1 : Vec F S512x3 .f32) (x2 x3 : Vec F S512x1 .f32) (xs : Vec F S1x1 .f32) :
    soutMid c i arg2 harg2 arg3 harg3 arg4 harg4 arg5 harg5 arg6 harg6 arg7 harg7 hc1 hc2 x0 x1 x2 x3 xs = tileAcc i x0 x1 x2 x3 xs := by
  unfold soutMid
  rw [View.read_writes_eq_canon _ _ _ (scoverMid c i arg2 harg2 arg3 harg3 arg4 harg4 arg5 harg5 arg6 harg6 arg7 harg7 hc1 hc2 x0 x1 x2 x3 xs)]
  unfold runMid
  dsimp only
  sl_unfold_words
  rw [View.canon_unit_zero (S := S1x1) hz]
  unfold tileAcc dist2
  simp only [View.readAt_eq_ld, harg2.read_unread, harg3.read_unread, harg4.read_unread, harg5.read_unread, harg7.read_unread, View.ld_unit_zero (S := S512x3) hz, View.ld_unit_zero (S := S512x1) hz, View.ld_unit_zero (S := S1x1) hz]

/-! ## The last grid point -/

theorem scoverLast (c : Dev nD) (i : grid0.Coords) (arg2 : Memref sig .tc .vmem S512x3 .f32) (harg2 : arg2.IsWhole) (arg3 : Memref sig .tc .vmem S512x3 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : ¬isFirst i) (hc2 : isLast i)
    (x0 x1 : Vec F S512x3 .f32) (x2 x3 : Vec F S512x1 .f32) (xs : Vec F S1x1 .f32) (y : S1x1.Idx) :
    ∃ pc ∈ (runLast c i arg2 harg2 arg3 harg3 arg4 harg4 arg5 harg5 arg6 harg6 arg7 harg7 hc1 hc2 x0 x1 x2 x3 xs).2.1, y ∈ pc.1.set :=
  View.cover_of_tiledL (runLast c i arg2 harg2 arg3 harg3 arg4 harg4 arg5 harg5 arg6 harg6 arg7 harg7 hc1 hc2 x0 x1 x2 x3 xs).2.1 S1x1.size (by sl_kernel_rfl) y

theorem coverLast (c : Dev nD) (i : grid0.Coords) (arg2 : Memref sig .tc .vmem S512x3 .f32) (harg2 : arg2.IsWhole) (arg3 : Memref sig .tc .vmem S512x3 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : ¬isFirst i) (hc2 : isLast i)
    (x0 x1 : Vec F S512x3 .f32) (x2 x3 : Vec F S512x1 .f32) (xs : Vec F S1x1 .f32) (y : S1x1.Idx) :
    ∃ pc ∈ (runLast c i arg2 harg2 arg3 harg3 arg4 harg4 arg5 harg5 arg6 harg6 arg7 harg7 hc1 hc2 x0 x1 x2 x3 xs).1, y ∈ pc.1.set :=
  View.cover_of_tiledL (runLast c i arg2 harg2 arg3 harg3 arg4 harg4 arg5 harg5 arg6 harg6 arg7 harg7 hc1 hc2 x0 x1 x2 x3 xs).1 S1x1.size (by sl_kernel_rfl) y

/-- What the last point leaves in the running total's buffer, -/
def soutLast (c : Dev nD) (i : grid0.Coords) (arg2 : Memref sig .tc .vmem S512x3 .f32) (harg2 : arg2.IsWhole) (arg3 : Memref sig .tc .vmem S512x3 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : ¬isFirst i) (hc2 : isLast i)
    (x0 x1 : Vec F S512x3 .f32) (x2 x3 : Vec F S512x1 .f32) (xs : Vec F S1x1 .f32) : Vec F S1x1 .f32 :=
  VS.read (Elt F) (VS.writes (Elt F) VS.junk (runLast c i arg2 harg2 arg3 harg3 arg4 harg4 arg5 harg5 arg6 harg6 arg7 harg7 hc1 hc2 x0 x1 x2 x3 xs).2.1)

/-- and in the output's staging buffer. -/
def outLast (c : Dev nD) (i : grid0.Coords) (arg2 : Memref sig .tc .vmem S512x3 .f32) (harg2 : arg2.IsWhole) (arg3 : Memref sig .tc .vmem S512x3 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : ¬isFirst i) (hc2 : isLast i)
    (x0 x1 : Vec F S512x3 .f32) (x2 x3 : Vec F S512x1 .f32) (xs : Vec F S1x1 .f32) : Vec F S1x1 .f32 :=
  VO.read (Elt F) (VO.writes (Elt F) VO.junk (runLast c i arg2 harg2 arg3 harg3 arg4 harg4 arg5 harg5 arg6 harg6 arg7 harg7 hc1 hc2 x0 x1 x2 x3 xs).1)

theorem soutLast_eq (c : Dev nD) (i : grid0.Coords) (arg2 : Memref sig .tc .vmem S512x3 .f32) (harg2 : arg2.IsWhole) (arg3 : Memref sig .tc .vmem S512x3 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : ¬isFirst i) (hc2 : isLast i)
    (x0 x1 : Vec F S512x3 .f32) (x2 x3 : Vec F S512x1 .f32) (xs : Vec F S1x1 .f32) :
    soutLast c i arg2 harg2 arg3 harg3 arg4 harg4 arg5 harg5 arg6 harg6 arg7 harg7 hc1 hc2 x0 x1 x2 x3 xs = tileAcc i x0 x1 x2 x3 xs := by
  unfold soutLast
  rw [View.read_writes_eq_canon _ _ _ (scoverLast c i arg2 harg2 arg3 harg3 arg4 harg4 arg5 harg5 arg6 harg6 arg7 harg7 hc1 hc2 x0 x1 x2 x3 xs)]
  unfold runLast
  dsimp only
  sl_unfold_words
  rw [View.canon_unit_zero (S := S1x1) hz]
  unfold tileAcc dist2
  simp only [View.readAt_eq_ld, harg2.read_unread, harg3.read_unread, harg4.read_unread, harg5.read_unread, harg7.read_unread, View.ld_unit_zero (S := S512x3) hz, View.ld_unit_zero (S := S512x1) hz, View.ld_unit_zero (S := S1x1) hz]

theorem outLast_eq (c : Dev nD) (i : grid0.Coords) (arg2 : Memref sig .tc .vmem S512x3 .f32) (harg2 : arg2.IsWhole) (arg3 : Memref sig .tc .vmem S512x3 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : ¬isFirst i) (hc2 : isLast i)
    (x0 x1 : Vec F S512x3 .f32) (x2 x3 : Vec F S512x1 .f32) (xs : Vec F S1x1 .f32) :
    outLast c i arg2 harg2 arg3 harg3 arg4 harg4 arg5 harg5 arg6 harg6 arg7 harg7 hc1 hc2 x0 x1 x2 x3 xs = scaled (tileAcc i x0 x1 x2 x3 xs) := by
  unfold outLast
  rw [View.read_writes_eq_canon _ _ _ (coverLast c i arg2 harg2 arg3 harg3 arg4 harg4 arg5 harg5 arg6 harg6 arg7 harg7 hc1 hc2 x0 x1 x2 x3 xs)]
  unfold runLast
  dsimp only
  sl_unfold_words
  rw [View.canon_unit_zero (S := S1x1) hz, View.readCov_unit_zero (S := S1x1) _ hz]
  unfold scaled tileAcc dist2
  simp only [View.readAt_eq_ld, harg2.read_unread, harg3.read_unread, harg4.read_unread, harg5.read_unread, harg7.read_unread, View.ld_unit_zero (S := S512x3) hz, View.ld_unit_zero (S := S512x1) hz, View.ld_unit_zero (S := S1x1) hz]

end Cert.Kernel.Pair

end
-- ==== Proof.Kernel.Frame.lean ====
/-
  The proof data of the pipeline and the body obligation.

  After grid point n the running total's buffer holds `accAfter n`: the tile sums of points 0 … n added, in order,
  to the zero written at point 0.  The input windows' staging buffers hold their blocks at every point; the
  output's staging buffer is untouched until the last point, where it receives the scaled total.  Between points
  the kernel keeps exactly the running total (before the first point its buffer holds anything).
-/
import proofs.«116778_j56684978372796_1_alg».proof.Proof.Kernel.Pieces

set_option maxRecDepth 16384

noncomputable section

namespace Cert.Kernel.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The running total after grid point `n`. -/
def accAfter (c : Dev nD) : (n : ℕ) → n < cfg0.N → Vec F S1x1 .f32
  | 0, hn => tileAcc (grid0.coords ⟨0, hn⟩) (iblk m c 0 ⟨0, hn⟩) (iblk m c 1 ⟨0, hn⟩) (iblk m c 2 ⟨0, hn⟩) (iblk m c 3 ⟨0, hn⟩) accInit
  | n + 1, hn => tileAcc (grid0.coords ⟨n + 1, hn⟩) (iblk m c 0 ⟨n + 1, hn⟩) (iblk m c 1 ⟨n + 1, hn⟩) (iblk m c 2 ⟨n + 1, hn⟩) (iblk m c 3 ⟨n + 1, hn⟩) (accAfter c n (Nat.lt_of_succ_lt hn))

theorem accAfter_zero (c : Dev nD) (t : Fin cfg0.N) (h : t.val = 0) :
    accAfter m c t.val t.isLt = tileAcc (grid0.coords t) (iblk m c 0 t) (iblk m c 1 t) (iblk m c 2 t) (iblk m c 3 t) accInit := by
  obtain ⟨n, hn⟩ := t
  cases n with
  | zero => rfl
  | succ n => exact absurd h (Nat.succ_ne_zero n)

theorem accAfter_pos (c : Dev nD) (t : Fin cfg0.N) (h : t.val ≠ 0) :
    accAfter m c t.val t.isLt = tileAcc (grid0.coords t) (iblk m c 0 t) (iblk m c 1 t) (iblk m c 2 t) (iblk m c 3 t)
      (accAfter m c (t.val - 1) (Nat.lt_of_le_of_lt (Nat.sub_le _ _) t.isLt)) := by
  obtain ⟨n, hn⟩ := t
  cases n with
  | zero => exact absurd rfl h
  | succ n => rfl

/-- What the kernel keeps between grid points: before the first, its scratch buffer at anything; afterwards at the
    running total. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns (c : Thread nD τ) scM fullShare (accAfter m c n hn)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = owns (c : Thread nD τ) scM fullShare (accAfter m c n hn) := rfl

theorem PhiS_pos (c : Dev nD) (n : ℕ) (h : n ≤ cfg0.N) (hz : n ≠ 0) :
    PhiS m c n h = owns (c : Thread nD τ) scM fullShare (accAfter m c (n - 1) (by omega)) := by
  cases n with
  | zero => exact absurd rfl hz
  | succ n => rfl

/-- The proof data: the arrays as the region finds them; each input's buffer at its block; the output's buffer at
    the scaled total; the two windows on the positions' array hold its two half shares, likewise the two windows on
    the charges' array. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => scaled (accAfter m c t.val t.isLt)
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_out (c : Dev nD) (t : Fin cfg0.N) : (dats m 0 c).after 4 t = scaled (accAfter m c t.val t.isLt) := by dsimp only [dats]

/-- Each input's staging buffer holds its block at every point. -/
theorem before0 (c : Dev nD) (t : Fin cfg0.N) (d) : (dats m 0 c).before 0 t d = iblk m c 0 t :=
  (before_in_of m (dats m 0 c) 0 rfl live0 (fun _ _ _ => rfl) (A_eq m c 0) (fun t => by rw [after_in0]) t d).trans
    (by unfold Dat.fetched Dat.blockOf iblk; rw [A_eq]; rfl)
theorem before1 (c : Dev nD) (t : Fin cfg0.N) (d) : (dats m 0 c).before 1 t d = iblk m c 1 t :=
  (before_in_of m (dats m 0 c) 1 rfl live1 (fun _ _ _ => rfl) (A_eq m c 1) (fun t => by rw [after_in1]) t d).trans
    (by unfold Dat.fetched Dat.blockOf iblk; rw [A_eq]; rfl)
theorem before2 (c : Dev nD) (t : Fin cfg0.N) (d) : (dats m 0 c).before 2 t d = iblk m c 2 t :=
  (before_in_of m (dats m 0 c) 2 rfl live2 (fun _ _ _ => rfl) (A_eq m c 2) (fun t => by rw [after_in2]) t d).trans
    (by unfold Dat.fetched Dat.blockOf iblk; rw [A_eq]; rfl)
theorem before3 (c : Dev nD) (t : Fin cfg0.N) (d) : (dats m 0 c).before 3 t d = iblk m c 3 t :=
  (before_in_of m (dats m 0 c) 3 rfl live3 (fun _ _ _ => rfl) (A_eq m c 3) (fun t => by rw [after_in3]) t d).trans
    (by unfold Dat.fetched Dat.blockOf iblk; rw [A_eq]; rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  have hN : t.val < 144 := lt_of_lt_of_eq t.isLt (show cfg0.N = 144 from N_0)
  rw [show (dats m 0 c).leavesExact 0 t = owns (c : Thread nD τ) (ms0 t) fullShare ((dats m 0 c).after 0 t) from by
    unfold Dat.leavesExact; rw [live0], after_in0]
  rw [show (dats m 0 c).leavesExact 1 t = owns (c : Thread nD τ) (ms1 t) fullShare ((dats m 0 c).after 1 t) from by
    unfold Dat.leavesExact; rw [live1], after_in1]
  rw [show (dats m 0 c).leavesExact 2 t = owns (c : Thread nD τ) (ms2 t) fullShare ((dats m 0 c).after 2 t) from by
    unfold Dat.leavesExact; rw [live2], after_in2]
  rw [show (dats m 0 c).leavesExact 3 t = owns (c : Thread nD τ) (ms3 t) fullShare ((dats m 0 c).after 3 t) from by
    unfold Dat.leavesExact; rw [live3], after_in3]
  by_cases h0 : t.val = 0
  · have hc1 : isFirst (grid0.coords t) := (isFirst_iff t).mpr h0
    have hc2 : ¬isLast (grid0.coords t) := fun h => by have := (isLast_iff t).mp h; omega
    rw [Dat.leavesExact_idle (dats m 0 c) 4 t (idle4_of_not_last t hc2) (noFlush4_of_not_last t hc2)]
    rw [accAfter_zero m c t h0, ← soutFirst_eq c (grid0.coords t) (ms0 t) (hs0 t) (ms1 t) (hs1 t) (ms2 t) (hs2 t) (ms3 t) (hs3 t) (ms4 t) (hs4 t) scM (Memref.isWhole_whole _) hc1 hc2]
    unfold soutFirst
    rw [PhiS_castSucc m c t, PhiS_zero m c _ _ h0, scopedRest_eq]
    iintro ⟨HS, Ho, ⟨%d0, H0⟩, ⟨%d1, H1⟩, ⟨%d2, H2⟩, ⟨%d3, H3⟩, ⟨%d4, H4⟩⟩
    iapply ((runFirst c (grid0.coords t) (ms0 t) (hs0 t) (ms1 t) (hs1 t) (ms2 t) (hs2 t) (ms3 t) (hs3 t) (ms4 t) (hs4 t) scM (Memref.isWhole_whole _) hc1 hc2 (iblk m c 0 t) (iblk m c 1 t) (iblk m c 2 t) (iblk m c 3 t)).2 _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, ⟨%es, HS⟩⟩
    isplitl [HS]
    · unfold owns; iexists _; isplitr
      swap; · iexact HS
      ipureintro; exact View.read_writes_of_cover _ _ _ _ _ (scoverFirst c _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    iexists _; iexact H4
  · have hc1 : ¬isFirst (grid0.coords t) := fun h => h0 ((isFirst_iff t).mp h)
    rw [PhiS_castSucc m c t, PhiS_pos m c _ _ h0, accAfter_pos m c t h0]
    by_cases h1 : t.val = 143
    · have hc2 : isLast (grid0.coords t) := (isLast_iff t).mpr h1
      rw [show (dats m 0 c).leavesExact 4 t = owns (c : Thread nD τ) (ms4 t) fullShare ((dats m 0 c).after 4 t) from by
        unfold Dat.leavesExact; rw [live4_of_last t hc2], after_out, accAfter_pos m c t h0]
      rw [← outLast_eq c (grid0.coords t) (ms0 t) (hs0 t) (ms1 t) (hs1 t) (ms2 t) (hs2 t) (ms3 t) (hs3 t) (ms4 t) (hs4 t) scM (Memref.isWhole_whole _) hc1 hc2,
        ← soutLast_eq c (grid0.coords t) (ms0 t) (hs0 t) (ms1 t) (hs1 t) (ms2 t) (hs2 t) (ms3 t) (hs3 t) (ms4 t) (hs4 t) scM (Memref.isWhole_whole _) hc1 hc2]
      unfold soutLast outLast
      iintro ⟨HS, Ho, ⟨%d0, H0⟩, ⟨%d1, H1⟩, ⟨%d2, H2⟩, ⟨%d3, H3⟩, ⟨%d4, H4⟩⟩
      iapply ((runLast c (grid0.coords t) (ms0 t) (hs0 t) (ms1 t) (hs1 t) (ms2 t) (hs2 t) (ms3 t) (hs3 t) (ms4 t) (hs4 t) scM (Memref.isWhole_whole _) hc1 hc2 (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS]
      · unfold owns; iexists _; isplitr
        swap; · iexact HS
        ipureintro; exact View.read_writes_of_cover _ _ _ _ _ (scoverLast c _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverLast c _ _ _ _ _ _ _ _ _ _ _ _ _ _ _ _ _ _ _ _)
    · have hc2 : ¬isLast (grid0.coords t) := fun h => h1 ((isLast_iff t).mp h)
      rw [Dat.leavesExact_idle (dats m 0 c) 4 t (idle4_of_not_last t hc2) (noFlush4_of_not_last t hc2)]
      rw [← soutMid_eq c (grid0.coords t) (ms0 t) (hs0 t) (ms1 t) (hs1 t) (ms2 t) (hs2 t) (ms3 t) (hs3 t) (ms4 t) (hs4 t) scM (Memref.isWhole_whole _) hc1 hc2]
      unfold soutMid
      iintro ⟨HS, Ho, ⟨%d0, H0⟩, ⟨%d1, H1⟩, ⟨%d2, H2⟩, ⟨%d3, H3⟩, ⟨%d4, H4⟩⟩
      iapply ((runMid c (grid0.coords t) (ms0 t) (hs0 t) (ms1 t) (hs1 t) (ms2 t) (hs2 t) (ms3 t) (hs3 t) (ms4 t) (hs4 t) scM (Memref.isWhole_whole _) hc1 hc2 (iblk m c 0 t) (iblk m c 1 t) (iblk m c 2 t) (iblk m c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS]
      · unfold owns; iexists _; isplitr
        swap; · iexact HS
        ipureintro; exact View.read_writes_of_cover _ _ _ _ _ (scoverMid c _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4

/-- The body obligation at every grid point. -/
theorem body_obligation (c : Dev nD) : BodyObligation (dats (F := F) m 0 c) (defs₀ (F := F)) Variants.none () Set.univ := fun t => by
  rw [bigSep_W0, bigSep_W0]
  exact sound_body m c t

/-- Before the first point the kernel's scratch buffer holds anything. -/
theorem hin (c : Dev nD) :
    (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]

/-- After the last point what it holds is forgotten. -/
theorem hout (c : Dev nD) :
    (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 144 := N_0; omega), scopedRest_eq]
  iintro HS
  iexists _; iexact HS

end Cert.Kernel.Pair

end
-- ==== Proof.LibSharedTail.lean ====
/-
  The frame run of a pipelined kernel whose input windows may read ONE array through several windows, that carries
  something of its own between grid points, and whose program goes on after the region with host operations.

  When two windows stage blocks of the same array the array's buffer cannot be held once per window at the full
  share; it is held whole when the region is entered and dealt out among the windows that read it, each at a
  positive share (reading needs only a share), and the shares are joined again when the region is left.  How the
  buffers behind the arrays are dealt out (`hsplit`), joined at the exit (`hjoin`) and dealt out again once the
  later host operations have run (`hsplitN`: they write no array) is the certificate's to say: it knows which
  windows share which array.  Everything else is as for distinct arrays:

    * the invariant between grid points is the certificate's own (`Φ`), entered from "the scoped buffers that are
      no staging buffer at some contents, the generator register at some state" before the first point (`hin`)
      and returned to it after the last (`hout`);
    * the host operations after the region run within all the unscoped buffers, from the contents the region
      leaves (`VN`: the arrays at what the pipeline computes, every other buffer as the region found it);
    * after the run every window's array holds what the pipeline computes from the proof data, and every other
      unscoped buffer what those operations leave.
-/
import Idealize.ShloMosaic.Lib.Pipeline.FrameSuffix

noncomputable section

namespace Idealize.ShloMosaic

open Idealize.SL
open Idealize.SL.BI (sProp bigSep bigSep_map bigSep_congr)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type}

namespace Pipeline

open Idealize.ShloMosaic.Rounds

section SharedTail

variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀
local notation "𝕍" => Variants.lift 𝒱₀

/-- The post of the run: every window's array at what the pipeline computes from the proof data, every other
    unscoped buffer at what the host operations after the region leave, from the region's exit contents `VN`. -/
def SharedTailPost (VN : Dev nD → Valuation τ sig Val) (opss : List (List (HloOp τ sig Val)))
    (r : PUnit × MemSt nD τ sig Val) : Prop :=
  ∀ c : Dev nD, (∀ w, r.2.mem (((cfg).spec w).arr.view.loc (c.tc : Thread nD τ)) = (dats p c).arrAt w (cfg).N)
    ∧ ∀ b ∈ restRefs sig (cfg).spec, r.2.mem ((c.tc : Thread nD τ).loc b) = StableHlo.after opss.flatten (VN c) b

set_option backward.isDefEq.respectTransparency.types false in
/-- The frame run when windows may share arrays, the body carries an invariant of its own between points, and host
    operations follow the region. -/
theorem θ_run_frame_shared_around_track
    (hinj : Function.Injective (cellOf (nD := nD) (τ := τ) cfgs))
    (hw : WinFacts₀ (cfg).spec)
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ VN : Dev nD → Valuation τ sig Val) (opss : List (List (HloOp τ sig Val)))
    (hsub : ∀ ops ∈ opss, ∀ op ∈ ops, op.bufs ⊆ ucRefs τ sig)
    (hfresh : ∀ ops ∈ opss, ∀ op ∈ ops, op.fresh = ∅)
    (hmain : HMainK (Ix := Unit) (Name := ℕ) (U := UR sig nD τ) (Lvl := ℕ) cfgs p defs₀ 𝒱₀ m main
      (fun c b => V₀ c b) (fun _ => chain (opss.map StableHlo.seq)))
    (hsplit : ∀ c, (arrBufs (cfg).spec c (fun b => V₀ c b) : sProp 𝕄) ⊢ (dats p c).arrays ((dats p c).arrAt · 0))
    (hVN : ∀ c, ∀ b ∈ restRefs sig (cfg).spec, VN c b = V₀ c b)
    (hjoin : ∀ c, (dats p c).arrays ((dats p c).arrAt · (cfg).N) ⊢ (arrBufs (cfg).spec c (fun b => VN c b) : sProp 𝕄))
    (hsplitN : ∀ c, (arrBufs (cfg).spec c (fun b => StableHlo.after opss.flatten (VN c) b) : sProp 𝕄)
      ⊢ (dats p c).arrays ((dats p c).arrAt · (cfg).N))
    (hin : ∀ c, (scopedRest (Ix := Unit) (Name := ℕ) (U := UR sig nD τ) (Lvl := ℕ) (Val := Val) (cfg).spec c : sProp 𝕄) ⊢ (dats p c).Φ 0)
    (hout : ∀ c, (dats p c).Φ (Fin.last (cfg).N) ⊢ (scopedRest (Ix := Unit) (Name := ℕ) (U := UR sig nD τ) (Lvl := ℕ) (Val := Val) (cfg).spec c : sProp 𝕄)) :
    θ_run 𝔻 (onTc main) (s₀ m g) (SharedTailPost cfgs dats p VN opss) := by
  classical
  exact θ_run_region_noSem_pf_tail (fun q => (cfgs q).toPCfg) (fun q => (cfgs q).toPCfg_adm) dats () hinj p hw (PreFacts.none _) emb₁ defs₀ 𝒱₀
    m g main (fun _ => chain (opss.map StableHlo.seq)) hbody hne harr hstage howed
    (u₀ := initOf (cells cfgs hinj) (launchToks cfgs hinj)) (hu₀ := .rfl)
    (V := fun c b => V₀ c b) (hmain := hmain) (hsplit := hsplit) (hpf := fun _ k => k.elim0)
    (X := fun _ => iprop(emp)) (Y := fun _ => iprop(emp))
    (Z := fun c => unscopedRest (Ix := Unit) (Name := ℕ) (U := UR sig nD τ) (Lvl := ℕ) (cfg).spec c (fun b => V₀ c b))
    (Z' := fun c => unscopedRest (Ix := Unit) (Name := ℕ) (U := UR sig nD τ) (Lvl := ℕ) (cfg).spec c
      (fun b => StableHlo.after opss.flatten (VN c) b))
    (hX := fun c => by
      rw [unscopedRestP_none]
      iintro HU
      isplitr
      · iempintro
      · iexact HU)
    (hin := fun c => (show _ ⊢ (scopedRest (Ix := Unit) (Name := ℕ) (U := UR sig nD τ) (Lvl := ℕ) (Val := Val) (cfg).spec c : sProp 𝕄) from by
        iintro ⟨-, -, HR⟩
        iexact HR).trans (hin c))
    (hout := fun c => (hout c).trans (by
      iintro HR
      isplitr
      · iempintro
      · iexact HR))
    (htail := fun c Q' => by
      have hZ : (unscopedRest (Ix := Unit) (Name := ℕ) (U := UR sig nD τ) (Lvl := ℕ) (cfg).spec c (fun b => V₀ c b) : sProp 𝕄)
          = unscopedRest (cfg).spec c (fun b => VN c b) := by
        unfold unscopedRest
        exact bigSep_congr fun b hb => by dsimp only; rw [hVN c b hb]
      have e1 : iprop((arrBufs (cfg).spec c (fun b => VN c b) : sProp 𝕄) ∗ unscopedRest (cfg).spec c (fun b => V₀ c b))
          ⊢ (StableHlo.held (c.tc : Thread nD τ) (ucRefs τ sig) (VN c) : sProp 𝕄) :=
        Entails.of_eq (by rw [hZ, ← unscopedBufs_split₀ cfgs p hw.arr_unscoped c, unscopedBufs_held])
      have e2 : (StableHlo.held (c.tc : Thread nD τ) (ucRefs τ sig) (StableHlo.after opss.flatten (VN c)) : sProp 𝕄)
          ⊢ iprop((arrBufs (cfg).spec c (fun b => StableHlo.after opss.flatten (VN c) b) : sProp 𝕄)
              ∗ unscopedRest (cfg).spec c (fun b => StableHlo.after opss.flatten (VN c) b)) :=
        Entails.of_eq (by rw [← unscopedBufs_held, unscopedBufs_split₀ cfgs p hw.arr_unscoped c])
      rw [← List.append_nil (opss.map StableHlo.seq)]
      iintro ⟨Hk, Hb, Ha, Hz⟩
      ihave Ha' := (hjoin c) $$ Ha
      ihave Hh := e1 $$ [Ha' Hz]
      · isplitl [Ha'] <;> iassumption
      iapply (wp_seqs_then (fun q => (cfgs q).toPCfg (Val := Val)) defs₀ 𝒱₀ c (ucRefs τ sig) [] opss hsub hfresh (VN c)) $$ [Hb Hh]
      · isplitl [Hb] <;> iassumption
      iintro ⟨-, Hh⟩
      rw [chain_nil, wp_pure]
      imodintro
      iapply Hk
      ihave Hs := e2 $$ Hh
      icases Hs with ⟨Ha, Hz⟩
      isplitl [Ha]
      · iapply (hsplitN c); iexact Ha
      · iexact Hz)
    (QY := fun c s => ∀ b ∈ restRefs sig (cfg).spec, s.mem ((c.tc : Thread nD τ).loc b) = StableHlo.after opss.flatten (VN c) b)
    (hY := fun c s' => by
      iintro ⟨-, HU, HSI⟩
      unfold unscopedRest
      imodintro
      iapply (pointsTo_read_all (restRefs sig (cfg).spec) (fun b => (c.tc : Thread nD τ).loc b) (fun b => StableHlo.after opss.flatten (VN c) b) s')
      isplitl [HU] <;> iassumption)
    (hQ := fun s h c => ⟨(h c).1, (h c).2.2⟩)

end SharedTail

end Pipeline

end Idealize.ShloMosaic

end
-- ==== Proof.Kernel.Launch.lean ====
/-
  The launch.

  The positions' array is read through two windows (rows 512·ti … and rows 512·tj …), and so is the charges'
  array.  At the region's entry each of these two buffers, held whole, is dealt to its two windows as its two half
  shares; at the exit the halves are joined again.  The output's array belongs to one window.  After the region
  one host operation reshapes the 1 × 1 result to a scalar; it writes none of the windows' arrays.
-/
import proofs.«116778_j56684978372796_1_alg».proof.Proof.Kernel.Frame
import proofs.«116778_j56684978372796_1_alg».proof.Proof.LibSharedTail

set_option maxRecDepth 16384

noncomputable section

namespace Cert.Kernel.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the five windows' arrays. -/
theorem arrRefs_eq : Finset.univ.image (Pipeline.arrRef spec0) = [main_arg2, main_v15, main_v16].toFinset := by decide

/-- The buffers behind the arrays, one by one. -/
theorem arrBufs_chain (c : Dev nD) (W : (b : Ref sig .tc) → Buf (Elt F) ((c.tc : Thread nD τ).loc b)) :
    (Pipeline.arrBufs spec0 c W : sProp 𝕄)
      = iprop((((c.tc : Thread nD τ).loc main_arg2) ↦{fullShare} W main_arg2) ∗ (((c.tc : Thread nD τ).loc main_v15) ↦{fullShare} W main_v15)
          ∗ (((c.tc : Thread nD τ).loc main_v16) ↦{fullShare} W main_v16)) := by
  unfold Pipeline.arrBufs
  rw [BI.bigSep_eq_bigSepL_of_eq [main_arg2, main_v15, main_v16] arrRefs_eq (by decide)]
  rfl

/-- The windows' holdings, one by one: the two windows on one buffer hold its two half shares. -/
theorem arrays_chain (c : Dev nD) (G : (w : Fin cfg0.W) → Buf (Elt F) ((cfg0.win w).arr.view.loc (c.tc : Thread nD τ))) :
    ((dats m 0 c).arrays G : sProp 𝕄)
      = iprop((((c.tc : Thread nD τ).loc main_arg2) ↦{fullShare.left} G 0) ∗ (((c.tc : Thread nD τ).loc main_arg2) ↦{fullShare.right} G 1)
          ∗ (((c.tc : Thread nD τ).loc main_v15) ↦{fullShare.left} G 2) ∗ (((c.tc : Thread nD τ).loc main_v15) ↦{fullShare.right} G 3)
          ∗ (((c.tc : Thread nD τ).loc main_v16) ↦{fullShare} G 4)) := by
  unfold Dat.arrays
  rw [bigSep_W0, (arr_whole0 0).set_eq_univ, (arr_whole0 2).set_eq_univ, (arr_whole0 4).set_eq_univ]
  rfl

/-- What core `c`'s buffers hold when the region is left: the output's array at what the pipeline wrote back, every
    other buffer as the region found it. -/
def VN (c : Dev nD) : Valuation τ sig (Elt F) :=
  Function.update (V0 m c) (Proc.devRef .tc main_v16) ((dats m 0 c).arrAt 4 cfg0.N)

theorem VN_out (c : Dev nD) : VN m c (Proc.devRef .tc main_v16) = (dats m 0 c).arrAt 4 cfg0.N := by
  unfold VN; exact Function.update_self _ _ _

theorem VN_of_ne (c : Dev nD) (b : Ref sig .tc) (hb : b ≠ main_v16) : VN m c (Proc.devRef .tc b) = V0 m c (Proc.devRef .tc b) := by
  unfold VN; exact Function.update_of_ne (StableHlo.devRef_ne_of_ne hb) _ _

/-- At the entry: each shared buffer is dealt to its two windows as its two halves. -/
theorem hsplit (c : Dev nD) :
    (Pipeline.arrBufs spec0 c (fun b => V0 m c b) : sProp 𝕄) ⊢ (dats m 0 c).arrays ((dats m 0 c).arrAt · 0) := by
  rw [arrBufs_chain, arrays_chain]
  iintro ⟨Ha, Hb, Hc⟩
  ihave Ha2 := (pointsTo_share (PosShare.mem_left_op_right fullShare)).1 $$ Ha
  icases Ha2 with ⟨Ha0, Ha1⟩
  ihave Hb2 := (pointsTo_share (PosShare.mem_left_op_right fullShare)).1 $$ Hb
  icases Hb2 with ⟨Hb0, Hb1⟩
  isplitl [Ha0]; · iexact Ha0
  isplitl [Ha1]; · iexact Ha1
  isplitl [Hb0]; · iexact Hb0
  isplitl [Hb1]; · iexact Hb1
  iexact Hc

/-- An input window's array is never written: it ends as it began. -/
theorem arrAt_in0 (c : Dev nD) (n : ℕ) : (dats m 0 c).arrAt 0 n = V m c main_arg2 := ((dats m 0 c).arrAt_in 0 rfl n).trans (A_eq m c 0)
theorem arrAt_in1 (c : Dev nD) (n : ℕ) : (dats m 0 c).arrAt 1 n = V m c main_arg2 := ((dats m 0 c).arrAt_in 1 rfl n).trans (A_eq m c 1)
theorem arrAt_in2 (c : Dev nD) (n : ℕ) : (dats m 0 c).arrAt 2 n = V m c main_v15 := ((dats m 0 c).arrAt_in 2 rfl n).trans (A_eq m c 2)
theorem arrAt_in3 (c : Dev nD) (n : ℕ) : (dats m 0 c).arrAt 3 n = V m c main_v15 := ((dats m 0 c).arrAt_in 3 rfl n).trans (A_eq m c 3)

/-- At the exit: the halves are joined again. -/
theorem hjoin (c : Dev nD) :
    (dats m 0 c).arrays ((dats m 0 c).arrAt · cfg0.N) ⊢ (Pipeline.arrBufs spec0 c (fun b => VN m c b) : sProp 𝕄) := by
  rw [arrBufs_chain, arrays_chain]
  rw [arrAt_in0, arrAt_in1, arrAt_in2, arrAt_in3, VN_out, VN_of_ne m c main_arg2 (by decide), VN_of_ne m c main_v15 (by decide)]
  iintro ⟨Ha0, Ha1, Hb0, Hb1, Hc⟩
  isplitl [Ha0 Ha1]
  · iapply (pointsTo_share (PosShare.mem_left_op_right fullShare)).2
    isplitl [Ha0]; · iexact Ha0
    iexact Ha1
  isplitl [Hb0 Hb1]
  · iapply (pointsTo_share (PosShare.mem_left_op_right fullShare)).2
    isplitl [Hb0]; · iexact Hb0
    iexact Hb1
  iexact Hc

/-- The host operation after the region writes only its own result. -/
theorem after_keep (c : Dev nD) (b : Ref sig .tc) (hb : b ≠ main_v17) :
    StableHlo.after ([hostOps1] : List (List (HloOp τ sig (Elt F)))).flatten (VN m c) (Proc.devRef .tc b) = VN m c (Proc.devRef .tc b) :=
  StableHlo.after_of_forall_not_mem _ _ fun op hop => by
    simp only [List.flatten_cons, List.flatten_nil, List.append_nil, hostOps1, List.mem_cons, List.not_mem_nil, or_false] at hop
    subst hop
    simp only [StableHlo.reshape_writes, Finset.mem_singleton]
    exact StableHlo.devRef_ne_of_ne hb

/-- So after it the buffers behind the arrays can be dealt out as at the exit. -/
theorem hsplitN (c : Dev nD) :
    (Pipeline.arrBufs spec0 c (fun b => StableHlo.after ([hostOps1] : List (List (HloOp τ sig (Elt F)))).flatten (VN m c) b) : sProp 𝕄)
      ⊢ (dats m 0 c).arrays ((dats m 0 c).arrAt · cfg0.N) := by
  rw [arrBufs_chain, arrays_chain]
  rw [after_keep m c main_arg2 (by decide), after_keep m c main_v15 (by decide), after_keep m c main_v16 (by decide),
    arrAt_in0, arrAt_in1, arrAt_in2, arrAt_in3, VN_out, VN_of_ne m c main_arg2 (by decide), VN_of_ne m c main_v15 (by decide)]
  iintro ⟨Ha, Hb, Hc⟩
  ihave Ha2 := (pointsTo_share (PosShare.mem_left_op_right fullShare)).1 $$ Ha
  icases Ha2 with ⟨Ha0, Ha1⟩
  ihave Hb2 := (pointsTo_share (PosShare.mem_left_op_right fullShare)).1 $$ Hb
  icases Hb2 with ⟨Hb0, Hb1⟩
  isplitl [Ha0]; · iexact Ha0
  isplitl [Ha1]; · iexact Ha1
  isplitl [Hb0]; · iexact Hb0
  isplitl [Hb1]; · iexact Hb1
  iexact Hc

/-- Away from the arrays the region changes nothing. -/
theorem hVN (c : Dev nD) : ∀ b ∈ Pipeline.restRefs sig spec0, VN m c b = V0 m c b := fun b hb =>
  VN_of_ne m c b fun e => (Finset.mem_sdiff.mp hb).2 (Finset.mem_image.mpr ⟨4, Finset.mem_univ _, e ▸ rfl⟩)

theorem sfx_sub : ∀ ops ∈ ([hostOps1] : List (List (HloOp τ sig (Elt F)))), ∀ op ∈ ops, op.bufs ⊆ Pipeline.ucRefs τ sig := by
  intro ops hops op hop
  simp only [List.mem_cons, List.not_mem_nil, or_false] at hops
  subst hops
  exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.not_mem_nil, or_false] at hops
  subst hops
  exact (List.forall_iff_forall_mem.mp hostOps1_fresh) op hop

set_option backward.isDefEq.respectTransparency.types false in
/-- Every weakly fair execution of the program terminates, faulting nowhere; at the end every window's array holds what
    the pipeline computes from the proof data and every other unscoped buffer what the last host operation leaves. -/
theorem run_main : θ_run defs (onTc (τ := τ) (main (F := F))) (s₀ m ρ) (Pipeline.SharedTailPost cfgs (dats m) 0 (VN m) [hostOps1]) :=
  Pipeline.θ_run_frame_shared_around_track cfgs (dats m) (0 : Fin 1) defs₀ Variants.none cellOf_inj winFacts₀0 block_pos0 arr_whole0 stage_whole0
    m ρ main (hbody := fun c => (body_obligation m c).loose) (howed := fun _ _ => rfl) (V₀ := V0 m) (VN := VN m) (opss := [hostOps1])
    (hsub := sfx_sub) (hfresh := sfx_fresh) (hmain := hmain m Variants.none) (hsplit := hsplit m) (hVN := hVN m) (hjoin := hjoin m)
    (hsplitN := hsplitN m) (hin := hin m) (hout := hout m)

end Cert.Kernel.Pair

end
-- ==== Proof.Kernel.Entry.lean ====
/-
  What the region finds in the program's six argument buffers: the host operations before the region write none of
  them, so each holds its launch contents.
-/
import proofs.«116778_j56684978372796_1_alg».proof.Proof.Kernel.Runs

noncomputable section

namespace Cert.Kernel.Pair

open Idealize.ShloMosaic Idealize.ShloMosaic.TcCoe Idealize.SL.Sem
open Cert.Kernel Cert.Kernel.Gen

variable {F : FTy → Type} [FloatOps F]
variable (m : (ℓ : Loc nD τ sig) → Buf (Elt F) ℓ)

theorem V_arg0 (c : Dev nD) : V m c main_arg0 = m ((c : Thread nD τ).loc main_arg0) := by
  show StableHlo.after hostOps0 (fun b => m (c, b)) (Proc.devRef .tc main_arg0) = _
  after_results
theorem V_arg1 (c : Dev nD) : V m c main_arg1 = m ((c : Thread nD τ).loc main_arg1) := by
  show StableHlo.after hostOps0 (fun b => m (c, b)) (Proc.devRef .tc main_arg1) = _
  after_results
theorem V_arg2 (c : Dev nD) : V m c main_arg2 = m ((c : Thread nD τ).loc main_arg2) := by
  show StableHlo.after hostOps0 (fun b => m (c, b)) (Proc.devRef .tc main_arg2) = _
  after_results
theorem V_arg3 (c : Dev nD) : V m c main_arg3 = m ((c : Thread nD τ).loc main_arg3) := by
  show StableHlo.after hostOps0 (fun b => m (c, b)) (Proc.devRef .tc main_arg3) = _
  after_results
theorem V_arg4 (c : Dev nD) : V m c main_arg4 = m ((c : Thread nD τ).loc main_arg4) := by
  show StableHlo.after hostOps0 (fun b => m (c, b)) (Proc.devRef .tc main_arg4) = _
  after_results
theorem V_arg5 (c : Dev nD) : V m c main_arg5 = m ((c : Thread nD τ).loc main_arg5) := by
  show StableHlo.after hostOps0 (fun b => m (c, b)) (Proc.devRef .tc main_arg5) = _
  after_results

end Cert.Kernel.Pair

end
-- ==== Proof.Kernel.Results.lean ====
/-
  What the program ends with.

  The output's array is one 1 × 1 block, written back once, after the last grid point: it ends holding the scaled
  running total.  The last host operation reshapes it to the scalar result.  The charges' array, the second result,
  is an input of the region and ends as the region found it; so do the six arguments.
-/
import proofs.«116778_j56684978372796_1_alg».proof.Proof.Kernel.Launch
import proofs.«116778_j56684978372796_1_alg».proof.Proof.Kernel.Entry
import Idealize.ShloMosaic.Lib.Pipeline.Value

set_option maxRecDepth 16384

noncomputable section

namespace Cert.Kernel.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem N_pos143 : 143 < cfg0.N := by rw [show cfg0.N = 144 from N_0]; decide

/-- The last grid point. -/
abbrev tLast : Fin cfg0.N := ⟨143, N_pos143⟩

/-- The scaled total after the last grid point, as contents of the output's array (its one block IS the array). -/
abbrev result (c : Dev nD) : Buf (Elt F) ((c : Thread nD τ).loc main_v16) := scaled (accAfter m c 143 N_pos143)

/-- The one write-back, after the last point, writes it. -/
theorem flushed_eq (c : Dev nD) (t : Fin cfg0.N) (hf : (cfg0.win 4).flush t = true) :
    (dats m 0 c).flushed 4 t = ((cfg0.win 4).blk t).view.read (Elt F) (result m c) := by
  have hN : cfg0.N = 144 := N_0
  have h3 : t.val = 143 := by have := (flush0_4 t).mp hf; have := t.isLt; omega
  obtain rfl : t = tLast := Fin.ext h3
  show (cfg0.win 4).cut (grid0.coords tLast) ((dats m 0 c).after 4 tLast) = _
  rw [after_out]
  have hz' : (fun a => win0_4.index tLast a * main_v16.ty.shape.size a) = fun _ => 0 := funext fun a => by fin_cases a <;> decide
  exact (Memref.read_access_unit_zero (Elt F) main_v16 hz' (fun a => by rw [congrFun hz' a]; simp) (result m c)).symm

/-- So the output's array ends holding the scaled total. -/
theorem final_out (c : Dev nD) : (dats m 0 c).arrAt 4 cfg0.N = result m c :=
  (dats m 0 c).arrAt_eq_of_cover 4 (result m c) (flushed_eq m c) fun i =>
    ⟨tLast, (flush0_4 tLast).mpr rfl, by
      show i ∈ ((View.whole main_v16).slice (win0_4.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_4.index tLast 0 * win0_4.size 0 ≤ (i 0 : Nat) ∧ (i 0 : Nat) < win0_4.index tLast 0 * win0_4.size 0 + win0_4.xsize (grid0.coords tLast) 0
                  rw [show win0_4.index tLast 0 * win0_4.size 0 = 0 from by decide +kernel, show win0_4.xsize (grid0.coords tLast) 0 = 1 from by decide +kernel]; omega
      | ⟨1, _⟩ => show win0_4.index tLast 1 * win0_4.size 1 ≤ (i 1 : Nat) ∧ (i 1 : Nat) < win0_4.index tLast 1 * win0_4.size 1 + win0_4.xsize (grid0.coords tLast) 1
                  rw [show win0_4.index tLast 1 * win0_4.size 1 = 0 from by decide +kernel, show win0_4.xsize (grid0.coords tLast) 1 = 1 from by decide +kernel]; omega⟩

/-- An unscoped buffer that is no window's array and not the last operation's result ends as the region found it. -/
theorem rest_kept (c : Dev nD) (b : Ref sig .tc) (h17 : b ≠ main_v17) (h16 : b ≠ main_v16) :
    StableHlo.after ([hostOps1] : List (List (HloOp τ sig (Elt F)))).flatten (VN m c) (Proc.devRef .tc b) = V m c b :=
  (after_keep m c b h17).trans (VN_of_ne m c b h16)

/-- The scalar result: the last host operation's reshape of the output's array. -/
theorem scalar_eq (c : Dev nD) :
    StableHlo.after ([hostOps1] : List (List (HloOp τ sig (Elt F)))).flatten (VN m c) (Proc.devRef .tc main_v17)
      = shapeCast S_ (result m c) shapeCasts_S1x1_S_ := by
  rw [← final_out, ← VN_out]
  show StableHlo.after hostOps1 (VN m c) (Proc.devRef .tc main_v17) = _
  after_results
  rfl

/-- The run, read at the results and the arguments. -/
theorem run : θ_run defs (onTc (τ := τ) (main (F := F))) ⟨m, fun _ => 0, ρ⟩ fun r => ∀ c : Dev nD,
      r.2.mem ((c.tc : Thread nD τ).loc main_v17) = shapeCast S_ (result m c) shapeCasts_S1x1_S_
      ∧ r.2.mem ((c.tc : Thread nD τ).loc main_v15) = V m c main_v15
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v17 (Pipeline.mem_restRefs_of main_v17 rfl (by decide))).trans (scalar_eq m c),
     ((h c).1 2).trans (arrAt_in2 m c _),
     (((h c).2 main_arg0 (Pipeline.mem_restRefs_of main_arg0 rfl (by decide))).trans (rest_kept m c main_arg0 (by decide) (by decide))).trans (V_arg0 m c),
     (((h c).2 main_arg1 (Pipeline.mem_restRefs_of main_arg1 rfl (by decide))).trans (rest_kept m c main_arg1 (by decide) (by decide))).trans (V_arg1 m c),
     (((h c).1 0).trans (arrAt_in0 m c _)).trans (V_arg2 m c),
     (((h c).2 main_arg3 (Pipeline.mem_restRefs_of main_arg3 rfl (by decide))).trans (rest_kept m c main_arg3 (by decide) (by decide))).trans (V_arg3 m c),
     (((h c).2 main_arg4 (Pipeline.mem_restRefs_of main_arg4 rfl (by decide))).trans (rest_kept m c main_arg4 (by decide) (by decide))).trans (V_arg4 m c),
     (((h c).2 main_arg5 (Pipeline.mem_restRefs_of main_arg5 rfl (by decide))).trans (rest_kept m c main_arg5 (by decide) (by decide))).trans (V_arg5 m c)⟩)
    (run_main m ρ)

/-- The frame: the program runs to the end, faults nowhere, and leaves its six arguments unchanged. -/
theorem frame : θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => (h c).2.2) (run m ρ)

end Cert.Kernel.Pair

end
-- ==== Proof.KernelIdeal.Tile.lean ====
/-
  What one grid point adds to the running sum, as a function of what the body loads there.

  At grid point (ti, tj) the body loads two blocks of 512 positions (rows 512·ti … and rows 512·tj …) and the two
  matching blocks of charges, forms the 512 × 512 table of pair contributions, sums it, and adds the sum to the
  running total it keeps between grid points.  `tileAcc` is the new running total written back, composed of the
  body's named pure steps; `accAfter` the running total after each grid point, the first point starting from the
  zero the body writes there; `scaled` the total times the Coulomb constant, which the last point writes out.
  All three are stated at any float instance.
-/
import proofs.«116778_j56684978372796_1_alg».proof.Proof.Gen.KernelIdeal.Skeleton

noncomputable section

namespace Cert.KernelIdeal.Pair

open Idealize.ShloMosaic Cert.KernelIdeal Cert.KernelIdeal.Gen

variable {F : FTy → Type} [FloatOps F]

/-- The floored squared distances of the point's two position blocks (a 512 × 512 table). -/
def dist2 (v5 v6 : Vec F S512x3 .f32) : FVec F S512x512 .f32 := k0_pay6 v5 v6

/-- The running total after the body at grid point `i`: the total before, plus the sum of the point's table. -/
def tileAcc (i : grid0.Coords) (v5 v6 : Vec F S512x3 .f32) (v7 v9 : Vec F S512x1 .f32) (acc : Vec F S1x1 .f32) :
    FVec F S1x1 .f32 :=
  k0_pay1 (k0_pay4 v7) (k0_pay5 v9)
    (k0_pay8 (BitVec.ofNat 32 (i 1).val) (dist2 v5 v6) (k0_pay7 i) 512#32)
    (k0_pay10 (BitVec.ofNat 32 (i 1).val) (dist2 v5 v6) (k0_pay7 i) 512#32)
    (k0_pay11 (BitVec.ofNat 32 (i 1).val) (dist2 v5 v6) (k0_pay7 i) 512#32)
    (k0_pay12 (BitVec.ofNat 32 (i 1).val) (dist2 v5 v6) (k0_pay7 i) 512#32)
    acc

/-- The zero the first grid point writes into the running total before adding to it. -/
def accInit : FVec F S1x1 .f32 := k0_pay3

/-- The total times the Coulomb constant. -/
def scaled (acc : Vec F S1x1 .f32) : FVec F S1x1 .f32 := k0_pay2 acc

end Cert.KernelIdeal.Pair

end
-- ==== Proof.KernelIdeal.Runs.lean ====
/-
  What the three runs of the kernel body share.

  The body has two conditionals on the grid coordinates: "this is the first grid point" (the running total is
  zeroed) and "this is the last grid point" (the scaled total is written out).  Over the 12 × 12 grid they hold
  exactly at points 0 and 143, which is decided once here.  Also here: what every unscoped buffer holds when the
  region is entered (the host operations before it applied to the launch contents), the program's shape around
  the region, each input window's block at a grid point, and names for the staging and scratch buffers.
-/
import proofs.«116778_j56684978372796_1_alg».proof.Proof.Gen.KernelIdeal.Launch
import proofs.«116778_j56684978372796_1_alg».proof.Proof.Gen.KernelIdeal.Skeleton
import proofs.«116778_j56684978372796_1_alg».proof.Proof.Gen.KernelIdeal.Points
import proofs.«116778_j56684978372796_1_alg».proof.Proof.KernelIdeal.Tile
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- What core `c`'s buffers hold when the region is entered: the host operations before it, applied in order to the
    launch contents. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host operations before the region, the region, the one host operation after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every grid point, fetched there or not (when it is not
    fetched its block index has not moved), for any proof data over these arrays whose body leaves inputs alone. -/
theorem before_in_of {c : Dev nD} (dat : Dat τ (Elt F) Unit ℕ (UR sig nD τ) ℕ cfg0 c) (w : Fin cfg0.W)
    (hw : (cfg0.win w).isOut = false) (hlive : ∀ i, cfg0.idle w i = false)
    (hclip : ∀ t t' : Fin cfg0.N, (cfg0.win w).index t = (cfg0.win w).index t' →
      (cfg0.win w).clip (cfg0.grid.coords t) = (cfg0.win w).clip (cfg0.grid.coords t'))
    (hA : dat.A w = V m c (Pipeline.arrRef spec0 w))
    (hafter : ∀ t, (cfg0.win w).cut (cfg0.grid.coords t) (dat.after w t) = iblk m c w t) (t : Fin cfg0.N) (d) :
    dat.before w t d = dat.fetched w t d :=
  dat.before_in_eq_fetched w hw hlive hclip (fun t => by rw [hafter]; unfold Dat.blockOf iblk; rw [hA]) t d

/-! ## The body's two conditions -/

/-- "First grid point": the body's first conditional, as it computes it from the coordinates. -/
abbrev isFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at point 0 only. -/
theorem isFirst_iff : ∀ t : Fin cfg0.N, isFirst (grid0.coords t) ↔ t.val = 0 :=
  (by decide +kernel : ∀ t : Fin grid0.N, isFirst (grid0.coords t) ↔ t.val = 0)

/-- "Last grid point": the body's second conditional. -/
abbrev isLast (i : grid0.Coords) : Prop := k0_cond2 i = 1#1
/-- It holds at point 143 only. -/
theorem isLast_iff : ∀ t : Fin cfg0.N, isLast (grid0.coords t) ↔ t.val = 143 :=
  (by decide +kernel : ∀ t : Fin grid0.N, isLast (grid0.coords t) ↔ t.val = 143)

/-! ## Where the windows are idle, and where the output is written back -/

theorem live0 : ∀ i, cfg0.idle 0 i = false := fun _ => rfl
theorem live1 : ∀ i, cfg0.idle 1 i = false := fun _ => rfl
theorem live2 : ∀ i, cfg0.idle 2 i = false := fun _ => rfl
theorem live3 : ∀ i, cfg0.idle 3 i = false := fun _ => rfl
/-- Away from the last point the body stores nothing into the output window, -/
theorem idle4_of_not_last : ∀ t : Fin cfg0.N, ¬isLast (grid0.coords t) → cfg0.idle 4 (grid0.coords t) = true := by decide +kernel
/-- and the pipeline does not write its block back there; -/
theorem noFlush4_of_not_last : ∀ t : Fin cfg0.N, ¬isLast (grid0.coords t) → (cfg0.win 4).flush t = false := by decide +kernel
/-- at the last point the body stores into it -/
theorem live4_of_last : ∀ t : Fin cfg0.N, isLast (grid0.coords t) → cfg0.idle 4 (grid0.coords t) = false := by decide +kernel

/-! ## The buffers the body is called with -/

abbrev ms0 (t : Fin cfg0.N) : Memref sig .tc .vmem S512x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)
/-- The running total's buffer: a scratch buffer of the kernel's own, kept between grid points. -/
abbrev scM : Memref sig .tc .vmem S1x1 .f32 := Memref.whole cc0_scratch0
/-- Views through which the contents of the output's staging buffer and of the running total are stated. -/
abbrev VO : View sig .tc .vmem S1x1 .f32 := (Memref.whole cc0_stg4_0 : Memref sig .tc .vmem S1x1 .f32).view
abbrev VS : View sig .tc .vmem S1x1 .f32 := scM.view

/-- The scoped buffers that are no staging buffer are the running total's buffer, at some contents. -/
theorem scopedRest_eq (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; rfl

end Cert.KernelIdeal.Pair

end
-- ==== Proof.KernelIdeal.RunFirst.lean ====
/-
  The body at the FIRST grid point: the running total is zeroed, the point's table is summed into it, and
  nothing is stored into the output's staging buffer.  Stated for any whole staging buffers holding the four input
  blocks: the body runs, leaves the inputs and the output's buffer as they were, and leaves the running total's
  buffer overwritten by the pieces the run finds.
-/
import proofs.«116778_j56684978372796_1_alg».proof.Proof.KernelIdeal.Runs

set_option maxRecDepth 16384

noncomputable section

namespace Cert.KernelIdeal.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def runFirst (c : Dev nD) (i : grid0.Coords) (arg2 : Memref sig .tc .vmem S512x3 .f32) (harg2 : arg2.IsWhole) (arg3 : Memref sig .tc .vmem S512x3 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole)
    (hc1 : isFirst i) (hc2 : ¬isLast i) (x0 x1 : Vec F S512x3 .f32) (x2 x3 : Vec F S512x1 .f32) :
    { LS : List (View.Piece (Elt F) S1x1 .f32) //
      ∀ (xi4 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc0__pair_kernel i arg2 harg2 arg3 harg3 arg4 harg4 arg5 harg5 arg6 harg6 arg7 harg7) K } := by
  refine ⟨?_, fun xi4 E K => ?run⟩
  case run =>
    simp only [cc0__pair_kernel_eq_skeleton]; unfold cc0__pair_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2; obtain rfl := harg5.eq_unread hf3
    obtain rfl := harg6.eq_unread hf4
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.KernelIdeal.Pair

end
-- ==== Proof.KernelIdeal.RunMid.lean ====
/-
  The body at a grid point that is neither the first nor the last: the point's table is summed into the running
  total found in its buffer, and nothing is stored into the output's staging buffer.
-/
import proofs.«116778_j56684978372796_1_alg».proof.Proof.KernelIdeal.Runs

set_option maxRecDepth 16384

noncomputable section

namespace Cert.KernelIdeal.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def runMid (c : Dev nD) (i : grid0.Coords) (arg2 : Memref sig .tc .vmem S512x3 .f32) (harg2 : arg2.IsWhole) (arg3 : Memref sig .tc .vmem S512x3 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole)
    (hc1 : ¬isFirst i) (hc2 : ¬isLast i) (x0 x1 : Vec F S512x3 .f32) (x2 x3 : Vec F S512x1 .f32) (xs : Vec F S1x1 .f32) :
    { LS : List (View.Piece (Elt F) S1x1 .f32) //
      ∀ (xi4 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc0__pair_kernel i arg2 harg2 arg3 harg3 arg4 harg4 arg5 harg5 arg6 harg6 arg7 harg7) K } := by
  refine ⟨?_, fun xi4 E K => ?run⟩
  case run =>
    simp only [cc0__pair_kernel_eq_skeleton]; unfold cc0__pair_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hfs
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.KernelIdeal.Pair

end
-- ==== Proof.KernelIdeal.RunLast.lean ====
/-
  The body at the LAST grid point: the point's table is summed into the running total found in its buffer, and
  the total times the Coulomb constant is stored into the output's staging buffer.
-/
import proofs.«116778_j56684978372796_1_alg».proof.Proof.KernelIdeal.Runs

set_option maxRecDepth 16384

noncomputable section

namespace Cert.KernelIdeal.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def runLast (c : Dev nD) (i : grid0.Coords) (arg2 : Memref sig .tc .vmem S512x3 .f32) (harg2 : arg2.IsWhole) (arg3 : Memref sig .tc .vmem S512x3 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole)
    (hc1 : ¬isFirst i) (hc2 : isLast i) (x0 x1 : Vec F S512x3 .f32) (x2 x3 : Vec F S512x1 .f32) (xs : Vec F S1x1 .f32) :
    Σ' (L4 : List (View.Piece (Elt F) S1x1 .f32)), { LS : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS)) -∗ K ⟨⟩))
          ⊢ wp frame (wpE (defs₀ (F := F)) Variants.none c none) E (cc0__pair_kernel i arg2 harg2 arg3 harg3 arg4 harg4 arg5 harg5 arg6 harg6 arg7 harg7) K } := by
  refine ⟨?_, ?_, fun E K => ?run⟩
  case run =>
    simp only [cc0__pair_kernel_eq_skeleton]; unfold cc0__pair_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3
    obtain rfl := harg7.eq_unread hfs
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact HS

end Cert.KernelIdeal.Pair

end
-- ==== Proof.KernelIdeal.Pieces.lean ====
/-
  What each of the three runs leaves, read as values.

  Every store of the body overwrites a whole 1 × 1 buffer, so what a buffer holds after the body is the last
  store's value, whatever it held before.  At the first grid point the running total becomes the tile's sum added
  to the zero just written; at every later point the tile's sum added to the total found there; and at the last
  point the output's buffer receives that new total times the Coulomb constant.
-/
import proofs.«116778_j56684978372796_1_alg».proof.Proof.KernelIdeal.RunFirst
import proofs.«116778_j56684978372796_1_alg».proof.Proof.KernelIdeal.RunMid
import proofs.«116778_j56684978372796_1_alg».proof.Proof.KernelIdeal.RunLast
import Idealize.ShloMosaic.Lib.Pipeline.Value

set_option maxRecDepth 16384

noncomputable section

namespace Cert.KernelIdeal.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-! ## The first grid point -/

theorem scoverFirst (c : Dev nD) (i : grid0.Coords) (arg2 : Memref sig .tc .vmem S512x3 .f32) (harg2 : arg2.IsWhole) (arg3 : Memref sig .tc .vmem S512x3 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : isFirst i) (hc2 : ¬isLast i)
    (x0 x1 : Vec F S512x3 .f32) (x2 x3 : Vec F S512x1 .f32) (y : S1x1.Idx) :
    ∃ pc ∈ (runFirst c i arg2 harg2 arg3 harg3 arg4 harg4 arg5 harg5 arg6 harg6 arg7 harg7 hc1 hc2 x0 x1 x2 x3).1, y ∈ pc.1.set :=
  View.cover_of_tiledL (runFirst c i arg2 harg2 arg3 harg3 arg4 harg4 arg5 harg5 arg6 harg6 arg7 harg7 hc1 hc2 x0 x1 x2 x3).1 S1x1.size (by sl_kernel_rfl) y

/-- What the first point leaves in the running total's buffer. -/
def soutFirst (c : Dev nD) (i : grid0.Coords) (arg2 : Memref sig .tc .vmem S512x3 .f32) (harg2 : arg2.IsWhole) (arg3 : Memref sig .tc .vmem S512x3 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : isFirst i) (hc2 : ¬isLast i)
    (x0 x1 : Vec F S512x3 .f32) (x2 x3 : Vec F S512x1 .f32) : Vec F S1x1 .f32 :=
  VS.read (Elt F) (VS.writes (Elt F) VS.junk (runFirst c i arg2 harg2 arg3 harg3 arg4 harg4 arg5 harg5 arg6 harg6 arg7 harg7 hc1 hc2 x0 x1 x2 x3).1)

/-- It is the tile's sum added to the zero written first. -/
theorem soutFirst_eq (c : Dev nD) (i : grid0.Coords) (arg2 : Memref sig .tc .vmem S512x3 .f32) (harg2 : arg2.IsWhole) (arg3 : Memref sig .tc .vmem S512x3 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : isFirst i) (hc2 : ¬isLast i)
    (x0 x1 : Vec F S512x3 .f32) (x2 x3 : Vec F S512x1 .f32) :
    soutFirst c i arg2 harg2 arg3 harg3 arg4 harg4 arg5 harg5 arg6 harg6 arg7 harg7 hc1 hc2 x0 x1 x2 x3 = tileAcc i x0 x1 x2 x3 accInit := by
  unfold soutFirst
  rw [View.read_writes_eq_canon _ _ _ (scoverFirst c i arg2 harg2 arg3 harg3 arg4 harg4 arg5 harg5 arg6 harg6 arg7 harg7 hc1 hc2 x0 x1 x2 x3)]
  unfold runFirst
  dsimp only
  sl_unfold_words
  rw [View.canon_cons_unit_zero (S := S1x1) hz, View.readCov_unit_zero (S := S1x1) _ hz]
  unfold tileAcc dist2 accInit
  simp only [View.readAt_eq_ld, harg2.read_unread, harg3.read_unread, harg4.read_unread, harg5.read_unread, harg7.read_unread, View.ld_unit_zero (S := S512x3) hz, View.ld_unit_zero (S := S512x1) hz, View.ld_unit_zero (S := S1x1) hz]

/-! ## A point that is neither first nor last -/

theorem scoverMid (c : Dev nD) (i : grid0.Coords) (arg2 : Memref sig .tc .vmem S512x3 .f32) (harg2 : arg2.IsWhole) (arg3 : Memref sig .tc .vmem S512x3 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : ¬isFirst i) (hc2 : ¬isLast i)
    (x0 x1 : Vec F S512x3 .f32) (x2 x3 : Vec F S512x1 .f32) (xs : Vec F S1x1 .f32) (y : S1x1.Idx) :
    ∃ pc ∈ (runMid c i arg2 harg2 arg3 harg3 arg4 harg4 arg5 harg5 arg6 harg6 arg7 harg7 hc1 hc2 x0 x1 x2 x3 xs).1, y ∈ pc.1.set :=
  View.cover_of_tiledL (runMid c i arg2 harg2 arg3 harg3 arg4 harg4 arg5 harg5 arg6 harg6 arg7 harg7 hc1 hc2 x0 x1 x2 x3 xs).1 S1x1.size (by sl_kernel_rfl) y

/-- What such a point leaves in the running total's buffer, which held `xs`. -/
def soutMid (c : Dev nD) (i : grid0.Coords) (arg2 : Memref sig .tc .vmem S512x3 .f32) (harg2 : arg2.IsWhole) (arg3 : Memref sig .tc .vmem S512x3 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : ¬isFirst i) (hc2 : ¬isLast i)
    (x0 x1 : Vec F S512x3 .f32) (x2 x3 : Vec F S512x1 .f32) (xs : Vec F S1x1 .f32) : Vec F S1x1 .f32 :=
  VS.read (Elt F) (VS.writes (Elt F) VS.junk (runMid c i arg2 harg2 arg3 harg3 arg4 harg4 arg5 harg5 arg6 harg6 arg7 harg7 hc1 hc2 x0 x1 x2 x3 xs).1)

theorem soutMid_eq (c : Dev nD) (i : grid0.Coords) (arg2 : Memref sig .tc .vmem S512x3 .f32) (harg2 : arg2.IsWhole) (arg3 : Memref sig .tc .vmem S512x3 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : ¬isFirst i) (hc2 : ¬isLast i)
    (x0 x1 : Vec F S512x3 .f32) (x2 x3 : Vec F S512x1 .f32) (xs : Vec F S1x1 .f32) :
    soutMid c i arg2 harg2 arg3 harg3 arg4 harg4 arg5 harg5 arg6 harg6 arg7 harg7 hc1 hc2 x0 x1 x2 x3 xs = tileAcc i x0 x1 x2 x3 xs := by
  unfold soutMid
  rw [View.read_writes_eq_canon _ _ _ (scoverMid c i arg2 harg2 arg3 harg3 arg4 harg4 arg5 harg5 arg6 harg6 arg7 harg7 hc1 hc2 x0 x1 x2 x3 xs)]
  unfold runMid
  dsimp only
  sl_unfold_words
  rw [View.canon_unit_zero (S := S1x1) hz]
  unfold tileAcc dist2
  simp only [View.readAt_eq_ld, harg2.read_unread, harg3.read_unread, harg4.read_unread, harg5.read_unread, harg7.read_unread, View.ld_unit_zero (S := S512x3) hz, View.ld_unit_zero (S := S512x1) hz, View.ld_unit_zero (S := S1x1) hz]

/-! ## The last grid point -/

theorem scoverLast (c : Dev nD) (i : grid0.Coords) (arg2 : Memref sig .tc .vmem S512x3 .f32) (harg2 : arg2.IsWhole) (arg3 : Memref sig .tc .vmem S512x3 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : ¬isFirst i) (hc2 : isLast i)
    (x0 x1 : Vec F S512x3 .f32) (x2 x3 : Vec F S512x1 .f32) (xs : Vec F S1x1 .f32) (y : S1x1.Idx) :
    ∃ pc ∈ (runLast c i arg2 harg2 arg3 harg3 arg4 harg4 arg5 harg5 arg6 harg6 arg7 harg7 hc1 hc2 x0 x1 x2 x3 xs).2.1, y ∈ pc.1.set :=
  View.cover_of_tiledL (runLast c i arg2 harg2 arg3 harg3 arg4 harg4 arg5 harg5 arg6 harg6 arg7 harg7 hc1 hc2 x0 x1 x2 x3 xs).2.1 S1x1.size (by sl_kernel_rfl) y

theorem coverLast (c : Dev nD) (i : grid0.Coords) (arg2 : Memref sig .tc .vmem S512x3 .f32) (harg2 : arg2.IsWhole) (arg3 : Memref sig .tc .vmem S512x3 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : ¬isFirst i) (hc2 : isLast i)
    (x0 x1 : Vec F S512x3 .f32) (x2 x3 : Vec F S512x1 .f32) (xs : Vec F S1x1 .f32) (y : S1x1.Idx) :
    ∃ pc ∈ (runLast c i arg2 harg2 arg3 harg3 arg4 harg4 arg5 harg5 arg6 harg6 arg7 harg7 hc1 hc2 x0 x1 x2 x3 xs).1, y ∈ pc.1.set :=
  View.cover_of_tiledL (runLast c i arg2 harg2 arg3 harg3 arg4 harg4 arg5 harg5 arg6 harg6 arg7 harg7 hc1 hc2 x0 x1 x2 x3 xs).1 S1x1.size (by sl_kernel_rfl) y

/-- What the last point leaves in the running total's buffer, -/
def soutLast (c : Dev nD) (i : grid0.Coords) (arg2 : Memref sig .tc .vmem S512x3 .f32) (harg2 : arg2.IsWhole) (arg3 : Memref sig .tc .vmem S512x3 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : ¬isFirst i) (hc2 : isLast i)
    (x0 x1 : Vec F S512x3 .f32) (x2 x3 : Vec F S512x1 .f32) (xs : Vec F S1x1 .f32) : Vec F S1x1 .f32 :=
  VS.read (Elt F) (VS.writes (Elt F) VS.junk (runLast c i arg2 harg2 arg3 harg3 arg4 harg4 arg5 harg5 arg6 harg6 arg7 harg7 hc1 hc2 x0 x1 x2 x3 xs).2.1)

/-- and in the output's staging buffer. -/
def outLast (c : Dev nD) (i : grid0.Coords) (arg2 : Memref sig .tc .vmem S512x3 .f32) (harg2 : arg2.IsWhole) (arg3 : Memref sig .tc .vmem S512x3 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : ¬isFirst i) (hc2 : isLast i)
    (x0 x1 : Vec F S512x3 .f32) (x2 x3 : Vec F S512x1 .f32) (xs : Vec F S1x1 .f32) : Vec F S1x1 .f32 :=
  VO.read (Elt F) (VO.writes (Elt F) VO.junk (runLast c i arg2 harg2 arg3 harg3 arg4 harg4 arg5 harg5 arg6 harg6 arg7 harg7 hc1 hc2 x0 x1 x2 x3 xs).1)

theorem soutLast_eq (c : Dev nD) (i : grid0.Coords) (arg2 : Memref sig .tc .vmem S512x3 .f32) (harg2 : arg2.IsWhole) (arg3 : Memref sig .tc .vmem S512x3 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : ¬isFirst i) (hc2 : isLast i)
    (x0 x1 : Vec F S512x3 .f32) (x2 x3 : Vec F S512x1 .f32) (xs : Vec F S1x1 .f32) :
    soutLast c i arg2 harg2 arg3 harg3 arg4 harg4 arg5 harg5 arg6 harg6 arg7 harg7 hc1 hc2 x0 x1 x2 x3 xs = tileAcc i x0 x1 x2 x3 xs := by
  unfold soutLast
  rw [View.read_writes_eq_canon _ _ _ (scoverLast c i arg2 harg2 arg3 harg3 arg4 harg4 arg5 harg5 arg6 harg6 arg7 harg7 hc1 hc2 x0 x1 x2 x3 xs)]
  unfold runLast
  dsimp only
  sl_unfold_words
  rw [View.canon_unit_zero (S := S1x1) hz]
  unfold tileAcc dist2
  simp only [View.readAt_eq_ld, harg2.read_unread, harg3.read_unread, harg4.read_unread, harg5.read_unread, harg7.read_unread, View.ld_unit_zero (S := S512x3) hz, View.ld_unit_zero (S := S512x1) hz, View.ld_unit_zero (S := S1x1) hz]

theorem outLast_eq (c : Dev nD) (i : grid0.Coords) (arg2 : Memref sig .tc .vmem S512x3 .f32) (harg2 : arg2.IsWhole) (arg3 : Memref sig .tc .vmem S512x3 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : ¬isFirst i) (hc2 : isLast i)
    (x0 x1 : Vec F S512x3 .f32) (x2 x3 : Vec F S512x1 .f32) (xs : Vec F S1x1 .f32) :
    outLast c i arg2 harg2 arg3 harg3 arg4 harg4 arg5 harg5 arg6 harg6 arg7 harg7 hc1 hc2 x0 x1 x2 x3 xs = scaled (tileAcc i x0 x1 x2 x3 xs) := by
  unfold outLast
  rw [View.read_writes_eq_canon _ _ _ (coverLast c i arg2 harg2 arg3 harg3 arg4 harg4 arg5 harg5 arg6 harg6 arg7 harg7 hc1 hc2 x0 x1 x2 x3 xs)]
  unfold runLast
  dsimp only
  sl_unfold_words
  rw [View.canon_unit_zero (S := S1x1) hz, View.readCov_unit_zero (S := S1x1) _ hz]
  unfold scaled tileAcc dist2
  simp only [View.readAt_eq_ld, harg2.read_unread, harg3.read_unread, harg4.read_unread, harg5.read_unread, harg7.read_unread, View.ld_unit_zero (S := S512x3) hz, View.ld_unit_zero (S := S512x1) hz, View.ld_unit_zero (S := S1x1) hz]

end Cert.KernelIdeal.Pair

end
-- ==== Proof.KernelIdeal.Frame.lean ====
/-
  The proof data of the pipeline and the body obligation.

  After grid point n the running total's buffer holds `accAfter n`: the tile sums of points 0 … n added, in order,
  to the zero written at point 0.  The input windows' staging buffers hold their blocks at every point; the
  output's staging buffer is untouched until the last point, where it receives the scaled total.  Between points
  the kernel keeps exactly the running total (before the first point its buffer holds anything).
-/
import proofs.«116778_j56684978372796_1_alg».proof.Proof.KernelIdeal.Pieces

set_option maxRecDepth 16384

noncomputable section

namespace Cert.KernelIdeal.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The running total after grid point `n`. -/
def accAfter (c : Dev nD) : (n : ℕ) → n < cfg0.N → Vec F S1x1 .f32
  | 0, hn => tileAcc (grid0.coords ⟨0, hn⟩) (iblk m c 0 ⟨0, hn⟩) (iblk m c 1 ⟨0, hn⟩) (iblk m c 2 ⟨0, hn⟩) (iblk m c 3 ⟨0, hn⟩) accInit
  | n + 1, hn => tileAcc (grid0.coords ⟨n + 1, hn⟩) (iblk m c 0 ⟨n + 1, hn⟩) (iblk m c 1 ⟨n + 1, hn⟩) (iblk m c 2 ⟨n + 1, hn⟩) (iblk m c 3 ⟨n + 1, hn⟩) (accAfter c n (Nat.lt_of_succ_lt hn))

theorem accAfter_zero (c : Dev nD) (t : Fin cfg0.N) (h : t.val = 0) :
    accAfter m c t.val t.isLt = tileAcc (grid0.coords t) (iblk m c 0 t) (iblk m c 1 t) (iblk m c 2 t) (iblk m c 3 t) accInit := by
  obtain ⟨n, hn⟩ := t
  cases n with
  | zero => rfl
  | succ n => exact absurd h (Nat.succ_ne_zero n)

theorem accAfter_pos (c : Dev nD) (t : Fin cfg0.N) (h : t.val ≠ 0) :
    accAfter m c t.val t.isLt = tileAcc (grid0.coords t) (iblk m c 0 t) (iblk m c 1 t) (iblk m c 2 t) (iblk m c 3 t)
      (accAfter m c (t.val - 1) (Nat.lt_of_le_of_lt (Nat.sub_le _ _) t.isLt)) := by
  obtain ⟨n, hn⟩ := t
  cases n with
  | zero => exact absurd rfl h
  | succ n => rfl

/-- What the kernel keeps between grid points: before the first, its scratch buffer at anything; afterwards at the
    running total. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns (c : Thread nD τ) scM fullShare (accAfter m c n hn)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = owns (c : Thread nD τ) scM fullShare (accAfter m c n hn) := rfl

theorem PhiS_pos (c : Dev nD) (n : ℕ) (h : n ≤ cfg0.N) (hz : n ≠ 0) :
    PhiS m c n h = owns (c : Thread nD τ) scM fullShare (accAfter m c (n - 1) (by omega)) := by
  cases n with
  | zero => exact absurd rfl hz
  | succ n => rfl

/-- The proof data: the arrays as the region finds them; each input's buffer at its block; the output's buffer at
    the scaled total; the two windows on the positions' array hold its two half shares, likewise the two windows on
    the charges' array. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => scaled (accAfter m c t.val t.isLt)
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_out (c : Dev nD) (t : Fin cfg0.N) : (dats m 0 c).after 4 t = scaled (accAfter m c t.val t.isLt) := by dsimp only [dats]

/-- Each input's staging buffer holds its block at every point. -/
theorem before0 (c : Dev nD) (t : Fin cfg0.N) (d) : (dats m 0 c).before 0 t d = iblk m c 0 t :=
  (before_in_of m (dats m 0 c) 0 rfl live0 (fun _ _ _ => rfl) (A_eq m c 0) (fun t => by rw [after_in0]) t d).trans
    (by unfold Dat.fetched Dat.blockOf iblk; rw [A_eq]; rfl)
theorem before1 (c : Dev nD) (t : Fin cfg0.N) (d) : (dats m 0 c).before 1 t d = iblk m c 1 t :=
  (before_in_of m (dats m 0 c) 1 rfl live1 (fun _ _ _ => rfl) (A_eq m c 1) (fun t => by rw [after_in1]) t d).trans
    (by unfold Dat.fetched Dat.blockOf iblk; rw [A_eq]; rfl)
theorem before2 (c : Dev nD) (t : Fin cfg0.N) (d) : (dats m 0 c).before 2 t d = iblk m c 2 t :=
  (before_in_of m (dats m 0 c) 2 rfl live2 (fun _ _ _ => rfl) (A_eq m c 2) (fun t => by rw [after_in2]) t d).trans
    (by unfold Dat.fetched Dat.blockOf iblk; rw [A_eq]; rfl)
theorem before3 (c : Dev nD) (t : Fin cfg0.N) (d) : (dats m 0 c).before 3 t d = iblk m c 3 t :=
  (before_in_of m (dats m 0 c) 3 rfl live3 (fun _ _ _ => rfl) (A_eq m c 3) (fun t => by rw [after_in3]) t d).trans
    (by unfold Dat.fetched Dat.blockOf iblk; rw [A_eq]; rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  have hN : t.val < 144 := lt_of_lt_of_eq t.isLt (show cfg0.N = 144 from N_0)
  rw [show (dats m 0 c).leavesExact 0 t = owns (c : Thread nD τ) (ms0 t) fullShare ((dats m 0 c).after 0 t) from by
    unfold Dat.leavesExact; rw [live0], after_in0]
  rw [show (dats m 0 c).leavesExact 1 t = owns (c : Thread nD τ) (ms1 t) fullShare ((dats m 0 c).after 1 t) from by
    unfold Dat.leavesExact; rw [live1], after_in1]
  rw [show (dats m 0 c).leavesExact 2 t = owns (c : Thread nD τ) (ms2 t) fullShare ((dats m 0 c).after 2 t) from by
    unfold Dat.leavesExact; rw [live2], after_in2]
  rw [show (dats m 0 c).leavesExact 3 t = owns (c : Thread nD τ) (ms3 t) fullShare ((dats m 0 c).after 3 t) from by
    unfold Dat.leavesExact; rw [live3], after_in3]
  by_cases h0 : t.val = 0
  · have hc1 : isFirst (grid0.coords t) := (isFirst_iff t).mpr h0
    have hc2 : ¬isLast (grid0.coords t) := fun h => by have := (isLast_iff t).mp h; omega
    rw [Dat.leavesExact_idle (dats m 0 c) 4 t (idle4_of_not_last t hc2) (noFlush4_of_not_last t hc2)]
    rw [accAfter_zero m c t h0, ← soutFirst_eq c (grid0.coords t) (ms0 t) (hs0 t) (ms1 t) (hs1 t) (ms2 t) (hs2 t) (ms3 t) (hs3 t) (ms4 t) (hs4 t) scM (Memref.isWhole_whole _) hc1 hc2]
    unfold soutFirst
    rw [PhiS_castSucc m c t, PhiS_zero m c _ _ h0, scopedRest_eq]
    iintro ⟨HS, Ho, ⟨%d0, H0⟩, ⟨%d1, H1⟩, ⟨%d2, H2⟩, ⟨%d3, H3⟩, ⟨%d4, H4⟩⟩
    iapply ((runFirst c (grid0.coords t) (ms0 t) (hs0 t) (ms1 t) (hs1 t) (ms2 t) (hs2 t) (ms3 t) (hs3 t) (ms4 t) (hs4 t) scM (Memref.isWhole_whole _) hc1 hc2 (iblk m c 0 t) (iblk m c 1 t) (iblk m c 2 t) (iblk m c 3 t)).2 _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, ⟨%es, HS⟩⟩
    isplitl [HS]
    · unfold owns; iexists _; isplitr
      swap; · iexact HS
      ipureintro; exact View.read_writes_of_cover _ _ _ _ _ (scoverFirst c _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    iexists _; iexact H4
  · have hc1 : ¬isFirst (grid0.coords t) := fun h => h0 ((isFirst_iff t).mp h)
    rw [PhiS_castSucc m c t, PhiS_pos m c _ _ h0, accAfter_pos m c t h0]
    by_cases h1 : t.val = 143
    · have hc2 : isLast (grid0.coords t) := (isLast_iff t).mpr h1
      rw [show (dats m 0 c).leavesExact 4 t = owns (c : Thread nD τ) (ms4 t) fullShare ((dats m 0 c).after 4 t) from by
        unfold Dat.leavesExact; rw [live4_of_last t hc2], after_out, accAfter_pos m c t h0]
      rw [← outLast_eq c (grid0.coords t) (ms0 t) (hs0 t) (ms1 t) (hs1 t) (ms2 t) (hs2 t) (ms3 t) (hs3 t) (ms4 t) (hs4 t) scM (Memref.isWhole_whole _) hc1 hc2,
        ← soutLast_eq c (grid0.coords t) (ms0 t) (hs0 t) (ms1 t) (hs1 t) (ms2 t) (hs2 t) (ms3 t) (hs3 t) (ms4 t) (hs4 t) scM (Memref.isWhole_whole _) hc1 hc2]
      unfold soutLast outLast
      iintro ⟨HS, Ho, ⟨%d0, H0⟩, ⟨%d1, H1⟩, ⟨%d2, H2⟩, ⟨%d3, H3⟩, ⟨%d4, H4⟩⟩
      iapply ((runLast c (grid0.coords t) (ms0 t) (hs0 t) (ms1 t) (hs1 t) (ms2 t) (hs2 t) (ms3 t) (hs3 t) (ms4 t) (hs4 t) scM (Memref.isWhole_whole _) hc1 hc2 (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS]
      · unfold owns; iexists _; isplitr
        swap; · iexact HS
        ipureintro; exact View.read_writes_of_cover _ _ _ _ _ (scoverLast c _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverLast c _ _ _ _ _ _ _ _ _ _ _ _ _ _ _ _ _ _ _ _)
    · have hc2 : ¬isLast (grid0.coords t) := fun h => h1 ((isLast_iff t).mp h)
      rw [Dat.leavesExact_idle (dats m 0 c) 4 t (idle4_of_not_last t hc2) (noFlush4_of_not_last t hc2)]
      rw [← soutMid_eq c (grid0.coords t) (ms0 t) (hs0 t) (ms1 t) (hs1 t) (ms2 t) (hs2 t) (ms3 t) (hs3 t) (ms4 t) (hs4 t) scM (Memref.isWhole_whole _) hc1 hc2]
      unfold soutMid
      iintro ⟨HS, Ho, ⟨%d0, H0⟩, ⟨%d1, H1⟩, ⟨%d2, H2⟩, ⟨%d3, H3⟩, ⟨%d4, H4⟩⟩
      iapply ((runMid c (grid0.coords t) (ms0 t) (hs0 t) (ms1 t) (hs1 t) (ms2 t) (hs2 t) (ms3 t) (hs3 t) (ms4 t) (hs4 t) scM (Memref.isWhole_whole _) hc1 hc2 (iblk m c 0 t) (iblk m c 1 t) (iblk m c 2 t) (iblk m c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS]
      · unfold owns; iexists _; isplitr
        swap; · iexact HS
        ipureintro; exact View.read_writes_of_cover _ _ _ _ _ (scoverMid c _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4

/-- The body obligation at every grid point. -/
theorem body_obligation (c : Dev nD) : BodyObligation (dats (F := F) m 0 c) (defs₀ (F := F)) Variants.none () Set.univ := fun t => by
  rw [bigSep_W0, bigSep_W0]
  exact sound_body m c t

/-- Before the first point the kernel's scratch buffer holds anything. -/
theorem hin (c : Dev nD) :
    (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]

/-- After the last point what it holds is forgotten. -/
theorem hout (c : Dev nD) :
    (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 144 := N_0; omega), scopedRest_eq]
  iintro HS
  iexists _; iexact HS

end Cert.KernelIdeal.Pair

end
-- ==== Proof.KernelIdeal.Launch.lean ====
/-
  The launch.

  The positions' array is read through two windows (rows 512·ti … and rows 512·tj …), and so is the charges'
  array.  At the region's entry each of these two buffers, held whole, is dealt to its two windows as its two half
  shares; at the exit the halves are joined again.  The output's array belongs to one window.  After the region
  one host operation reshapes the 1 × 1 result to a scalar; it writes none of the windows' arrays.
-/
import proofs.«116778_j56684978372796_1_alg».proof.Proof.KernelIdeal.Frame
import proofs.«116778_j56684978372796_1_alg».proof.Proof.LibSharedTail

set_option maxRecDepth 16384

noncomputable section

namespace Cert.KernelIdeal.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the five windows' arrays. -/
theorem arrRefs_eq : Finset.univ.image (Pipeline.arrRef spec0) = [main_arg2, main_v15, main_v16].toFinset := by decide

/-- The buffers behind the arrays, one by one. -/
theorem arrBufs_chain (c : Dev nD) (W : (b : Ref sig .tc) → Buf (Elt F) ((c.tc : Thread nD τ).loc b)) :
    (Pipeline.arrBufs spec0 c W : sProp 𝕄)
      = iprop((((c.tc : Thread nD τ).loc main_arg2) ↦{fullShare} W main_arg2) ∗ (((c.tc : Thread nD τ).loc main_v15) ↦{fullShare} W main_v15)
          ∗ (((c.tc : Thread nD τ).loc main_v16) ↦{fullShare} W main_v16)) := by
  unfold Pipeline.arrBufs
  rw [BI.bigSep_eq_bigSepL_of_eq [main_arg2, main_v15, main_v16] arrRefs_eq (by decide)]
  rfl

/-- The windows' holdings, one by one: the two windows on one buffer hold its two half shares. -/
theorem arrays_chain (c : Dev nD) (G : (w : Fin cfg0.W) → Buf (Elt F) ((cfg0.win w).arr.view.loc (c.tc : Thread nD τ))) :
    ((dats m 0 c).arrays G : sProp 𝕄)
      = iprop((((c.tc : Thread nD τ).loc main_arg2) ↦{fullShare.left} G 0) ∗ (((c.tc : Thread nD τ).loc main_arg2) ↦{fullShare.right} G 1)
          ∗ (((c.tc : Thread nD τ).loc main_v15) ↦{fullShare.left} G 2) ∗ (((c.tc : Thread nD τ).loc main_v15) ↦{fullShare.right} G 3)
          ∗ (((c.tc : Thread nD τ).loc main_v16) ↦{fullShare} G 4)) := by
  unfold Dat.arrays
  rw [bigSep_W0, (arr_whole0 0).set_eq_univ, (arr_whole0 2).set_eq_univ, (arr_whole0 4).set_eq_univ]
  rfl

/-- What core `c`'s buffers hold when the region is left: the output's array at what the pipeline wrote back, every
    other buffer as the region found it. -/
def VN (c : Dev nD) : Valuation τ sig (Elt F) :=
  Function.update (V0 m c) (Proc.devRef .tc main_v16) ((dats m 0 c).arrAt 4 cfg0.N)

theorem VN_out (c : Dev nD) : VN m c (Proc.devRef .tc main_v16) = (dats m 0 c).arrAt 4 cfg0.N := by
  unfold VN; exact Function.update_self _ _ _

theorem VN_of_ne (c : Dev nD) (b : Ref sig .tc) (hb : b ≠ main_v16) : VN m c (Proc.devRef .tc b) = V0 m c (Proc.devRef .tc b) := by
  unfold VN; exact Function.update_of_ne (StableHlo.devRef_ne_of_ne hb) _ _

/-- At the entry: each shared buffer is dealt to its two windows as its two halves. -/
theorem hsplit (c : Dev nD) :
    (Pipeline.arrBufs spec0 c (fun b => V0 m c b) : sProp 𝕄) ⊢ (dats m 0 c).arrays ((dats m 0 c).arrAt · 0) := by
  rw [arrBufs_chain, arrays_chain]
  iintro ⟨Ha, Hb, Hc⟩
  ihave Ha2 := (pointsTo_share (PosShare.mem_left_op_right fullShare)).1 $$ Ha
  icases Ha2 with ⟨Ha0, Ha1⟩
  ihave Hb2 := (pointsTo_share (PosShare.mem_left_op_right fullShare)).1 $$ Hb
  icases Hb2 with ⟨Hb0, Hb1⟩
  isplitl [Ha0]; · iexact Ha0
  isplitl [Ha1]; · iexact Ha1
  isplitl [Hb0]; · iexact Hb0
  isplitl [Hb1]; · iexact Hb1
  iexact Hc

/-- An input window's array is never written: it ends as it began. -/
theorem arrAt_in0 (c : Dev nD) (n : ℕ) : (dats m 0 c).arrAt 0 n = V m c main_arg2 := ((dats m 0 c).arrAt_in 0 rfl n).trans (A_eq m c 0)
theorem arrAt_in1 (c : Dev nD) (n : ℕ) : (dats m 0 c).arrAt 1 n = V m c main_arg2 := ((dats m 0 c).arrAt_in 1 rfl n).trans (A_eq m c 1)
theorem arrAt_in2 (c : Dev nD) (n : ℕ) : (dats m 0 c).arrAt 2 n = V m c main_v15 := ((dats m 0 c).arrAt_in 2 rfl n).trans (A_eq m c 2)
theorem arrAt_in3 (c : Dev nD) (n : ℕ) : (dats m 0 c).arrAt 3 n = V m c main_v15 := ((dats m 0 c).arrAt_in 3 rfl n).trans (A_eq m c 3)

/-- At the exit: the halves are joined again. -/
theorem hjoin (c : Dev nD) :
    (dats m 0 c).arrays ((dats m 0 c).arrAt · cfg0.N) ⊢ (Pipeline.arrBufs spec0 c (fun b => VN m c b) : sProp 𝕄) := by
  rw [arrBufs_chain, arrays_chain]
  rw [arrAt_in0, arrAt_in1, arrAt_in2, arrAt_in3, VN_out, VN_of_ne m c main_arg2 (by decide), VN_of_ne m c main_v15 (by decide)]
  iintro ⟨Ha0, Ha1, Hb0, Hb1, Hc⟩
  isplitl [Ha0 Ha1]
  · iapply (pointsTo_share (PosShare.mem_left_op_right fullShare)).2
    isplitl [Ha0]; · iexact Ha0
    iexact Ha1
  isplitl [Hb0 Hb1]
  · iapply (pointsTo_share (PosShare.mem_left_op_right fullShare)).2
    isplitl [Hb0]; · iexact Hb0
    iexact Hb1
  iexact Hc

/-- The host operation after the region writes only its own result. -/
theorem after_keep (c : Dev nD) (b : Ref sig .tc) (hb : b ≠ main_v17) :
    StableHlo.after ([hostOps1] : List (List (HloOp τ sig (Elt F)))).flatten (VN m c) (Proc.devRef .tc b) = VN m c (Proc.devRef .tc b) :=
  StableHlo.after_of_forall_not_mem _ _ fun op hop => by
    simp only [List.flatten_cons, List.flatten_nil, List.append_nil, hostOps1, List.mem_cons, List.not_mem_nil, or_false] at hop
    subst hop
    simp only [StableHlo.reshape_writes, Finset.mem_singleton]
    exact StableHlo.devRef_ne_of_ne hb

/-- So after it the buffers behind the arrays can be dealt out as at the exit. -/
theorem hsplitN (c : Dev nD) :
    (Pipeline.arrBufs spec0 c (fun b => StableHlo.after ([hostOps1] : List (List (HloOp τ sig (Elt F)))).flatten (VN m c) b) : sProp 𝕄)
      ⊢ (dats m 0 c).arrays ((dats m 0 c).arrAt · cfg0.N) := by
  rw [arrBufs_chain, arrays_chain]
  rw [after_keep m c main_arg2 (by decide), after_keep m c main_v15 (by decide), after_keep m c main_v16 (by decide),
    arrAt_in0, arrAt_in1, arrAt_in2, arrAt_in3, VN_out, VN_of_ne m c main_arg2 (by decide), VN_of_ne m c main_v15 (by decide)]
  iintro ⟨Ha, Hb, Hc⟩
  ihave Ha2 := (pointsTo_share (PosShare.mem_left_op_right fullShare)).1 $$ Ha
  icases Ha2 with ⟨Ha0, Ha1⟩
  ihave Hb2 := (pointsTo_share (PosShare.mem_left_op_right fullShare)).1 $$ Hb
  icases Hb2 with ⟨Hb0, Hb1⟩
  isplitl [Ha0]; · iexact Ha0
  isplitl [Ha1]; · iexact Ha1
  isplitl [Hb0]; · iexact Hb0
  isplitl [Hb1]; · iexact Hb1
  iexact Hc

/-- Away from the arrays the region changes nothing. -/
theorem hVN (c : Dev nD) : ∀ b ∈ Pipeline.restRefs sig spec0, VN m c b = V0 m c b := fun b hb =>
  VN_of_ne m c b fun e => (Finset.mem_sdiff.mp hb).2 (Finset.mem_image.mpr ⟨4, Finset.mem_univ _, e ▸ rfl⟩)

theorem sfx_sub : ∀ ops ∈ ([hostOps1] : List (List (HloOp τ sig (Elt F)))), ∀ op ∈ ops, op.bufs ⊆ Pipeline.ucRefs τ sig := by
  intro ops hops op hop
  simp only [List.mem_cons, List.not_mem_nil, or_false] at hops
  subst hops
  exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.not_mem_nil, or_false] at hops
  subst hops
  exact (List.forall_iff_forall_mem.mp hostOps1_fresh) op hop

set_option backward.isDefEq.respectTransparency.types false in
/-- Every weakly fair execution of the program terminates, faulting nowhere; at the end every window's array holds what
    the pipeline computes from the proof data and every other unscoped buffer what the last host operation leaves. -/
theorem run_main : θ_run defs (onTc (τ := τ) (main (F := F))) (s₀ m ρ) (Pipeline.SharedTailPost cfgs (dats m) 0 (VN m) [hostOps1]) :=
  Pipeline.θ_run_frame_shared_around_track cfgs (dats m) (0 : Fin 1) defs₀ Variants.none cellOf_inj winFacts₀0 block_pos0 arr_whole0 stage_whole0
    m ρ main (hbody := fun c => (body_obligation m c).loose) (howed := fun _ _ => rfl) (V₀ := V0 m) (VN := VN m) (opss := [hostOps1])
    (hsub := sfx_sub) (hfresh := sfx_fresh) (hmain := hmain m Variants.none) (hsplit := hsplit m) (hVN := hVN m) (hjoin := hjoin m)
    (hsplitN := hsplitN m) (hin := hin m) (hout := hout m)

end Cert.KernelIdeal.Pair

end
-- ==== Proof.KernelIdeal.Entry.lean ====
/-
  What the region finds in the program's six argument buffers: the host operations before the region write none of
  them, so each holds its launch contents.
-/
import proofs.«116778_j56684978372796_1_alg».proof.Proof.KernelIdeal.Runs

noncomputable section

namespace Cert.KernelIdeal.Pair

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

theorem V_arg0 (c : Dev nD) : V m c main_arg0 = m ((c : Thread nD τ).loc main_arg0) := by
  show StableHlo.after hostOps0 (fun b => m (c, b)) (Proc.devRef .tc main_arg0) = _
  after_results
theorem V_arg1 (c : Dev nD) : V m c main_arg1 = m ((c : Thread nD τ).loc main_arg1) := by
  show StableHlo.after hostOps0 (fun b => m (c, b)) (Proc.devRef .tc main_arg1) = _
  after_results
theorem V_arg2 (c : Dev nD) : V m c main_arg2 = m ((c : Thread nD τ).loc main_arg2) := by
  show StableHlo.after hostOps0 (fun b => m (c, b)) (Proc.devRef .tc main_arg2) = _
  after_results
theorem V_arg3 (c : Dev nD) : V m c main_arg3 = m ((c : Thread nD τ).loc main_arg3) := by
  show StableHlo.after hostOps0 (fun b => m (c, b)) (Proc.devRef .tc main_arg3) = _
  after_results
theorem V_arg4 (c : Dev nD) : V m c main_arg4 = m ((c : Thread nD τ).loc main_arg4) := by
  show StableHlo.after hostOps0 (fun b => m (c, b)) (Proc.devRef .tc main_arg4) = _
  after_results
theorem V_arg5 (c : Dev nD) : V m c main_arg5 = m ((c : Thread nD τ).loc main_arg5) := by
  show StableHlo.after hostOps0 (fun b => m (c, b)) (Proc.devRef .tc main_arg5) = _
  after_results

end Cert.KernelIdeal.Pair

end
-- ==== Proof.KernelIdeal.Results.lean ====
/-
  What the program ends with.

  The output's array is one 1 × 1 block, written back once, after the last grid point: it ends holding the scaled
  running total.  The last host operation reshapes it to the scalar result.  The charges' array, the second result,
  is an input of the region and ends as the region found it; so do the six arguments.
-/
import proofs.«116778_j56684978372796_1_alg».proof.Proof.KernelIdeal.Launch
import proofs.«116778_j56684978372796_1_alg».proof.Proof.KernelIdeal.Entry
import Idealize.ShloMosaic.Lib.Pipeline.Value

set_option maxRecDepth 16384

noncomputable section

namespace Cert.KernelIdeal.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem N_pos143 : 143 < cfg0.N := by rw [show cfg0.N = 144 from N_0]; decide

/-- The last grid point. -/
abbrev tLast : Fin cfg0.N := ⟨143, N_pos143⟩

/-- The scaled total after the last grid point, as contents of the output's array (its one block IS the array). -/
abbrev result (c : Dev nD) : Buf (Elt F) ((c : Thread nD τ).loc main_v16) := scaled (accAfter m c 143 N_pos143)

/-- The one write-back, after the last point, writes it. -/
theorem flushed_eq (c : Dev nD) (t : Fin cfg0.N) (hf : (cfg0.win 4).flush t = true) :
    (dats m 0 c).flushed 4 t = ((cfg0.win 4).blk t).view.read (Elt F) (result m c) := by
  have hN : cfg0.N = 144 := N_0
  have h3 : t.val = 143 := by have := (flush0_4 t).mp hf; have := t.isLt; omega
  obtain rfl : t = tLast := Fin.ext h3
  show (cfg0.win 4).cut (grid0.coords tLast) ((dats m 0 c).after 4 tLast) = _
  rw [after_out]
  have hz' : (fun a => win0_4.index tLast a * main_v16.ty.shape.size a) = fun _ => 0 := funext fun a => by fin_cases a <;> decide
  exact (Memref.read_access_unit_zero (Elt F) main_v16 hz' (fun a => by rw [congrFun hz' a]; simp) (result m c)).symm

/-- So the output's array ends holding the scaled total. -/
theorem final_out (c : Dev nD) : (dats m 0 c).arrAt 4 cfg0.N = result m c :=
  (dats m 0 c).arrAt_eq_of_cover 4 (result m c) (flushed_eq m c) fun i =>
    ⟨tLast, (flush0_4 tLast).mpr rfl, by
      show i ∈ ((View.whole main_v16).slice (win0_4.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_4.index tLast 0 * win0_4.size 0 ≤ (i 0 : Nat) ∧ (i 0 : Nat) < win0_4.index tLast 0 * win0_4.size 0 + win0_4.xsize (grid0.coords tLast) 0
                  rw [show win0_4.index tLast 0 * win0_4.size 0 = 0 from by decide +kernel, show win0_4.xsize (grid0.coords tLast) 0 = 1 from by decide +kernel]; omega
      | ⟨1, _⟩ => show win0_4.index tLast 1 * win0_4.size 1 ≤ (i 1 : Nat) ∧ (i 1 : Nat) < win0_4.index tLast 1 * win0_4.size 1 + win0_4.xsize (grid0.coords tLast) 1
                  rw [show win0_4.index tLast 1 * win0_4.size 1 = 0 from by decide +kernel, show win0_4.xsize (grid0.coords tLast) 1 = 1 from by decide +kernel]; omega⟩

/-- An unscoped buffer that is no window's array and not the last operation's result ends as the region found it. -/
theorem rest_kept (c : Dev nD) (b : Ref sig .tc) (h17 : b ≠ main_v17) (h16 : b ≠ main_v16) :
    StableHlo.after ([hostOps1] : List (List (HloOp τ sig (Elt F)))).flatten (VN m c) (Proc.devRef .tc b) = V m c b :=
  (after_keep m c b h17).trans (VN_of_ne m c b h16)

/-- The scalar result: the last host operation's reshape of the output's array. -/
theorem scalar_eq (c : Dev nD) :
    StableHlo.after ([hostOps1] : List (List (HloOp τ sig (Elt F)))).flatten (VN m c) (Proc.devRef .tc main_v17)
      = shapeCast S_ (result m c) shapeCasts_S1x1_S_ := by
  rw [← final_out, ← VN_out]
  show StableHlo.after hostOps1 (VN m c) (Proc.devRef .tc main_v17) = _
  after_results
  rfl

/-- The run, read at the results and the arguments. -/
theorem run : θ_run defs (onTc (τ := τ) (main (F := F))) ⟨m, fun _ => 0, ρ⟩ fun r => ∀ c : Dev nD,
      r.2.mem ((c.tc : Thread nD τ).loc main_v17) = shapeCast S_ (result m c) shapeCasts_S1x1_S_
      ∧ r.2.mem ((c.tc : Thread nD τ).loc main_v15) = V m c main_v15
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v17 (Pipeline.mem_restRefs_of main_v17 rfl (by decide))).trans (scalar_eq m c),
     ((h c).1 2).trans (arrAt_in2 m c _),
     (((h c).2 main_arg0 (Pipeline.mem_restRefs_of main_arg0 rfl (by decide))).trans (rest_kept m c main_arg0 (by decide) (by decide))).trans (V_arg0 m c),
     (((h c).2 main_arg1 (Pipeline.mem_restRefs_of main_arg1 rfl (by decide))).trans (rest_kept m c main_arg1 (by decide) (by decide))).trans (V_arg1 m c),
     (((h c).1 0).trans (arrAt_in0 m c _)).trans (V_arg2 m c),
     (((h c).2 main_arg3 (Pipeline.mem_restRefs_of main_arg3 rfl (by decide))).trans (rest_kept m c main_arg3 (by decide) (by decide))).trans (V_arg3 m c),
     (((h c).2 main_arg4 (Pipeline.mem_restRefs_of main_arg4 rfl (by decide))).trans (rest_kept m c main_arg4 (by decide) (by decide))).trans (V_arg4 m c),
     (((h c).2 main_arg5 (Pipeline.mem_restRefs_of main_arg5 rfl (by decide))).trans (rest_kept m c main_arg5 (by decide) (by decide))).trans (V_arg5 m c)⟩)
    (run_main m ρ)

/-- The frame: the program runs to the end, faults nowhere, and leaves its six arguments unchanged. -/
theorem frame : θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => (h c).2.2) (run m ρ)

end Cert.KernelIdeal.Pair

end
-- ==== Proof.PairSpec.lean ====
/-
  The pairwise electrostatic energy, as ONE function of the positions and the charges over the extended reals.

  For atoms i < j at squared distance d = max (|x_i - x_j|², 0), the pair contributes, when d > 0,
      q_i q_j · ( f(r) / sqrt (d + 1) + (1 - f(r)) / r ),     r = sqrt d,
  where f is the smooth switch  σ(1 - a) / (σ(1 - a) + σ(a)),  a = (r - 5/2) / 5,  σ(u) = exp (-1/u) for u > 0 and 0
  otherwise; pairs with j ≤ i or d = 0 contribute 0.  The energy is the Coulomb constant times the sum over all
  ordered pairs.  Every guard of the formula (the "safe" value 1 put in place of d, of 1 - a and of a where the
  test fails) is kept, so that the formula is the computed one on every extended real, not only on the reals.

  The constants are kept as the binary32 words the programs print; only the zero word is ever evaluated.
-/
import Idealize.ShloMosaic.PureOps.Ideal
import Idealize.ShloMosaic.Lib.ValueIdx

noncomputable section

namespace Cert.PairSpec

open Idealize.ShloMosaic

/-- An extended real, as a binary32 value reads at the ideal instance. -/
abbrev E : Type := Ideal .f32

def zero : E := Ideal.ofBits .f32 0x00000000#32
def one : E := Ideal.ofBits .f32 0x3F800000#32
def negOne : E := Ideal.ofBits .f32 0xBF800000#32
/-- The inner switching radius 5/2. -/
def rOn : E := Ideal.ofBits .f32 0x40200000#32
/-- The width 5 of the switching interval. -/
def width : E := Ideal.ofBits .f32 0x40A00000#32
/-- The Coulomb constant, as its binary32 word. -/
def coulomb : E := Ideal.ofBits .f32 0x43A60827#32

/-- The squared distance of two points of 3-space summed coordinate by coordinate from zero, floored at zero. -/
def sqDist (a b : Fin 3 → E) : E :=
  max ((((zero + (a 0 - b 0) * (a 0 - b 0)) + (a 1 - b 1) * (a 1 - b 1)) + (a 2 - b 2) * (a 2 - b 2))) zero

/-- The bit "atom i comes strictly before atom j". -/
def before (i j : ℕ) : BitVec 1 := if i < j then 1#1 else 0#1

/-- σ(u) = exp (-1/u) where u > 0, else 0; the quotient is taken at the guarded argument. -/
def sigma (u : E) : E :=
  Scalar.select (Ideal.cmp .ogt u zero) (Ideal.exp (Ideal.div negOne (Scalar.select (Ideal.cmp .ogt u zero) u one))) zero

/-- One ordered pair's contribution from the floored squared distance `d`, the ordering bit and the two charges. -/
def pairTerm (d : E) (up : BitVec 1) (qa qb : E) : E :=
  let live : BitVec 1 := up &&& Ideal.cmp .ogt d zero
  let d' : E := Scalar.select live d one
  let r : E := Ideal.sqrt d'
  let a : E := Ideal.div (r - rOn) width
  let sUp : E := sigma (one - a)
  let sDn : E := sigma a
  let f : E := Ideal.div sUp (sUp + sDn)
  Scalar.select live ((qa * qb) * (Ideal.div f (Ideal.sqrt (d' + one)) + Ideal.div (one - f) r)) zero

/-- The energy of N = 6144 atoms at positions `x` with charges `q`. -/
def energy (x : Fin 6144 → Fin 3 → E) (q : Fin 6144 → E) : E :=
  coulomb * ∑ i : Fin 6144, ∑ j : Fin 6144, pairTerm (sqDist (x i) (x j)) (before i.val j.val) (q i) (q j)

end Cert.PairSpec

end
-- ==== Proof.KernelIdeal.TileOps.lean ====
/-
  The table operations of one grid point read at an index, and its integer arithmetic read as numbers.

  A 512 × 512 table entry (r, c) is built from column entries (r, ·) of the first block and (c, ·) of the second:
  a column cut out of a 512 × 3 block, a column spread along the rows, a column laid out as a row and spread along
  the columns, the row and column counters, the views of a vector as a column and of a single entry as a 1 × 1
  table, and the two sums (along the columns, then along the rows).  The atom numbers 512·t + k are computed in
  32-bit words; below 2^31 their signed comparison is the comparison of the numbers.
-/
import proofs.«116778_j56684978372796_1_alg».proof.Proof.Gen.KernelIdeal.Skeleton
import proofs.«116778_j56684978372796_1_alg».proof.Proof.PairSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pair

open Idealize.ShloMosaic Idealize.ShloMosaic.ValueIdx Cert.KernelIdeal Cert.KernelIdeal.Gen Cert

section Layout
variable {α : Type}

/-- Column `k` of a 512 × 3 block, cut out as a 512 × 1 block, reads at row `r` the block's entry `(r, k)`. -/
theorem column_apply (o : Nat) (k : Fin 3) (hk : k.val = o) (x : S512x3.Idx → α) (h : S512x3.Slices ![0, o] S512x1)
    (r : Fin 512) : extractStridedSlice S512x1 ![0, o] x h (ix2 r (0 : Fin 1)) = x (ix2 r k) :=
  slice2_axis1_apply o x h r (0 : Fin 1) k (by rw [hk]; rfl)

/-- A 512 × 1 column spread over 512 columns reads at `(r, c)` the column's entry at row `r`. -/
theorem spreadRows_apply (x : S512x1.Idx → α) (h : S512x1.Broadcasts S512x512) (r c : Fin 512) :
    broadcastTo S512x512 x h (ix2 r c) = x (ix2 r (0 : Fin 1)) := by
  refine broadcastTo_apply x h (ix2 r c) (ix2 r (0 : Fin 1)) fun ax => ?_
  match ax with
  | ⟨0, _⟩ => rfl
  | ⟨1, _⟩ => rfl

/-- A 512 × 1 column laid out as a row and spread over 512 rows reads at `(r, c)` the column's entry at row `c`. -/
theorem spreadCols_apply (x : S512x1.Idx → α) (ht : S512x1.Transposes [1, 0] S1x512) (h : S1x512.Broadcasts S512x512)
    (r c : Fin 512) : broadcastTo S512x512 (transpose S1x512 [1, 0] x ht) h (ix2 r c) = x (ix2 c (0 : Fin 1)) :=
  (broadcastTo_1b_ab_apply _ h r c).trans (transpose_ix2_apply x ht (0 : Fin 1) c)

/-- The row counter of a 512 × 512 table reads its row. -/
theorem rowIota_apply (h : S512x512.Iotas .tc 32 [0]) (r c : Fin 512) :
    iota .tc S512x512 32 [0] h (ix2 r c) = BitVec.ofNat 32 r.val :=
  iota_single_apply .tc S512x512 32 0 h (ix2 r c)

/-- The column counter of a 512 × 512 table reads its column. -/
theorem colIota_apply (h : S512x512.Iotas .tc 32 [1]) (r c : Fin 512) :
    iota .tc S512x512 32 [1] h (ix2 r c) = BitVec.ofNat 32 c.val :=
  iota_single_apply .tc S512x512 32 1 h (ix2 r c)

/-- A vector of 512 entries viewed as a 512 × 1 column reads at row `r` its entry `r`. -/
theorem asColumn_apply (x : S512.Idx → α) (h : S512.ShapeCasts S512x1) (r : Fin 512) (z : Fin 1) :
    shapeCast S512x1 x h (ix2 r z) = x (ix1 r) :=
  shapeCast_apply x h _ _ (by
    have hz : z.val = 0 := by omega
    rw [Shape.rowMajor_val_two, Shape.rowMajor_val_one]
    show r.val = r.val * 1 + z.val
    rw [hz, Nat.mul_one, Nat.add_zero])

/-- A vector of one entry viewed as a 1 × 1 table reads that entry. -/
theorem asCell_apply (x : S1.Idx → α) (h : S1.ShapeCasts S1x1) (y : S1x1.Idx) :
    shapeCast S1x1 x h y = x (ix1 (0 : Fin 1)) :=
  shapeCast_apply x h _ _ (by
    have h0 : (y 0).val = 0 := by have := idx2_lt0 y; omega
    have h1 : (y 1).val = 0 := by have := idx2_lt1 y; omega
    rw [Shape.rowMajor_val_two, Shape.rowMajor_val_one]
    show (0 : Nat) = (y 0).val * 1 + (y 1).val
    rw [h0, h1])

end Layout

section Sums

/-- The sum along the columns of a 512 × 512 table, started from the zero word, reads at row `r` the sum of that row. -/
theorem rowSums_apply (x : FVec Ideal S512x512 .f32) (h : S512x512.Reduces [1] S512) (hφ : FKind.Formats .f32)
    (hacc : (0x00000000#32 : BitVec 32) = FKind.add.neutral .f32 hφ) (r : Fin 512) :
    multiReduction (F := Ideal) .add [1] S512 x 0x00000000#32 h hφ hacc (ix1 r) = ∑ c : Fin 512, x (ix2 r c) := by
  refine (Ideal.multiReduction_add_single x 0x00000000#32 h hφ hacc (ix1 r)).trans ?_
  refine Finset.sum_congr rfl fun c _ => congrArg x ?_
  funext a
  match a with
  | ⟨0, _⟩ => rfl
  | ⟨1, _⟩ => rfl

/-- The sum along the rows of a 512 × 1 column, started from the zero word, is the sum of its entries. -/
theorem colSum_apply (x : FVec Ideal S512x1 .f32) (h : S512x1.Reduces [0] S1) (hφ : FKind.Formats .f32)
    (hacc : (0x00000000#32 : BitVec 32) = FKind.add.neutral .f32 hφ) (z : Fin 1) :
    multiReduction (F := Ideal) .add [0] S1 x 0x00000000#32 h hφ hacc (ix1 z) = ∑ r : Fin 512, x (ix2 r (0 : Fin 1)) := by
  refine (Ideal.multiReduction_add_single x 0x00000000#32 h hφ hacc (ix1 z)).trans ?_
  refine Finset.sum_congr rfl fun r _ => congrArg x ?_
  funext a
  match a with
  | ⟨0, _⟩ => rfl
  | ⟨1, _⟩ => exact Fin.ext (by have := z.isLt; show z.val = 0; omega)

end Sums

section Words

/-- A number below 2^31, as a 32-bit word read signed, is itself. -/
theorem toInt_ofNat_small (a : Nat) (ha : a < 2147483648) : (BitVec.ofNat 32 a).toInt = (a : Int) := by
  rw [BitVec.toInt_eq_toNat_cond, BitVec.toNat_ofNat]
  have h : a % 2 ^ 32 = a := Nat.mod_eq_of_lt (by omega)
  rw [h, if_pos (by omega)]

/-- On numbers below 2^31 the signed "greater than" of the 32-bit words is the order of the numbers. -/
theorem sgt_ofNat (a b : Nat) (ha : a < 2147483648) (hb : b < 2147483648) :
    IntOp.cmpi .sgt (BitVec.ofNat 32 b) (BitVec.ofNat 32 a) = PairSpec.before a b := by
  unfold IntOp.cmpi PairSpec.before
  show BitVec.ofBool ((BitVec.ofNat 32 a).slt (BitVec.ofNat 32 b)) = _
  rw [BitVec.slt, toInt_ofNat_small a ha, toInt_ofNat_small b hb]
  by_cases h : a < b
  · rw [if_pos h, decide_eq_true (by exact_mod_cast h)]; rfl
  · rw [if_neg h, decide_eq_false (by exact_mod_cast h)]; rfl

/-- The word 512·t + k, computed in 32 bits from the words of t and k. -/
theorem tile_word (t k : Nat) :
    IntOp.addi (Scalar.muli (BitVec.ofNat 32 t) 512#32) (BitVec.ofNat 32 k) = BitVec.ofNat 32 (512 * t + k) := by
  show BitVec.ofNat 32 t * BitVec.ofNat 32 512 + BitVec.ofNat 32 k = _
  rw [BitVec.ofNat_add, BitVec.ofNat_mul, BitVec.mul_comm]

end Words

end Cert.KernelIdeal.Pair

end
-- ==== Proof.KernelIdeal.TileValue.lean ====
/-
  The tile's running total read as numbers: at the ideal instance the body's named steps are the pair formula
  summed over the 512 × 512 table.

  Entry (r, c) of the table depends on row r of the first block of positions and charges and on row c of the
  second: the squared distance is the specification's, the ordering bit compares the atom numbers 512·ti + r and
  512·tj + c, and every later step (the guarded square root, the switch, the two quotients, the product with the
  charges, the final guard) is taken entry by entry and is, term for term, the specification's pair formula.  The
  table is then summed along its columns and the column of row sums along its rows, and the sum added to the
  running total.
-/
import proofs.«116778_j56684978372796_1_alg».proof.Proof.KernelIdeal.Tile
import proofs.«116778_j56684978372796_1_alg».proof.Proof.PairSpec
import proofs.«116778_j56684978372796_1_alg».proof.Proof.KernelIdeal.TileOps
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pair

open Idealize.ShloMosaic Idealize.ShloMosaic.ValueIdx Cert.KernelIdeal Cert.KernelIdeal.Gen Cert

/-- The zero written at the first grid point is the number zero. -/
theorem accInit_apply (y : S1x1.Idx) : accInit (F := Ideal) y = 0 := by
  unfold accInit k0_pay3
  rw [shapeCast_self]
  exact Ideal.ofBits_zero_f32

/-- The scaled total is the total times the Coulomb constant. -/
theorem scaled_apply (acc : Vec Ideal S1x1 .f32) (y : S1x1.Idx) :
    scaled (F := Ideal) acc y = acc y * PairSpec.coulomb := by
  rfl

/-- The table of floored squared distances reads at `(r, c)` the floored squared distance of position `r` of the
    first block and position `c` of the second. -/
theorem dist2_apply (v5 v6 : Vec Ideal S512x3 .f32) (r c : Fin 512) :
    dist2 (F := Ideal) v5 v6 (ix2 r c) = PairSpec.sqDist (fun k => v5 (ix2 r k)) (fun k => v6 (ix2 c k)) := by
  have a0 := (spreadRows_apply (extractStridedSlice S512x1 ![0, 0] v5 slices_S512x3_o0_0_S512x1) broadcasts_S512x1_S512x512 r c).trans
    (column_apply 0 0 rfl v5 slices_S512x3_o0_0_S512x1 r)
  have a1 := (spreadRows_apply (extractStridedSlice S512x1 ![0, 1] v5 slices_S512x3_o0_1_S512x1) broadcasts_S512x1_S512x512 r c).trans
    (column_apply 1 1 rfl v5 slices_S512x3_o0_1_S512x1 r)
  have a2 := (spreadRows_apply (extractStridedSlice S512x1 ![0, 2] v5 slices_S512x3_o0_2_S512x1) broadcasts_S512x1_S512x512 r c).trans
    (column_apply 2 2 rfl v5 slices_S512x3_o0_2_S512x1 r)
  have b0 := (spreadCols_apply (extractStridedSlice S512x1 ![0, 0] v6 slices_S512x3_o0_0_S512x1) transposes_S512x1_p1_0_S1x512
    broadcasts_S1x512_S512x512 r c).trans (column_apply 0 0 rfl v6 slices_S512x3_o0_0_S512x1 c)
  have b1 := (spreadCols_apply (extractStridedSlice S512x1 ![0, 1] v6 slices_S512x3_o0_1_S512x1) transposes_S512x1_p1_0_S1x512
    broadcasts_S1x512_S512x512 r c).trans (column_apply 1 1 rfl v6 slices_S512x3_o0_1_S512x1 c)
  have b2 := (spreadCols_apply (extractStridedSlice S512x1 ![0, 2] v6 slices_S512x3_o0_2_S512x1) transposes_S512x1_p1_0_S1x512
    broadcasts_S1x512_S512x512 r c).trans (column_apply 2 2 rfl v6 slices_S512x3_o0_2_S512x1 c)
  unfold dist2 k0_pay6 PairSpec.sqDist
  dsimp only
  simp only [maximumf_apply, addf_apply, mulf_apply, subf_apply, broadcast_apply]
  rw [a0, a1, a2, b0, b1, b2]
  rfl

/-- The row numbers 512·ti + r of the first block, as the table of 32-bit words the body builds. -/
theorem rowAtoms_apply (i : grid0.Coords) (r c : Fin 512) :
    k0_pay7 i (ix2 r c) = BitVec.ofNat 32 (512 * (i 0).val + r.val) := by
  unfold k0_pay7
  dsimp only
  show IntOp.addi (Scalar.muli (BitVec.ofNat 32 (i 0).val) 512#32)
      (iota .tc S512x512 32 [0] iota_S512x512_d0_w32 (ix2 r c)) = _
  rw [rowIota_apply, tile_word]

/-- The table of "this pair counts" bits: atom 512·ti + r comes before atom 512·tj + c, and the squared distance
    is positive. -/
theorem live_apply (i : grid0.Coords) (D : FVec Ideal S512x512 .f32) (r c : Fin 512) :
    k0_pay8 (F := Ideal) (BitVec.ofNat 32 (i 1).val) D (k0_pay7 i) 512#32 (ix2 r c)
      = PairSpec.before (512 * (i 0).val + r.val) (512 * (i 1).val + c.val)
          &&& Ideal.cmp .ogt (D (ix2 r c)) PairSpec.zero := by
  have h0 : (i 0).val < 12 := (i 0).isLt
  have h1 : (i 1).val < 12 := (i 1).isLt
  have hr := r.isLt
  have hc := c.isLt
  unfold k0_pay8
  dsimp only
  show IntOp.andi (IntOp.cmpi .sgt
        (IntOp.addi (Scalar.muli (BitVec.ofNat 32 (i 1).val) 512#32) (iota .tc S512x512 32 [1] iota_S512x512_d1_w32 (ix2 r c)))
        (k0_pay7 i (ix2 r c)))
      (Ideal.cmp .ogt (D (ix2 r c)) PairSpec.zero) = _
  rw [colIota_apply, tile_word, rowAtoms_apply, sgt_ofNat _ _ (by omega) (by omega)]
  rfl

/-- One entry of the table of pair contributions is the pair formula of the entry's squared distance, its
    "counts" bit and the two charges: every further step of the body is taken entry by entry. -/
theorem entry_eq (A C : BitVec 32) (D : FVec Ideal S512x512 .f32) (P : IVec S512x512 32) (j : S512x512.Idx)
    (up : BitVec 1) (qa qb : PairSpec.E)
    (hl : k0_pay8 (F := Ideal) A D P C j = up &&& Ideal.cmp .ogt (D j) PairSpec.zero) :
    Scalar.select (k0_pay8 (F := Ideal) A D P C j)
        ((qa * qb) * (Ideal.div (k0_pay11 (F := Ideal) A D P C j) (k0_pay12 (F := Ideal) A D P C j)
          + Ideal.div (PairSpec.one - k0_pay11 (F := Ideal) A D P C j) (k0_pay10 (F := Ideal) A D P C j)))
        PairSpec.zero
      = PairSpec.pairTerm (D j) up qa qb := by
  have e9 : k0_pay9 (F := Ideal) A D P C j = Scalar.select (k0_pay8 (F := Ideal) A D P C j) (D j) PairSpec.one := rfl
  have e10 : k0_pay10 (F := Ideal) A D P C j = Ideal.sqrt (k0_pay9 (F := Ideal) A D P C j) := rfl
  have e12 : k0_pay12 (F := Ideal) A D P C j = Ideal.sqrt (k0_pay9 (F := Ideal) A D P C j + PairSpec.one) := rfl
  have e11 : k0_pay11 (F := Ideal) A D P C j
      = Ideal.div (PairSpec.sigma (PairSpec.one - Ideal.div (k0_pay10 (F := Ideal) A D P C j - PairSpec.rOn) PairSpec.width))
          (PairSpec.sigma (PairSpec.one - Ideal.div (k0_pay10 (F := Ideal) A D P C j - PairSpec.rOn) PairSpec.width)
            + PairSpec.sigma (Ideal.div (k0_pay10 (F := Ideal) A D P C j - PairSpec.rOn) PairSpec.width)) := rfl
  rw [e11, e12, e10, e9, hl]
  rfl

/-- The two sums of the table and the addition to the running total: the new total is the old one plus the sum
    of all the table's entries, rows outside. -/
theorem total_apply (T : FVec Ideal S512x512 .f32) (acc : Vec Ideal S1x1 .f32) (y : S1x1.Idx) :
    shapeCast S1x1 (addf (F := Ideal) acc
        (shapeCast S1x1 (multiReduction (F := Ideal) .add [0] S1
          (shapeCast S512x1 (multiReduction (F := Ideal) .add [1] S512 T 0x00000000#32 reduces_S512x512_S512 (.inl rfl) rfl)
            shapeCasts_S512_S512x1) 0x00000000#32 reduces_S512x1_S1 (.inl rfl) rfl) shapeCasts_S1_S1x1))
        shapeCasts_S1x1_S1x1 y
      = acc y + ∑ r : Fin 512, ∑ c : Fin 512, T (ix2 r c) := by
  rw [shapeCast_self, addf_apply, asCell_apply]
  refine congrArg (acc y + ·) ?_
  refine (colSum_apply _ reduces_S512x1_S1 (.inl rfl) rfl (0 : Fin 1)).trans ?_
  refine Finset.sum_congr rfl fun r _ => ?_
  rw [asColumn_apply]
  exact rowSums_apply T reduces_S512x512_S512 (.inl rfl) rfl r

/-- The new running total is the old one plus the sum, over the rows r of the first block and the rows c of the
    second, of the pair formula at positions v5[r], v6[c], atoms 512·ti + r and 512·tj + c, charges v7[r], v9[c]. -/
theorem tileAcc_apply (i : grid0.Coords) (v5 v6 : Vec Ideal S512x3 .f32) (v7 v9 : Vec Ideal S512x1 .f32)
    (acc : Vec Ideal S1x1 .f32) (y : S1x1.Idx) :
    tileAcc (F := Ideal) i v5 v6 v7 v9 acc y
      = acc y + ∑ r : Fin 512, ∑ c : Fin 512,
          PairSpec.pairTerm (PairSpec.sqDist (fun k => v5 (ix2 r k)) (fun k => v6 (ix2 c k)))
            (PairSpec.before (512 * (i 0).val + r.val) (512 * (i 1).val + c.val)) (v7 (ix2 r 0)) (v9 (ix2 c 0)) := by
  unfold tileAcc k0_pay1
  dsimp only
  refine (total_apply _ acc y).trans ?_
  refine congrArg (acc y + ·) (Finset.sum_congr rfl fun r _ => Finset.sum_congr rfl fun c _ => ?_)
  have q1 : broadcastTo S512x512 (k0_pay4 (F := Ideal) v7) broadcasts_S512x1_S512x512 (ix2 r c) = v7 (ix2 r 0) := by
    rw [spreadRows_apply]; unfold k0_pay4; rw [shapeCast_self]
  have q2 : broadcastTo S512x512 (transpose S1x512 [1, 0] (k0_pay5 (F := Ideal) v9) transposes_S512x1_p1_0_S1x512)
      broadcasts_S1x512_S512x512 (ix2 r c) = v9 (ix2 c 0) := by
    rw [spreadCols_apply]; unfold k0_pay5; rw [shapeCast_self]
  have hl := live_apply i (dist2 (F := Ideal) v5 v6) r c
  have he := entry_eq (BitVec.ofNat 32 (i 1).val) 512#32 (dist2 (F := Ideal) v5 v6) (k0_pay7 i) (ix2 r c) _
    (v7 (ix2 r 0)) (v9 (ix2 c 0)) hl
  rw [dist2_apply] at he
  refine Eq.trans ?_ he
  rw [← q1, ← q2]
  rfl

end Cert.KernelIdeal.Pair

end
-- ==== Proof.LibGridTiles.lean ====
/-
  A sum over the tiles of a grid of square tiles is the sum over the whole table.
-/
import Mathlib.Algebra.BigOperators.Fin
import Mathlib.Data.Fintype.BigOperators
import Mathlib.Logic.Equiv.Fin.Basic

open scoped BigOperators

namespace Cert

/-- A sum over `Fin (A * n)` is the double sum over the `A` blocks of length `n` and the places inside a block:
    the index `i` is `n * a + r` with `a` its block and `r` its place. -/
theorem sum_fin_blocks {M : Type*} [AddCommMonoid M] (A n : ℕ) (g : ℕ → M) :
    ∑ i : Fin (A * n), g i.val = ∑ a : Fin A, ∑ r : Fin n, g (n * a.val + r.val) := by
  rw [← Equiv.sum_comp (finProdFinEquiv (m := A) (n := n)) (fun i => g i.val), Fintype.sum_prod_type]
  refine Finset.sum_congr rfl fun a _ => Finset.sum_congr rfl fun r _ => ?_
  show g (r.val + n * a.val) = g (n * a.val + r.val)
  rw [Nat.add_comm]

/-- A sum over the tiles of an `A × B` grid of `n × n` tiles, each tile summed over its rows and columns, is the sum
    over the whole `(A * n) × (B * n)` table: tile `t` sits at block row `t / B` and block column `t % B`, and its
    entry `(r, c)` is the table's entry `(n * (t / B) + r, n * (t % B) + c)`. -/
theorem sum_grid_tiles {M : Type*} [AddCommMonoid M] (A B n : ℕ) (f : ℕ → ℕ → M) :
    ∑ t : Fin (A * B), ∑ r : Fin n, ∑ c : Fin n, f (n * (t.val / B) + r.val) (n * (t.val % B) + c.val)
      = ∑ i : Fin (A * n), ∑ j : Fin (B * n), f i.val j.val := by
  rw [sum_fin_blocks A B (fun t => ∑ r : Fin n, ∑ c : Fin n, f (n * (t / B) + r.val) (n * (t % B) + c.val)),
    sum_fin_blocks A n (fun i => ∑ j : Fin (B * n), f i j.val)]
  refine Finset.sum_congr rfl fun a _ => ?_
  rw [Finset.sum_comm]
  refine Finset.sum_congr rfl fun r _ => ?_
  rw [sum_fin_blocks B n (fun j => f (n * a.val + r.val) j)]
  refine Finset.sum_congr rfl fun b _ => ?_
  have hb : 0 < B := Nat.pos_of_ne_zero (by rintro rfl; exact b.elim0)
  rw [Nat.mul_add_div hb, Nat.div_eq_of_lt b.isLt, Nat.add_zero, Nat.mul_add_mod, Nat.mod_eq_of_lt b.isLt]

end Cert
-- ==== Proof.KernelIdeal.Total.lean ====
/-
  The kernel's scaled total is the pair energy of the positions and charges the region finds.

  After the last grid point the running total is the sum over all 144 tiles of the tile sums; tile (ti, tj) holds
  the atoms 512·ti … 512·ti + 511 against 512·tj … 512·tj + 511, so the tiles together are the whole
  6144 × 6144 table, each ordered pair once.

  The route: grid point t is tile (t / 12, t % 12); each input window's block at t is the rows 512·(t / 12) + r
  (first and third window) or 512·(t % 12) + r (second and fourth) of its array; so one grid point adds to the
  running total the pair formula summed over its tile, by induction the total after point n is the sum of the
  tile sums of points 0 … n, and the sum over the 144 tiles is the sum over the whole table.
-/
import proofs.«116778_j56684978372796_1_alg».proof.Proof.KernelIdeal.Frame
import proofs.«116778_j56684978372796_1_alg».proof.Proof.KernelIdeal.TileValue
import proofs.«116778_j56684978372796_1_alg».proof.Proof.LibGridTiles

noncomputable section

namespace Cert.KernelIdeal.Pair

open Idealize.ShloMosaic Idealize.ShloMosaic.ValueIdx Idealize.ShloMosaic.TcCoe Idealize.SL.Sem
open Cert.KernelIdeal Cert.KernelIdeal.Gen Cert

variable (m : (ℓ : Loc nD τ sig) → Buf (Elt Ideal) ℓ)

/-- Grid point t of the 12 × 12 grid is tile (t / 12, t % 12). -/
theorem coords_eq : ∀ t : Fin cfg0.N, ((grid0.coords t) 0).val = t.val / 12 ∧ ((grid0.coords t) 1).val = t.val % 12 :=
  (by decide +kernel : ∀ t : Fin grid0.N, ((grid0.coords t) 0).val = t.val / 12 ∧ ((grid0.coords t) 1).val = t.val % 12)

/-- The block indices of the four input windows at grid point t. -/
theorem index_eq : ∀ t : Fin cfg0.N,
    (win0_0.index t 0 = t.val / 12 ∧ win0_0.index t 1 = 0) ∧ (win0_1.index t 0 = t.val % 12 ∧ win0_1.index t 1 = 0)
    ∧ (win0_2.index t 0 = t.val / 12 ∧ win0_2.index t 1 = 0) ∧ (win0_3.index t 0 = t.val % 12 ∧ win0_3.index t 1 = 0) :=
  (by decide +kernel : ∀ t : Fin grid0.N,
    (win0_0.index t 0 = t.val / 12 ∧ win0_0.index t 1 = 0) ∧ (win0_1.index t 0 = t.val % 12 ∧ win0_1.index t 1 = 0)
    ∧ (win0_2.index t 0 = t.val / 12 ∧ win0_2.index t 1 = 0) ∧ (win0_3.index t 0 = t.val % 12 ∧ win0_3.index t 1 = 0))

/-- The first window's block at grid point t is rows 512·(t / 12) … of the array of positions. -/
theorem posRows_apply (c : Dev nD) (t : Fin cfg0.N) (r : Fin 512) (k : Fin 3) (I : Fin 6144)
    (hI : I.val = 512 * (t.val / 12) + r.val) :
    (iblk m c 0 t : Vec Ideal S512x3 .f32) (ix2 r k) = (V m c main_arg2 : FVec Ideal S6144x3 .f32) (ix2 I k) := by
  have hi := (index_eq t).1
  unfold iblk
  rw [View.read_apply]
  show V m c main_arg2 _ = V m c main_arg2 _
  congr 1
  funext a
  apply Fin.ext
  match a with
  | ⟨0, _⟩ => show win0_0.index t 0 * 512 + 1 * r.val = I.val; rw [hi.1, hI]; omega
  | ⟨1, _⟩ => show win0_0.index t 1 * 3 + 1 * k.val = k.val; rw [hi.2]; omega

/-- The second window's block at grid point t is rows 512·(t % 12) … of the array of positions. -/
theorem posCols_apply (c : Dev nD) (t : Fin cfg0.N) (r : Fin 512) (k : Fin 3) (I : Fin 6144)
    (hI : I.val = 512 * (t.val % 12) + r.val) :
    (iblk m c 1 t : Vec Ideal S512x3 .f32) (ix2 r k) = (V m c main_arg2 : FVec Ideal S6144x3 .f32) (ix2 I k) := by
  have hi := (index_eq t).2.1
  unfold iblk
  rw [View.read_apply]
  show V m c main_arg2 _ = V m c main_arg2 _
  congr 1
  funext a
  apply Fin.ext
  match a with
  | ⟨0, _⟩ => show win0_1.index t 0 * 512 + 1 * r.val = I.val; rw [hi.1, hI]; omega
  | ⟨1, _⟩ => show win0_1.index t 1 * 3 + 1 * k.val = k.val; rw [hi.2]; omega

/-- The third window's block at grid point t is rows 512·(t / 12) … of the column of charges. -/
theorem chargeRows_apply (c : Dev nD) (t : Fin cfg0.N) (r : Fin 512) (I : Fin 6144)
    (hI : I.val = 512 * (t.val / 12) + r.val) :
    (iblk m c 2 t : Vec Ideal S512x1 .f32) (ix2 r (0 : Fin 1)) = (V m c main_v15 : FVec Ideal S6144x1 .f32) (ix2 I (0 : Fin 1)) := by
  have hi := (index_eq t).2.2.1
  unfold iblk
  rw [View.read_apply]
  show V m c main_v15 _ = V m c main_v15 _
  congr 1
  funext a
  apply Fin.ext
  match a with
  | ⟨0, _⟩ => show win0_2.index t 0 * 512 + 1 * r.val = I.val; rw [hi.1, hI]; omega
  | ⟨1, _⟩ => show win0_2.index t 1 * 1 + 1 * 0 = 0; rw [hi.2]

/-- The fourth window's block at grid point t is rows 512·(t % 12) … of the column of charges. -/
theorem chargeCols_apply (c : Dev nD) (t : Fin cfg0.N) (r : Fin 512) (I : Fin 6144)
    (hI : I.val = 512 * (t.val % 12) + r.val) :
    (iblk m c 3 t : Vec Ideal S512x1 .f32) (ix2 r (0 : Fin 1)) = (V m c main_v15 : FVec Ideal S6144x1 .f32) (ix2 I (0 : Fin 1)) := by
  have hi := (index_eq t).2.2.2
  unfold iblk
  rw [View.read_apply]
  show V m c main_v15 _ = V m c main_v15 _
  congr 1
  funext a
  apply Fin.ext
  match a with
  | ⟨0, _⟩ => show win0_3.index t 0 * 512 + 1 * r.val = I.val; rw [hi.1, hI]; omega
  | ⟨1, _⟩ => show win0_3.index t 1 * 1 + 1 * 0 = 0; rw [hi.2]

/-- The position of atom number a (zero past the end of the array). -/
def posN (c : Dev nD) (a : ℕ) : Fin 3 → PairSpec.E := fun k =>
  if h : a < 6144 then (V m c main_arg2 : FVec Ideal S6144x3 .f32) (ix2 (⟨a, h⟩ : Fin 6144) k) else 0

/-- The charge of atom number a (zero past the end of the array). -/
def chargeN (c : Dev nD) (a : ℕ) : PairSpec.E :=
  if h : a < 6144 then (V m c main_v15 : FVec Ideal S6144x1 .f32) (ix2 (⟨a, h⟩ : Fin 6144) (0 : Fin 1)) else 0

/-- The pair formula of atoms number a and b. -/
def pairN (c : Dev nD) (a b : ℕ) : PairSpec.E :=
  PairSpec.pairTerm (PairSpec.sqDist (posN m c a) (posN m c b)) (PairSpec.before a b) (chargeN m c a) (chargeN m c b)

/-- The sum of the pair formula over tile t: atoms 512·(t / 12) + r against atoms 512·(t % 12) + c. -/
def tileSum (c : Dev nD) (t : ℕ) : PairSpec.E :=
  ∑ r : Fin 512, ∑ c' : Fin 512, pairN m c (512 * (t / 12) + r.val) (512 * (t % 12) + c'.val)

/-- One grid point adds its tile's sum to the running total. -/
theorem tile_eq (c : Dev nD) (t : Fin cfg0.N) (acc : Vec Ideal S1x1 .f32) (y : S1x1.Idx) :
    tileAcc (F := Ideal) (grid0.coords t) (iblk m c 0 t) (iblk m c 1 t) (iblk m c 2 t) (iblk m c 3 t) acc y
      = acc y + tileSum m c t.val := by
  have hN : t.val < 144 := lt_of_lt_of_eq t.isLt N_0
  refine (tileAcc_apply (grid0.coords t) (iblk m c 0 t) (iblk m c 1 t) (iblk m c 2 t) (iblk m c 3 t) acc y).trans ?_
  refine congrArg (acc y + ·) (Finset.sum_congr rfl fun r _ => Finset.sum_congr rfl fun c' _ => ?_)
  have hr := r.isLt
  have hc := c'.isLt
  have ha : 512 * (t.val / 12) + r.val < 6144 := by omega
  have hb : 512 * (t.val % 12) + c'.val < 6144 := by omega
  have e1 : (fun k => (iblk m c 0 t : Vec Ideal S512x3 .f32) (ix2 r k)) = posN m c (512 * (t.val / 12) + r.val) :=
    funext fun k => by unfold posN; rw [dif_pos ha]; exact posRows_apply m c t r k ⟨_, ha⟩ rfl
  have e2 : (fun k => (iblk m c 1 t : Vec Ideal S512x3 .f32) (ix2 c' k)) = posN m c (512 * (t.val % 12) + c'.val) :=
    funext fun k => by unfold posN; rw [dif_pos hb]; exact posCols_apply m c t c' k ⟨_, hb⟩ rfl
  have e3 : (iblk m c 2 t : Vec Ideal S512x1 .f32) (ix2 r (0 : Fin 1)) = chargeN m c (512 * (t.val / 12) + r.val) := by
    unfold chargeN; rw [dif_pos ha]; exact chargeRows_apply m c t r ⟨_, ha⟩ rfl
  have e4 : (iblk m c 3 t : Vec Ideal S512x1 .f32) (ix2 c' (0 : Fin 1)) = chargeN m c (512 * (t.val % 12) + c'.val) := by
    unfold chargeN; rw [dif_pos hb]; exact chargeCols_apply m c t c' ⟨_, hb⟩ rfl
  unfold pairN
  rw [(coords_eq t).1, (coords_eq t).2, e1, e2, e3, e4]

/-- After grid point n the running total is the sum of the tile sums of points 0 … n. -/
theorem accAfter_apply (c : Dev nD) : ∀ (n : ℕ) (h : n < cfg0.N) (y : S1x1.Idx),
    accAfter (F := Ideal) m c n h y = ∑ t ∈ Finset.range (n + 1), tileSum m c t
  | 0, h, y => by
    have e : accAfter (F := Ideal) m c 0 h = tileAcc (grid0.coords ⟨0, h⟩) (iblk m c 0 ⟨0, h⟩) (iblk m c 1 ⟨0, h⟩)
        (iblk m c 2 ⟨0, h⟩) (iblk m c 3 ⟨0, h⟩) (accInit (F := Ideal)) := rfl
    rw [e, tile_eq m c ⟨0, h⟩ (accInit (F := Ideal)) y, accInit_apply, zero_add, Finset.sum_range_one]
  | n + 1, h, y => by
    have e : accAfter (F := Ideal) m c (n + 1) h = tileAcc (grid0.coords ⟨n + 1, h⟩) (iblk m c 0 ⟨n + 1, h⟩)
        (iblk m c 1 ⟨n + 1, h⟩) (iblk m c 2 ⟨n + 1, h⟩) (iblk m c 3 ⟨n + 1, h⟩)
        (accAfter m c n (Nat.lt_of_succ_lt h)) := rfl
    rw [e, tile_eq m c ⟨n + 1, h⟩ _ y, accAfter_apply c n _ y]
    exact (Finset.sum_range_succ (fun t => tileSum m c t) (n + 1)).symm

/-- The scaled running total after the last grid point (point 143) is the pair energy of the whole arrays. -/
theorem total_eq (c : Dev nD) (h : 143 < cfg0.N) (y : S1x1.Idx) :
    scaled (F := Ideal) (accAfter m c 143 h) y
      = PairSpec.energy (fun i k => (V m c main_arg2 : FVec Ideal S6144x3 .f32) (ix2 i k))
          (fun i => (V m c main_v15 : FVec Ideal S6144x1 .f32) (ix2 i 0)) := by
  rw [scaled_apply, accAfter_apply m c 143 h y, mul_comm]
  unfold PairSpec.energy
  refine congrArg (PairSpec.coulomb * ·) ?_
  refine ((Fin.sum_univ_eq_sum_range (fun t => tileSum m c t) (143 + 1)).symm.trans ?_)
  refine (Cert.sum_grid_tiles 12 12 512 (pairN m c)).trans ?_
  refine Finset.sum_congr rfl fun i _ => Finset.sum_congr rfl fun j _ => ?_
  unfold pairN posN chargeN
  simp only [dif_pos i.isLt, dif_pos j.isLt]

end Cert.KernelIdeal.Pair

end
-- ==== Proof.RefGram.lean ====
/-
  The Gram form of the squared distance is the direct form, on real coordinates.

  For two points a, b of real 3-space,
      (|a|² + |b|²) - 2 (a · b) = (a₀ - b₀)² + (a₁ - b₁)² + (a₂ - b₂)²,
  where |a|² = 0 + Σ_k a_k a_k and a · b = Σ_k a_k b_k are summed from zero.  Both sides are then floored at zero.
  The identity is one of real numbers: over the extended reals it fails at infinite coordinates (∞ - ∞), so the
  coordinates are assumed real, the coercions are pushed outward, and what is left is a polynomial identity in ℝ.
-/
import proofs.«116778_j56684978372796_1_alg».proof.Proof.PairSpec
import Idealize.ShloMosaic.PureOps.Ideal.Laws

noncomputable section

namespace Cert.RefGram

open Idealize.ShloMosaic

/-- The binary32 word of `2.0` denotes the real number 2. -/
theorem ofBits_two : Ideal.ofBits .f32 0x40000000#32 = ((2 : ℝ) : EReal) := by
  simp [Ideal.ofBits, Ideal.ieee, -EReal.coe_mul]; norm_num

/-- The identity on six real numbers, with the zeros the two sums start from written out. -/
theorem gram_real (a0 a1 a2 b0 b1 b2 : ℝ) :
    max ((((0 : EReal) + ((a0 : EReal) * a0 + (a1 : EReal) * a1 + (a2 : EReal) * a2))
          + ((0 : EReal) + ((b0 : EReal) * b0 + (b1 : EReal) * b1 + (b2 : EReal) * b2)))
          - ((2 : ℝ) : EReal) * ((a0 : EReal) * b0 + (a1 : EReal) * b1 + (a2 : EReal) * b2)) (0 : EReal)
      = max (((((0 : EReal) + ((a0 : EReal) - b0) * ((a0 : EReal) - b0)) + ((a1 : EReal) - b1) * ((a1 : EReal) - b1))
          + ((a2 : EReal) - b2) * ((a2 : EReal) - b2))) (0 : EReal) := by
  rw [zero_add, zero_add, zero_add]
  simp only [← EReal.coe_mul, ← EReal.coe_add, ← EReal.coe_sub]
  congr 2
  ring

/-- The Gram form of two points with real coordinates is their squared distance. -/
theorem gram (a b : Fin 3 → PairSpec.E) (ha : ∀ k, ∃ r : ℝ, a k = ((r : ℝ) : EReal))
    (hb : ∀ k, ∃ r : ℝ, b k = ((r : ℝ) : EReal)) :
    max (((Ideal.ofBits .f32 0x00000000#32 + ∑ k : Fin 3, a k * a k)
          + (Ideal.ofBits .f32 0x00000000#32 + ∑ k : Fin 3, b k * b k))
          - Ideal.ofBits .f32 0x40000000#32 * ∑ k : Fin 3, a k * b k) (Ideal.ofBits .f32 0x00000000#32)
      = PairSpec.sqDist a b := by
  obtain ⟨a0, h0⟩ := ha 0
  obtain ⟨a1, h1⟩ := ha 1
  obtain ⟨a2, h2⟩ := ha 2
  obtain ⟨b0, g0⟩ := hb 0
  obtain ⟨b1, g1⟩ := hb 1
  obtain ⟨b2, g2⟩ := hb 2
  unfold PairSpec.sqDist PairSpec.zero
  rw [Fin.sum_univ_three, Fin.sum_univ_three, Fin.sum_univ_three, Ideal.ofBits_zero_f32, ofBits_two,
    h0, h1, h2, g0, g1, g2]
  exact gram_real a0 a1 a2 b0 b1 b2

end Cert.RefGram

end
-- ==== Proof.RefEntry.lean ====
/-
  One entry of the reference's pair table.

  The reference builds, over the whole 6144 × 6144 table, the Gram form of the squared distance, the mask
  "row before column, and distance positive", and then the switched Coulomb formula, operation by operation.
  Read at the entry (i, j) every one of these operations is the scalar operation on the entries of its operands,
  and the layout operations (broadcasts of a column along rows, of a row along columns, the transpose inside the
  product, the reshape of the charge column) only move the index: the squared norm of row i or of row j, the
  product of rows i and j, the charge of atom i or of atom j.  So the entry is the pair formula applied to the Gram
  form of rows i and j, the ordering bit of (i, j), and the two charges.
-/
import proofs.«116778_j56684978372796_1_alg».proof.Proof.Gen.ReferenceIdeal.Read
import proofs.«116778_j56684978372796_1_alg».proof.Proof.PairSpec
import Idealize.ShloMosaic.Lib.ValueIdx
import Idealize.ShloMosaic.PureOps.Ideal.Laws

noncomputable section

namespace Cert.RefEntry

open Idealize.ShloMosaic Idealize.ShloMosaic.ValueIdx Idealize.SL.Sem Cert.ReferenceIdeal Cert.ReferenceIdeal.Read Cert

/-- The Gram form of the squared distance of two points, as the reference sums it: each squared norm and the
    inner product from zero over the three coordinates, floored at zero. -/
def gramDist (a b : Fin 3 → PairSpec.E) : PairSpec.E :=
  max (((Ideal.ofBits .f32 0x00000000#32 + ∑ k : Fin 3, a k * a k)
        + (Ideal.ofBits .f32 0x00000000#32 + ∑ k : Fin 3, b k * b k))
        - Ideal.ofBits .f32 0x40000000#32 * ∑ k : Fin 3, a k * b k) (Ideal.ofBits .f32 0x00000000#32)

variable (x2 : (⟨S6144x3, .f32⟩ : BufTy).Contents (Elt Ideal))

/-- The squared norms broadcast along rows: entry (i, j) is the squared norm of point i. -/
theorem sq_row (i j : Fin 6144) :
    val_main_v21 (F := Ideal) x2 (ix2 i j)
      = Ideal.ofBits .f32 0x00000000#32 + ∑ k : Fin 3, x2 (ix2 i k) * x2 (ix2 i k) := by
  have e : ∀ k : Fin 3, idx_main_v18 (idx_main_v19 (idx_main_v21 (ix2 i j))) k = ix2 i k := fun k =>
    funext fun a => Fin.ext (by match a with | ⟨0, _⟩ => rfl | ⟨1, _⟩ => rfl)
  rw [val_main_v21_apply, val_main_v19_apply, val_main_v18_apply]
  simp only [val_main_v17_apply, val_main_cst_2_apply, Ideal.mulf_def, Ideal.ofBits_def, e]

/-- The squared norms broadcast along columns: entry (i, j) is the squared norm of point j. -/
theorem sq_col (i j : Fin 6144) :
    val_main_v22 (F := Ideal) x2 (ix2 i j)
      = Ideal.ofBits .f32 0x00000000#32 + ∑ k : Fin 3, x2 (ix2 j k) * x2 (ix2 j k) := by
  have e : ∀ k : Fin 3, idx_main_v18 (idx_main_v20 (idx_main_v22 (ix2 i j))) k = ix2 j k := fun k =>
    funext fun a => Fin.ext (by match a with | ⟨0, _⟩ => rfl | ⟨1, _⟩ => rfl)
  rw [val_main_v22_apply, val_main_v20_apply, val_main_v18_apply]
  simp only [val_main_v17_apply, val_main_cst_2_apply, Ideal.mulf_def, Ideal.ofBits_def, e]

/-- The product of the positions with their transpose: entry (i, j) is the inner product of points i and j. -/
theorem inner (i j : Fin 6144) :
    val_main_v25 (F := Ideal) x2 (ix2 i j) = ∑ k : Fin 3, x2 (ix2 i k) * x2 (ix2 j k) := by
  have el : ∀ k : Fin 3, lidx_main_v25 (ix2 i j) k = ix2 i k := fun k =>
    funext fun a => Fin.ext (by match a with | ⟨0, _⟩ => rfl | ⟨1, _⟩ => rfl)
  have er : ∀ k : Fin 3, idx_main_v24 (ridx_main_v25 (ix2 i j) k) = ix2 j k := fun k =>
    funext fun a => Fin.ext (by match a with | ⟨0, _⟩ => rfl | ⟨1, _⟩ => rfl)
  rw [val_main_v25_apply]
  simp only [val_main_v24_apply, el, er]

/-- The floored Gram form at entry (i, j). -/
theorem r2_apply (i j : Fin 6144) :
    val_main_v30 (F := Ideal) x2 (ix2 i j)
      = gramDist (fun k => x2 (ix2 i k)) (fun k => x2 (ix2 j k)) := by
  rw [val_main_v30_apply, val_main_v28_apply, val_main_v23_apply, val_main_v27_apply, val_main_v26_apply,
    val_main_v29_apply, sq_row, sq_col, inner]
  simp only [val_main_cst_3_apply, val_main_cst_4_apply, Ideal.maximumf_def, Ideal.subf_def, Ideal.addf_def,
    Ideal.mulf_def, Ideal.ofBits_def]
  rfl

/-! ## The ordering bit -/

/-- A natural number below 6144 (so below 2³¹) has a 32-bit word that reads, signed, as the number itself. -/
theorem toInt_ofNat_small (n : Nat) (h : n < 6144) : (BitVec.ofNat 32 n).toInt = (n : Int) := by
  have e : (BitVec.ofNat 32 n).toNat = n := by
    rw [BitVec.toNat_ofNat]; exact Nat.mod_eq_of_lt (by omega)
  rw [BitVec.toInt_eq_toNat_of_lt (by rw [e]; omega), e]

/-- "Row index plus zero at least the column index, signed" selects 0, else 1: the bit "row before column". -/
theorem triu_bit (i j : Fin 6144) :
    Scalar.select (IntOp.cmpi .sge (IntOp.addi (BitVec.ofNat 32 i.val) 0#32) (BitVec.ofNat 32 j.val)) (0#1) (1#1)
      = PairSpec.before i.val j.val := by
  have hi := i.isLt
  have hj := j.isLt
  have key : (BitVec.ofNat 32 j.val).sle (BitVec.ofNat 32 i.val + 0#32) = decide (j.val ≤ i.val) := by
    rw [BitVec.add_zero, BitVec.sle_eq_decide, toInt_ofNat_small _ hi, toInt_ofNat_small _ hj]
    simp
  unfold PairSpec.before Scalar.select IntOp.cmpi IntOp.addi
  show (if BitVec.ofBool ((BitVec.ofNat 32 j.val).sle (BitVec.ofNat 32 i.val + 0#32)) = 1#1 then 0#1 else 1#1) = _
  rw [key]
  by_cases h : i.val < j.val
  · have h' : ¬ j.val ≤ i.val := by omega
    simp [h, h']
  · have h' : j.val ≤ i.val := by omega
    simp [h, h']

/-- The strict upper triangle at entry (i, j). -/
theorem mask_apply (i j : Fin 6144) :
    val_main_v32 (F := Ideal) (ix2 i j) = PairSpec.before i.val j.val := by
  rw [val_main_v32_apply, val_main_call0_v4_apply, val_main_call0_v2_apply, val_main_call0_v0_apply,
    val_main_call0_v1_apply, val_main_call0_c_apply, val_main_call0_v3_apply, val_main_call0_v5_apply,
    val_main_call0_c_0_apply, val_main_v31_apply, val_main_c_5_apply]
  exact triu_bit i j

/-! ## The charges -/

variable (x0 : (⟨S6144x128, .f32⟩ : BufTy).Contents (Elt Ideal)) (x1 : (⟨S6144, .i32⟩ : BufTy).Contents (Elt Ideal))
  (x3 : (⟨S1, .f32⟩ : BufTy).Contents (Elt Ideal)) (x4 : (⟨S1x128, .f32⟩ : BufTy).Contents (Elt Ideal))
  (x5 : (⟨S86x1, .f32⟩ : BufTy).Contents (Elt Ideal))

/-- The charge column, flattened and broadcast along rows: entry (i, j) is the charge of atom i. -/
theorem q_row (i j : Fin 6144) :
    val_main_v74 (F := Ideal) x0 x1 x3 x4 x5 (ix2 i j) = val_main_v15 (F := Ideal) x0 x1 x3 x4 x5 (ix2 i 0) := by
  have e : idx_main_v16 (idx_main_v72 (idx_main_v74 (ix2 i j))) = ix2 i 0 :=
    funext fun a => Fin.ext (by match a with | ⟨0, _⟩ => exact Nat.div_one _ | ⟨1, _⟩ => rfl)
  rw [val_main_v74_apply, val_main_v72_apply, val_main_v16_apply, e]

/-- The charge column, flattened and broadcast along columns: entry (i, j) is the charge of atom j. -/
theorem q_col (i j : Fin 6144) :
    val_main_v75 (F := Ideal) x0 x1 x3 x4 x5 (ix2 i j) = val_main_v15 (F := Ideal) x0 x1 x3 x4 x5 (ix2 j 0) := by
  have e : idx_main_v16 (idx_main_v73 (idx_main_v75 (ix2 i j))) = ix2 j 0 :=
    funext fun a => Fin.ext (by match a with | ⟨0, _⟩ => exact Nat.div_one _ | ⟨1, _⟩ => rfl)
  rw [val_main_v75_apply, val_main_v73_apply, val_main_v16_apply, e]

/-! ## The formula -/

/-- From the floored squared distance, the ordering bit and the two broadcast charges on, the reference computes
    the pair formula entry by entry. -/
theorem formula (y : S6144x6144.Idx) :
    val_main_v78 (F := Ideal) x0 x1 x2 x3 x4 x5 y
      = PairSpec.pairTerm (val_main_v30 (F := Ideal) x2 y) (val_main_v32 (F := Ideal) y)
          (val_main_v74 (F := Ideal) x0 x1 x3 x4 x5 y) (val_main_v75 (F := Ideal) x0 x1 x3 x4 x5 y) := by
  simp only [val_main_v78_apply, val_main_call6_v1_apply, val_main_call6_v0_apply, val_main_cst_23_apply,
    val_main_v77_apply, val_main_v76_apply, val_main_v71_apply, val_main_v67_apply, val_main_v63_apply,
    val_main_v62_apply, val_main_v52_apply, val_main_call3_v1_apply, val_main_call3_v0_apply, val_main_cst_15_apply,
    val_main_v48_apply, val_main_v47_apply, val_main_cst_13_apply, val_main_v51_apply, val_main_v50_apply,
    val_main_v49_apply, val_main_cst_14_apply, val_main_v46_apply, val_main_call2_v1_apply, val_main_call2_v0_apply,
    val_main_cst_12_apply, val_main_v45_apply, val_main_v44_apply, val_main_cst_11_apply, val_main_v43_apply,
    val_main_v42_apply, val_main_cst_10_apply, val_main_v41_apply, val_main_v40_apply, val_main_cst_9_apply,
    val_main_v39_apply, val_main_v38_apply, val_main_cst_8_apply, val_main_v37_apply, val_main_v36_apply,
    val_main_call1_v1_apply, val_main_call1_v0_apply, val_main_cst_7_apply, val_main_v35_apply, val_main_v34_apply,
    val_main_v33_apply, val_main_cst_6_apply, val_main_v61_apply, val_main_call5_v1_apply, val_main_call5_v0_apply,
    val_main_cst_20_apply, val_main_v57_apply, val_main_v56_apply, val_main_cst_18_apply, val_main_v60_apply,
    val_main_v59_apply, val_main_v58_apply, val_main_cst_19_apply, val_main_v55_apply, val_main_call4_v1_apply,
    val_main_call4_v0_apply, val_main_cst_17_apply, val_main_v54_apply, val_main_v53_apply, val_main_cst_16_apply,
    val_main_v66_apply, val_main_v65_apply, val_main_v64_apply, val_main_cst_21_apply, val_main_v70_apply,
    val_main_v69_apply, val_main_v68_apply, val_main_cst_22_apply]
  generalize val_main_v30 (F := Ideal) x2 y = d
  generalize val_main_v32 (F := Ideal) y = up
  generalize val_main_v74 (F := Ideal) x0 x1 x3 x4 x5 y = qa
  generalize val_main_v75 (F := Ideal) x0 x1 x3 x4 x5 y = qb
  rfl

/-- Entry (i, j) of the reference's table: the pair formula at the Gram form of points i and j, the bit
    "i before j", and the charges of atoms i and j. -/
theorem entry (i j : Fin 6144) :
    val_main_v78 (F := Ideal) x0 x1 x2 x3 x4 x5 (ix2 i j)
      = PairSpec.pairTerm (gramDist (fun k => x2 (ix2 i k)) (fun k => x2 (ix2 j k))) (PairSpec.before i.val j.val)
          (val_main_v15 (F := Ideal) x0 x1 x3 x4 x5 (ix2 i 0)) (val_main_v15 (F := Ideal) x0 x1 x3 x4 x5 (ix2 j 0)) := by
  rw [formula, r2_apply, mask_apply, q_row, q_col]

end Cert.RefEntry

end
-- ==== Proof.RefValue.lean ====
/-
  The reference's energy is the pair energy of its arguments: its Gram form of the squared distance,
  sq_i + sq_j - 2 (x_i · x_j), is the direct form Σ_k (x_ik - x_jk)² on real positions, and from there on the
  reference applies, entry by entry, exactly the pair formula, masks by "row < column", and sums.
-/
import proofs.«116778_j56684978372796_1_alg».proof.Proof.Gen.ReferenceIdeal.Read
import proofs.«116778_j56684978372796_1_alg».proof.Proof.PairSpec
import proofs.«116778_j56684978372796_1_alg».proof.Proof.RefGram
import proofs.«116778_j56684978372796_1_alg».proof.Proof.RefEntry
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Idealize.ShloMosaic Idealize.ShloMosaic.ValueIdx Idealize.ShloMosaic.TcCoe Idealize.SL.Sem Cert.ReferenceIdeal Cert
open Cert.ReferenceIdeal.Gen

/-- The charges the reference returns, as its run states them (the second result's term of the arguments). -/
def charges (m : (ℓ : Loc nD τ sig) → Buf (Elt Ideal) ℓ) (c : Dev nD) :
    Buf (Elt Ideal) ((c.tc : Thread nD τ).loc main_v15) :=
  (addf (addf (Host.dotGeneral (φ₁ := .f32) (φ₂ := .f32) dot_S6144x128_S128x1_S6144x1_1_0_0_1_n_n none (m ((c.tc : Thread nD τ).loc main_arg0)) (transpose S128x1 [1, 0] (m ((c.tc : Thread nD τ).loc main_arg4)) transposes_S1x128_S128x1_1_0)) (Host.gather gather_S86x1_S6144x1_S6144x1_1_0_n_n_0_1_11 (m ((c.tc : Thread nD τ).loc main_arg5)) (broadcastInDim S6144x1 ![0] bcast_S6144_S6144x1_0 (select (cmpi .slt (m ((c.tc : Thread nD τ).loc main_arg1)) (broadcastInDim S6144 ![] bcast_S_S6144 (constantI S_ 32 0#32))) (addi (m ((c.tc : Thread nD τ).loc main_arg1)) (broadcastInDim S6144 ![] bcast_S_S6144 (constantI S_ 32 86#32))) (m ((c.tc : Thread nD τ).loc main_arg1)))))) (broadcastInDim S6144x1 ![] bcast_S_S6144x1 (Host.divf (subf (shapeCast _ (m ((c.tc : Thread nD τ).loc main_arg3)) shapeCasts_S1_S_) (Host.reduceAdd (addf (Host.dotGeneral (φ₁ := .f32) (φ₂ := .f32) dot_S6144x128_S128x1_S6144x1_1_0_0_1_n_n none (m ((c.tc : Thread nD τ).loc main_arg0)) (transpose S128x1 [1, 0] (m ((c.tc : Thread nD τ).loc main_arg4)) transposes_S1x128_S128x1_1_0)) (Host.gather gather_S86x1_S6144x1_S6144x1_1_0_n_n_0_1_11 (m ((c.tc : Thread nD τ).loc main_arg5)) (broadcastInDim S6144x1 ![0] bcast_S6144_S6144x1_0 (select (cmpi .slt (m ((c.tc : Thread nD τ).loc main_arg1)) (broadcastInDim S6144 ![] bcast_S_S6144 (constantI S_ 32 0#32))) (addi (m ((c.tc : Thread nD τ).loc main_arg1)) (broadcastInDim S6144 ![] bcast_S_S6144 (constantI S_ 32 86#32))) (m ((c.tc : Thread nD τ).loc main_arg1)))))) (constant S_ .f32 0x00000000#32) reducesTo_S6144x1_S_d0_1 h_S_)) (constant S_ .f32 0x45C00000#32))) : FVec Ideal S6144x1 .f32)

/-- The charges' term is the generated stage of the same operations (the charge chain is never opened). -/
theorem charges_eq (m : (ℓ : Loc nD τ sig) → Buf (Elt Ideal) ℓ) (c : Dev nD) :
    (charges m c : FVec Ideal S6144x1 .f32)
      = Read.val_main_v15 (F := Ideal) (m ((c.tc : Thread nD τ).loc main_arg0)) (m ((c.tc : Thread nD τ).loc main_arg1))
          (m ((c.tc : Thread nD τ).loc main_arg3)) (m ((c.tc : Thread nD τ).loc main_arg4))
          (m ((c.tc : Thread nD τ).loc main_arg5)) :=
  Read.val_main_v15_eq (F := Ideal) (m ((c.tc : Thread nD τ).loc main_arg0)) (m ((c.tc : Thread nD τ).loc main_arg1))
    (m ((c.tc : Thread nD τ).loc main_arg3)) (m ((c.tc : Thread nD τ).loc main_arg4))
    (m ((c.tc : Thread nD τ).loc main_arg5))

/-- The energy stage, over any argument arrays with real positions: the Coulomb constant times the sum, from zero,
    over all positions of the table; the sum over the table's index set is the double sum over rows and columns,
    each entry is the pair formula at the Gram form, and the Gram form of real points is the squared distance. -/
theorem val_energy (x0 : (⟨S6144x128, .f32⟩ : BufTy).Contents (Elt Ideal)) (x1 : (⟨S6144, .i32⟩ : BufTy).Contents (Elt Ideal))
    (x2 : (⟨S6144x3, .f32⟩ : BufTy).Contents (Elt Ideal)) (x3 : (⟨S1, .f32⟩ : BufTy).Contents (Elt Ideal))
    (x4 : (⟨S1x128, .f32⟩ : BufTy).Contents (Elt Ideal)) (x5 : (⟨S86x1, .f32⟩ : BufTy).Contents (Elt Ideal))
    (hfin : ∀ i : S6144x3.Idx, ∃ r : ℝ, x2 i = ((r : ℝ) : EReal)) (i0 : S_.Idx) :
    Read.val_main_v80 (F := Ideal) x0 x1 x2 x3 x4 x5 i0
      = PairSpec.energy (fun i k => x2 (ix2 i k))
          (fun i => Read.val_main_v15 (F := Ideal) x0 x1 x3 x4 x5 (ix2 i 0)) := by
  rw [Read.val_main_v80_apply, Read.val_main_v79_apply, Read.val_main_cst_25_apply, Read.val_main_cst_24_apply]
  simp only [Ideal.mulf_def, Ideal.ofBits_def]
  rw [Ideal.ofBits_zero_f32, zero_add, sum_idx2]
  unfold PairSpec.energy PairSpec.coulomb
  refine congrArg (Ideal.ofBits .f32 0x43A60827#32 * ·) ?_
  refine Finset.sum_congr rfl fun i _ => Finset.sum_congr rfl fun j _ => ?_
  rw [RefEntry.entry]
  unfold RefEntry.gramDist
  rw [RefGram.gram _ _ (fun k => hfin (ix2 i k)) (fun k => hfin (ix2 j k))]

/-- The reference's energy (the first result's term) is the pair energy of the positions and those charges,
    when every position coordinate is a real number. -/
theorem energy_eq (m : (ℓ : Loc nD τ sig) → Buf (Elt Ideal) ℓ) (c : Dev nD)
    (hfin : ∀ i : S6144x3.Idx, ∃ r : ℝ,
      (m ((c.tc : Thread nD τ).loc main_arg2) : FVec Ideal S6144x3 .f32) i = ((r : ℝ) : EReal)) :
    (Cert.ReferenceIdeal.Value.res_out0 (F := Ideal) m c : FVec Ideal S_ .f32)
      = fun _ => PairSpec.energy
          (fun i k => (m ((c.tc : Thread nD τ).loc main_arg2) : FVec Ideal S6144x3 .f32) (ix2 i k))
          (fun i => (charges m c : FVec Ideal S6144x1 .f32) (ix2 i 0)) := by
  funext i0
  show Cert.ReferenceIdeal.Value.res_main_v80 (F := Ideal) m c i0 = _
  rw [Read.val_main_v80_eq, charges_eq]
  exact val_energy _ _ _ _ _ _ hfin i0

end Cert.ReferenceIdeal.RefValue

end
-- ==== Proof.Agree.lean ====
/-
  The two programs compute the charges by the same host operations: from arguments that agree, the charges the
  region finds are the charges the reference returns.
-/
import proofs.«116778_j56684978372796_1_alg».proof.Proof.KernelIdeal.Entry
import proofs.«116778_j56684978372796_1_alg».proof.Proof.RefValue

noncomputable section

namespace Cert.Agree

open Idealize.ShloMosaic Idealize.ShloMosaic.TcCoe Idealize.SL.Sem

section KernelSide

open Cert.KernelIdeal Cert.KernelIdeal.Gen

/-- The charges the kernel program's region finds, as the composed term of the host operations before it: the same
    chain as the reference's (a matrix-vector product plus a table lookup, shifted by the mean defect from the
    total charge), over the kernel program's own arguments.  Holds at every float instance. -/
theorem V_charges {F : FTy → Type} [FloatOps F] (m : (ℓ : Loc nD τ sig) → Buf (Elt F) ℓ) (c : Dev nD) :
    Cert.KernelIdeal.Pair.V m c main_v15
      = addf (addf (Host.dotGeneral dot_S6144x128_S128x1_S6144x1_1_0_0_1_n_n none (m ((c.tc : Thread nD τ).loc main_arg0)) (transpose S128x1 [1, 0] (m ((c.tc : Thread nD τ).loc main_arg4)) transposes_S1x128_S128x1_1_0)) (Host.gather gather_S86x1_S6144x1_S6144x1_1_0_n_n_0_1_11 (m ((c.tc : Thread nD τ).loc main_arg5)) (broadcastInDim S6144x1 ![0] bcast_S6144_S6144x1_0 (select (cmpi .slt (m ((c.tc : Thread nD τ).loc main_arg1)) (broadcastInDim S6144 ![] bcast_S_S6144 (constantI S_ 32 0#32))) (addi (m ((c.tc : Thread nD τ).loc main_arg1)) (broadcastInDim S6144 ![] bcast_S_S6144 (constantI S_ 32 86#32))) (m ((c.tc : Thread nD τ).loc main_arg1)))))) (broadcastInDim S6144x1 ![] bcast_S_S6144x1 (Host.divf (subf (shapeCast _ (m ((c.tc : Thread nD τ).loc main_arg3)) shapeCasts_S1_S_) (Host.reduceAdd (addf (Host.dotGeneral dot_S6144x128_S128x1_S6144x1_1_0_0_1_n_n none (m ((c.tc : Thread nD τ).loc main_arg0)) (transpose S128x1 [1, 0] (m ((c.tc : Thread nD τ).loc main_arg4)) transposes_S1x128_S128x1_1_0)) (Host.gather gather_S86x1_S6144x1_S6144x1_1_0_n_n_0_1_11 (m ((c.tc : Thread nD τ).loc main_arg5)) (broadcastInDim S6144x1 ![0] bcast_S6144_S6144x1_0 (select (cmpi .slt (m ((c.tc : Thread nD τ).loc main_arg1)) (broadcastInDim S6144 ![] bcast_S_S6144 (constantI S_ 32 0#32))) (addi (m ((c.tc : Thread nD τ).loc main_arg1)) (broadcastInDim S6144 ![] bcast_S_S6144 (constantI S_ 32 86#32))) (m ((c.tc : Thread nD τ).loc main_arg1)))))) (constant S_ .f32 0x00000000#32) reducesTo_S6144x1_S_d0_1 h_S_)) (constant S_ .f32 0x45C00000#32))) := by
  show StableHlo.after hostOps0 (fun b => m (c, b)) (Proc.devRef .tc main_v15) = _
  after_results_simp
  rfl

end KernelSide

/-- From argument buffers that agree, the kernel program's charges at the region's entry are the reference's. -/
theorem charges_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    (Cert.ReferenceIdeal.RefValue.charges m' c : FVec Ideal Cert.ReferenceIdeal.S6144x1 .f32)
      = (Cert.KernelIdeal.Pair.V m c Cert.KernelIdeal.main_v15 : FVec Ideal Cert.KernelIdeal.S6144x1 .f32) := by
  rw [V_charges (F := Ideal) m c]
  unfold Cert.ReferenceIdeal.RefValue.charges
  rw [h0, h1, h3, h4, h5]
  rfl

end Cert.Agree

end
-- ==== Proof.LibRealSum.lean ====
/-
  Sums of real numbers inside the extended reals.

  The coercion of a finite sum of reals is the sum of the coercions. Consequently, when every factor is a real
  number, a weighted double sum may be taken in either order:
      Σ_e (Σ_k x e k · W k) · r e  =  Σ_k (Σ_e x e k · r e) · W k .
  (Over the extended reals in general this fails: multiplication does not distribute over a sum that mixes +∞ and −∞.)
-/
import Mathlib

noncomputable section

open scoped BigOperators

namespace Cert.LibRealSum

/-- An extended real that is (the coercion of) a real number. -/
def IsReal (x : EReal) : Prop := ∃ a : ℝ, x = (a : EReal)

theorem isReal_coe (a : ℝ) : IsReal (a : EReal) := ⟨a, rfl⟩
theorem isReal_zero : IsReal 0 := ⟨0, rfl⟩
theorem isReal_one : IsReal 1 := ⟨1, rfl⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert j s hj ih => rw [Finset.sum_insert hj, Finset.sum_insert hj, EReal.coe_add, ih]

theorem isReal_sum {ι : Type*} (s : Finset ι) (f : ι → EReal) (h : ∀ i ∈ s, IsReal (f i)) : IsReal (∑ i ∈ s, f i) := by
  classical
  induction s using Finset.induction_on with
  | empty => simpa using isReal_zero
  | insert j s hj ih =>
    rw [Finset.sum_insert hj]
    exact (h j (Finset.mem_insert_self j s)).add (ih fun i hi => h i (Finset.mem_insert_of_mem hi))

/-- THE LAW: with real factors, the weighted double sum in either order. -/
theorem sum_mul_sum_swap {ι κ : Type*} [Fintype κ] (s : Finset ι) (x : ι → κ → EReal) (r : ι → EReal) (W : κ → EReal)
    (hx : ∀ e k, IsReal (x e k)) (hr : ∀ e, IsReal (r e)) (hW : ∀ k, IsReal (W k)) :
    ∑ e ∈ s, (∑ k, x e k * W k) * r e = ∑ k, (∑ e ∈ s, x e k * r e) * W k := by
  classical
  choose x' hx' using hx
  choose r' hr' using hr
  choose W' hW' using hW
  simp only [hx', hr', hW', ← EReal.coe_mul, ← coe_finset_sum]
  refine congrArg _ ?_
  simp only [Finset.sum_mul]
  rw [Finset.sum_comm]
  exact Finset.sum_congr rfl fun k _ => Finset.sum_congr rfl fun e _ => by ring

end Cert.LibRealSum

end
-- ==== Proof.LibFiniteAll.lean ====
/-
  An array every entry of which passes the test |x| < +∞ consists of real numbers.

  On the extended reals the absolute value is max x (−x), the pattern 0x7F800000 of the 32-bit format denotes
  +∞, and the comparison "less than" is the order's. An extended real x with max x (−x) < +∞ is neither +∞ nor
  −∞ (at either infinity the maximum is +∞), so it is a real number. A conjunction over a whole array of such
  tests, computed as a reduction by "and" from the constant 1 down to a single word, equals 1 only if every
  test does; hence every entry of the array is a real number.
-/
import Mathlib
import Idealize.ShloMosaic.PureOps.Ideal
import Idealize.ShloMosaic.PureOps.Ideal.Laws
import Idealize.ShloMosaic.Lib.ReduceAll
import Idealize.ShloMosaic.Lib.ValueIdx
import proofs.«116778_j56684978372796_1_alg».proof.Proof.LibRealSum

noncomputable section

open Idealize.ShloMosaic
open Cert.LibRealSum

namespace Cert.Lib.FiniteAll

/-- The pattern of the positive infinity denotes +∞. -/
theorem ofBits_inf_f32 : Ideal.ofBits .f32 0x7F800000#32 = ⊤ := by simp [Ideal.ofBits, Ideal.ieee]

/-- An extended real whose absolute value is below +∞ is a real number. -/
theorem isReal_of_abs_lt_top (x : EReal) (h : max x (-x) < ⊤) : IsReal x := by
  induction x using EReal.rec with
  | bot => simp at h
  | coe a => exact ⟨a, rfl⟩
  | top => simp at h

/-- The same, with the test as the comparison word it is computed as. -/
theorem isReal_of_cmp (x : EReal)
    (h : Ideal.cmp .olt (max x (-x)) (Ideal.ofBits .f32 0x7F800000#32) = 1#1) : IsReal x := by
  rw [ofBits_inf_f32] at h
  refine isReal_of_abs_lt_top x ?_
  by_contra hn
  simp [Ideal.cmp, hn] at h

/-- The shape with no axes has one index. -/
instance subsingleton_scalarIdx : Subsingleton (⟨0, ![]⟩ : Shape).Idx := ⟨fun a b => funext fun d => d.elim0⟩

/-- If the conjunction over the whole array of the tests |x i| < +∞ is 1, every entry is a real number. -/
theorem all_real {s : Shape} {axes : List (Fin s.rank)} (x : FVec Ideal s .f32) (init : IVec ⟨0, ![]⟩ 1)
    (hr : s.ReducesTo axes ⟨0, ![]⟩) (hu : 0 < (⟨0, ![]⟩ : Shape).numel)
    (hb : (⟨0, ![]⟩ : Shape).BroadcastsInDim s (![] : Fin 0 → Fin s.rank))
    (e : Host.reduce IntOp.andi
          (cmpf .olt (Host.absf x) (broadcastInDim s ![] hb (constant (F := Ideal) ⟨0, ![]⟩ .f32 0x7F800000#32)))
          init hr hu ValueIdx.ix0 = 1#1)
    (i : s.Idx) : IsReal (x i) := by
  have h := Host.reduce_andi_all _ init hr hu ValueIdx.ix0 e i
  exact isReal_of_cmp (x i) h

end Cert.Lib.FiniteAll

end
-- ==== Proof.FiniteXyz.lean ====
/-
  Under the precondition every position coordinate is a real number.

  The precondition is a conjunction of five tests, one per floating-point input, each saying that every entry x
  of that input has |x| < +∞.  The conjunction being 1, the test on the positions is 1, and an extended real
  whose absolute value is below +∞ is a real number.
-/
import proofs.«116778_j56684978372796_1_alg».proof.Pre_finite_inputs
import proofs.«116778_j56684978372796_1_alg».proof.Proof.LibFiniteAll
import Idealize.ShloMosaic.Lib.ReduceAll
import Idealize.ShloMosaic.Lib.ValueIdx

noncomputable section

open Idealize.ShloMosaic

namespace Cert

/-- Under the precondition every entry of the array of positions is a real number. -/
theorem xyz_real [Cert.Pre_finite_inputs.Facts]
    (a0 : FVec Ideal Cert.Pre_finite_inputs.S6144x128 .f32) (a1 : IVec Cert.Pre_finite_inputs.S6144 32)
    (a2 : FVec Ideal Cert.Pre_finite_inputs.S6144x3 .f32) (a3 : FVec Ideal Cert.Pre_finite_inputs.S1 .f32)
    (a4 : FVec Ideal Cert.Pre_finite_inputs.S1x128 .f32) (a5 : FVec Ideal Cert.Pre_finite_inputs.S86x1 .f32)
    (h : Cert.Pre_finite_inputs.fn (F := Ideal) a0 a1 a2 a3 a4 a5 = fun _ => 1#1) :
    ∀ i, ∃ r : ℝ, a2 i = ((r : ℝ) : EReal) := by
  intro i
  have h0 := congrFun h ValueIdx.ix0
  unfold Cert.Pre_finite_inputs.fn Cert.Pre_finite_inputs.fn_part1 at h0
  dsimp only at h0
  have h18 := (IntOp.andi_eq_one.1 h0).1
  have h13 := (IntOp.andi_eq_one.1 h18).1
  have h8 := (IntOp.andi_eq_one.1 h13).1
  have h7 := (IntOp.andi_eq_one.1 h8).2
  exact Cert.Lib.FiniteAll.all_real a2 _ Cert.Pre_finite_inputs.Facts.reducesTo_S6144x3_S_d0_1
    Cert.Pre_finite_inputs.Facts.h_S_ Cert.Pre_finite_inputs.Facts.bcast_S_S6144x3 h7 i

end Cert

end
-- ==== Proof.lean ====
/-
  Pairwise electrostatic energy over 6144 atoms: a tiled kernel against a whole-table reference.

  Both programs first compute the charges q by the same host operations.  The kernel then walks a 12 × 12 grid of
  512 × 512 tiles of the table of atom pairs; in each tile it forms the squared distances directly,
  Σ_k (x_ik − x_jk)², floors them at 0, applies the switch-function formula where j > i and the distance is
  positive, sums the tile and adds the sum to a running total; after the last tile it multiplies the total by the
  Coulomb constant.  The reference forms the squared distances of the whole table by the Gram identity,
  |x_i|² + |x_j|² − 2 x_i·x_j, and from there on applies the same formula, the same mask, one sum over the whole
  table, and the same constant.

  Over the extended reals the two results are equal because (1) for REAL coordinates — the precondition says the
  positions are finite — the Gram form is the direct form; (2) addition on the extended reals is commutative and
  associative, so the tiles' sums added in grid order are the whole table's sum; (3) multiplication is
  commutative.  Nothing else is used; every other step of the formula is literally the same on both sides.

  The frames: the kernel program's run is established at any float instance (the body's three control cases —
  first grid point, last grid point, the others — each run once symbolically; the two windows on the positions'
  array, and the two on the charges', holding that array's buffer by halves), and read at the word-level and at
  the ideal instance; the reference's run is a straight line of host operations.
-/
import proofs.«116778_j56684978372796_1_alg».proof.Defs
import proofs.«116778_j56684978372796_1_alg».proof.Proof.Gen.Kernel
import proofs.«116778_j56684978372796_1_alg».proof.Proof.Gen.KernelIdeal
import proofs.«116778_j56684978372796_1_alg».proof.Proof.Gen.ReferenceIdeal
import proofs.«116778_j56684978372796_1_alg».proof.Proof.Gen.Pre_finite_inputs
import proofs.«116778_j56684978372796_1_alg».proof.Proof.Kernel.Results
import proofs.«116778_j56684978372796_1_alg».proof.Proof.KernelIdeal.Results
import proofs.«116778_j56684978372796_1_alg».proof.Proof.KernelIdeal.Total
import proofs.«116778_j56684978372796_1_alg».proof.Proof.RefValue
import proofs.«116778_j56684978372796_1_alg».proof.Proof.Agree
import proofs.«116778_j56684978372796_1_alg».proof.Proof.FiniteXyz
import Idealize.ShloMosaic.Adequacy
import Idealize.ShloMosaic.Init

noncomputable section

namespace Cert.Proof

open Idealize.ShloMosaic Idealize.ShloMosaic.ValueIdx Idealize.ShloMosaic.TcCoe Idealize.SL.Sem

theorem frame_k : Cert.frame_Kernel := fun m ρ _ => Cert.Kernel.Pair.frame m ρ

theorem frame_ki : Cert.frame_KernelIdeal := fun m ρ _ => Cert.KernelIdeal.Pair.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- The kernel program's scalar result: the reshaped 1 × 1 output is the pair energy of the positions and of the
    charges the region finds. -/
theorem kernel_energy (m : (ℓ : Loc Cert.KernelIdeal.nD Cert.KernelIdeal.τ Cert.KernelIdeal.sig) → Buf (Elt Ideal) ℓ) (c : Dev Cert.KernelIdeal.nD) :
    (shapeCast Cert.KernelIdeal.S_ (Cert.KernelIdeal.Pair.result m c) Cert.KernelIdeal.Facts₀.shapeCasts_S1x1_S_ : FVec Ideal Cert.KernelIdeal.S_ .f32)
      = fun _ => Cert.PairSpec.energy
          (fun i k => (m ((c.tc : Thread Cert.KernelIdeal.nD Cert.KernelIdeal.τ).loc Cert.KernelIdeal.main_arg2) : FVec Ideal Cert.KernelIdeal.S6144x3 .f32) (ix2 i k))
          (fun i => (Cert.KernelIdeal.Pair.V m c Cert.KernelIdeal.main_v15 : FVec Ideal Cert.KernelIdeal.S6144x1 .f32) (ix2 i 0)) := by
  funext j
  rw [← Cert.KernelIdeal.Pair.V_arg2 m c]
  unfold shapeCast
  exact Cert.KernelIdeal.Pair.total_eq m c _ _

/-- At the ideal instance, from memories agreeing on the arguments, both programs end with the pair energy of the
    positions and charges, and with the same charges. -/
theorem algebraic : Cert.algebraic_KernelIdeal_ReferenceIdeal := by
  intro m ρ m' ρ' hpre hagree
  refine ⟨fun c => fun _ => Cert.PairSpec.energy
      (fun i k => (m ((c.tc : Thread Cert.KernelIdeal.nD Cert.KernelIdeal.τ).loc Cert.KernelIdeal.main_arg2) : FVec Ideal Cert.KernelIdeal.S6144x3 .f32) (ix2 i k))
      (fun i => (Cert.KernelIdeal.Pair.V m c Cert.KernelIdeal.main_v15 : FVec Ideal Cert.KernelIdeal.S6144x1 .f32) (ix2 i 0)),
    fun c => Cert.KernelIdeal.Pair.V m c Cert.KernelIdeal.main_v15, ?_, ?_⟩
  · exact (θ_run Cert.KernelIdeal.defs _ _).mono (fun _ h c => ⟨(h c).1.trans (kernel_energy m c), (h c).2⟩)
      (Cert.KernelIdeal.Pair.run (F := Ideal) m ρ)
  · refine (θ_run Cert.ReferenceIdeal.defs _ _).mono (fun _ h c => ⟨(h c).1.trans ?_, (h c).2.1.trans ?_, (h c).2.2⟩)
      (Cert.ReferenceIdeal.Value.run (F := Ideal) m' ρ')
    · have hq := Cert.Agree.charges_agree m m' c (hagree c).1 (hagree c).2.1 (hagree c).2.2.2.1 (hagree c).2.2.2.2.1 (hagree c).2.2.2.2.2
      have hx := (hagree c).2.2.1
      have hfin : ∀ i : Cert.ReferenceIdeal.S6144x3.Idx, ∃ r : ℝ,
          (m' ((c.tc : Thread Cert.ReferenceIdeal.nD Cert.ReferenceIdeal.τ).loc Cert.ReferenceIdeal.main_arg2) : FVec Ideal Cert.ReferenceIdeal.S6144x3 .f32) i = ((r : ℝ) : EReal) := by
        rw [hx]
        exact Cert.xyz_real _ _ _ _ _ _ (hpre c)
      show (Cert.ReferenceIdeal.Value.res_out0 (F := Ideal) m' c : FVec Ideal Cert.ReferenceIdeal.S_ .f32) = _
      rw [Cert.ReferenceIdeal.RefValue.energy_eq m' c hfin, hx, hq]
      rfl
    · exact Cert.Agree.charges_agree m m' c (hagree c).1 (hagree c).2.1 (hagree c).2.2.2.1 (hagree c).2.2.2.2.1 (hagree c).2.2.2.2.2

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
